-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x160x160x160 : Shape := ⟨4, ![4, 160, 160, 160]⟩
abbrev S61 : Shape := ⟨1, ![61]⟩
abbrev S_ : Shape := ⟨0, ![]⟩

class Facts : Prop where
  bcast_S_S4x160x160x160 : S_.BroadcastsInDim S4x160x160x160 (![] : Fin 0 → Fin S4x160x160x160.rank)
  reducesTo_S4x160x160x160_S_d0_1_2_3 : S4x160x160x160.ReducesTo [0, 1, 2, 3] S_
  h_S_ : 0 < S_.numel

variable [Facts]

def fn {F : FTy → Type} [FloatOps F] (main_arg0 : IVec S4x160x160x160 32) (main_arg1 : IVec S61 32) : IVec S_ 1 :=
  let main_c : IVec S_ 32 := constantI S_ 32 0#32
  let main_v0 : IVec S4x160x160x160 32 := broadcastInDim S4x160x160x160 ![] bcast_S_S4x160x160x160 main_c
  let main_v1 : IVec S4x160x160x160 1 := cmpi .sge main_arg0 main_v0
  let main_c_0 : IVec S_ 32 := constantI S_ 32 60#32
  let main_v2 : IVec S4x160x160x160 32 := broadcastInDim S4x160x160x160 ![] bcast_S_S4x160x160x160 main_c_0
  let main_v3 : IVec S4x160x160x160 1 := cmpi .sle main_arg0 main_v2
  let main_v4 : IVec S4x160x160x160 1 := andi main_v1 main_v3
  let main_c_1 : IVec S_ 1 := constantI S_ 1 1#1
  let main_v5 : IVec S_ 1 := (fun x v => Host.reduce IntOp.andi x v reducesTo_S4x160x160x160_S_d0_1_2_3 h_S_) main_v4 main_c_1
  main_v5
-- ==== Kernel.lean ====
abbrev S4x160x160x160 : Shape := ⟨4, ![4, 160, 160, 160]⟩
abbrev S61 : Shape := ⟨1, ![61]⟩
abbrev S80x160 : Shape := ⟨2, ![80, 160]⟩
abbrev S_ : Shape := ⟨0, ![]⟩
abbrev S1x1x80x160 : Shape := ⟨4, ![1, 1, 80, 160]⟩
abbrev S16 : Shape := ⟨1, ![16]⟩
abbrev S1x16 : Shape := ⟨2, ![1, 16]⟩

abbrev nBuf : Table → Nat
  | .hbm => 3
  | .local .scVector .vmem => 5
  | _ => 0

abbrev bufTy : (tb : Table) → Fin (nBuf tb) → BufTy
  | .hbm, ⟨0, _⟩ => ⟨S4x160x160x160, .i32⟩
  | .hbm, ⟨1, _⟩ => ⟨S61, .i32⟩
  | .hbm, ⟨2, _⟩ => ⟨S4x160x160x160, .i32⟩
  | .local .scVector .vmem, ⟨0, _⟩ => ⟨S61, .i32⟩
  | .local .scVector .vmem, ⟨1, _⟩ => ⟨S80x160, .i32⟩
  | .local .scVector .vmem, ⟨2, _⟩ => ⟨S80x160, .i32⟩
  | .local .scVector .vmem, ⟨3, _⟩ => ⟨S80x160, .i32⟩
  | .local .scVector .vmem, ⟨4, _⟩ => ⟨S80x160, .i32⟩
  | _, _ => ⟨S4x160x160x160, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let v30 : BitVec 32 := Scalar.addi v29 c0_i32_10
  let c0_i32_11 : BitVec 32 := 0#32
  let c0_i32_12 : BitVec 32 := 0#32
  ![v18.toNat, v30.toNat, 0, 0]
def k0_off2 (i : grid0.Coords) (c0_i32_15 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let v35 : BitVec 32 := Scalar.addi v29 c0_i32_15
  let c80_i32 : BitVec 32 := 80#32
  let c0_i32_16 : BitVec 32 := 0#32
  ![v18.toNat, v35.toNat, 80, 0]
@[reducible] def k0_t1_loop : Scf.Loop 32 :=
  let c0_i32_20 : BitVec 32 := 0#32
  let c20_i32_21 : BitVec 32 := 20#32
  let v40 : BitVec 32 := Scalar.addi c0_i32_20 c20_i32_21
  let c1_i32_22 : BitVec 32 := 1#32
  ⟨c0_i32_20, v40, c1_i32_22⟩
def k0_off3 (i : grid0.Coords) (k0_t1 : Fin k0_t1_loop.trips) (c0_i32_34 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let c0_i32_20 : BitVec 32 := 0#32
  let c1_i32_22 : BitVec 32 := 1#32
  let arg14 : BitVec 32 := Scf.iv c0_i32_20 c1_i32_22 k0_t1
  let c2_i32_33 : BitVec 32 := 2#32
  let v52 : BitVec 32 := Scalar.muli arg14 c2_i32_33
  let v53 : BitVec 32 := Scalar.addi v52 c0_i32_34
  let c1_i32_35 : BitVec 32 := 1#32
  let v54 : BitVec 32 := Scalar.shrsi v53 c1_i32_35
  let v55 : BitVec 32 := Scalar.addi v29 v54
  let c1_i32_36 : BitVec 32 := 1#32
  let v56 : BitVec 32 := Scalar.andi v53 c1_i32_36
  let c80_i32_37 : BitVec 32 := 80#32
  let v57 : BitVec 32 := Scalar.muli v56 c80_i32_37
  let c0_i32_38 : BitVec 32 := 0#32
  ![v18.toNat, v55.toNat, v57.toNat, 0]
def k0_cond1 (k0_t1 : Fin k0_t1_loop.trips) : BitVec 1 :=
  let c0_i32_20 : BitVec 32 := 0#32
  let c1_i32_22 : BitVec 32 := 1#32
  let arg14 : BitVec 32 := Scf.iv c0_i32_20 c1_i32_22 k0_t1
  let c2_i32_33 : BitVec 32 := 2#32
  let v52 : BitVec 32 := Scalar.muli arg14 c2_i32_33
  let c0_i32_34 : BitVec 32 := 0#32
  let v53 : BitVec 32 := Scalar.addi v52 c0_i32_34
  let c2_i32_40 : BitVec 32 := 2#32
  let v62 : BitVec 1 := Scalar.cmpi .sge v53 c2_i32_40
  let v63 : BitVec 32 := Scalar.extui v62
  let c0_i32_41 : BitVec 32 := 0#32
  let v64 : BitVec 1 := Scalar.cmpi .ne v63 c0_i32_41
  v64

def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let c0_i32_20 : BitVec 32 := 0#32
  let c1_i32_22 : BitVec 32 := 1#32
  let arg14 : BitVec 32 := Scf.iv c0_i32_20 c1_i32_22 k0_t1
  let c2_i32_33 : BitVec 32 := 2#32
  let v52 : BitVec 32 := Scalar.muli arg14 c2_i32_33
  let c0_i32_34 : BitVec 32 := 0#32
  let v53 : BitVec 32 := Scalar.addi v52 c0_i32_34
  let c2_i32_77 : BitVec 32 := 2#32
  let v106 : BitVec 32 := Scalar.subi v53 c2_i32_77
  let c1_i32_78 : BitVec 32 := 1#32
  let v107 : BitVec 32 := Scalar.shrsi v106 c1_i32_78
  let v108 : BitVec 32 := Scalar.addi v29 v107
  let c1_i32_79 : BitVec 32 := 1#32
  let v109 : BitVec 32 := Scalar.andi v106 c1_i32_79
  let c80_i32_80 : BitVec 32 := 80#32
  let v110 : BitVec 32 := Scalar.muli v109 c80_i32_80
  let c0_i32_81 : BitVec 32 := 0#32
  ![v18.toNat, v108.toNat, v110.toNat, 0]
@[reducible] def k0_t2_loop : Scf.Loop 32 :=
  let c0_i32_43 : BitVec 32 := 0#32
  let c80_i32_44 : BitVec 32 := 80#32
  let v65 : BitVec 32 := Scalar.addi c0_i32_43 c80_i32_44
  let c1_i32_45 : BitVec 32 := 1#32
  ⟨c0_i32_43, v65, c1_i32_45⟩
def k0_off5 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v106 : Index := Scalar.indexCast arg16
  let c0 : Index := 0#32
  ![v106.toNat, 0]
def k0_off6 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v108 : Index := Scalar.indexCast arg16
  let c16 : Index := 16#32
  ![v108.toNat, 16]
def k0_off7 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v110 : Index := Scalar.indexCast arg16
  let c32 : Index := 32#32
  ![v110.toNat, 32]
def k0_off8 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v112 : Index := Scalar.indexCast arg16
  let c48 : Index := 48#32
  ![v112.toNat, 48]
def k0_off9 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v114 : Index := Scalar.indexCast arg16
  let c64 : Index := 64#32
  ![v114.toNat, 64]
def k0_off10 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v116 : Index := Scalar.indexCast arg16
  let c80 : Index := 80#32
  ![v116.toNat, 80]
def k0_off11 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v118 : Index := Scalar.indexCast arg16
  let c96 : Index := 96#32
  ![v118.toNat, 96]
def k0_off12 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v120 : Index := Scalar.indexCast arg16
  let c112 : Index := 112#32
  ![v120.toNat, 112]
def k0_off13 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v122 : Index := Scalar.indexCast arg16
  let c128 : Index := 128#32
  ![v122.toNat, 128]
def k0_off14 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v124 : Index := Scalar.indexCast arg16
  let c144 : Index := 144#32
  ![v124.toNat, 144]

def k0_chk1 (v107 : IVec S16 32) : Prop :=
  (∀ a x, ((![v107] : Fin 1 → IVec S16 32) a x).toNat < S61.size a)
instance k0_chk1.dec : ∀ (v107 : IVec S16 32), Decidable (k0_chk1 v107) := fun v107 => decidable_of_iff' _ (Iff.of_eq (k0_chk1.eq_1 v107))
theorem k0_idx1_inb : ∀ (v107 : IVec S16 32) (k0_hw1 : k0_chk1 v107), ∀ a x, ((![v107] : Fin 1 → IVec S16 32) a x).toNat < S61.size a := fun v107 k0_hw1 => k0_hw1

def k0_chk2 (v109 : IVec S16 32) : Prop :=
  (∀ a x, ((![v109] : Fin 1 → IVec S16 32) a x).toNat < S61.size a)
instance k0_chk2.dec : ∀ (v109 : IVec S16 32), Decidable (k0_chk2 v109) := fun v109 => decidable_of_iff' _ (Iff.of_eq (k0_chk2.eq_1 v109))
theorem k0_idx2_inb : ∀ (v109 : IVec S16 32) (k0_hw2 : k0_chk2 v109), ∀ a x, ((![v109] : Fin 1 → IVec S16 32) a x).toNat < S61.size a := fun v109 k0_hw2 => k0_hw2

def k0_chk3 (v111 : IVec S16 32) : Prop :=
  (∀ a x, ((![v111] : Fin 1 → IVec S16 32) a x).toNat < S61.size a)
instance k0_chk3.dec : ∀ (v111 : IVec S16 32), Decidable (k0_chk3 v111) := fun v111 => decidable_of_iff' _ (Iff.of_eq (k0_chk3.eq_1 v111))
theorem k0_idx3_inb : ∀ (v111 : IVec S16 32) (k0_hw3 : k0_chk3 v111), ∀ a x, ((![v111] : Fin 1 → IVec S16 32) a x).toNat < S61.size a := fun v111 k0_hw3 => k0_hw3

def k0_chk4 (v113 : IVec S16 32) : Prop :=
  (∀ a x, ((![v113] : Fin 1 → IVec S16 32) a x).toNat < S61.size a)
instance k0_chk4.dec : ∀ (v113 : IVec S16 32), Decidable (k0_chk4 v113) := fun v113 => decidable_of_iff' _ (Iff.of_eq (k0_chk4.eq_1 v113))
theorem k0_idx4_inb : ∀ (v113 : IVec S16 32) (k0_hw4 : k0_chk4 v113), ∀ a x, ((![v113] : Fin 1 → IVec S16 32) a x).toNat < S61.size a := fun v113 k0_hw4 => k0_hw4

def k0_chk5 (v115 : IVec S16 32) : Prop :=
  (∀ a x, ((![v115] : Fin 1 → IVec S16 32) a x).toNat < S61.size a)
instance k0_chk5.dec : ∀ (v115 : IVec S16 32), Decidable (k0_chk5 v115) := fun v115 => decidable_of_iff' _ (Iff.of_eq (k0_chk5.eq_1 v115))
theorem k0_idx5_inb : ∀ (v115 : IVec S16 32) (k0_hw5 : k0_chk5 v115), ∀ a x, ((![v115] : Fin 1 → IVec S16 32) a x).toNat < S61.size a := fun v115 k0_hw5 => k0_hw5

def k0_chk6 (v117 : IVec S16 32) : Prop :=
  (∀ a x, ((![v117] : Fin 1 → IVec S16 32) a x).toNat < S61.size a)
instance k0_chk6.dec : ∀ (v117 : IVec S16 32), Decidable (k0_chk6 v117) := fun v117 => decidable_of_iff' _ (Iff.of_eq (k0_chk6.eq_1 v117))
theorem k0_idx6_inb : ∀ (v117 : IVec S16 32) (k0_hw6 : k0_chk6 v117), ∀ a x, ((![v117] : Fin 1 → IVec S16 32) a x).toNat < S61.size a := fun v117 k0_hw6 => k0_hw6

def k0_chk7 (v119 : IVec S16 32) : Prop :=
  (∀ a x, ((![v119] : Fin 1 → IVec S16 32) a x).toNat < S61.size a)
instance k0_chk7.dec : ∀ (v119 : IVec S16 32), Decidable (k0_chk7 v119) := fun v119 => decidable_of_iff' _ (Iff.of_eq (k0_chk7.eq_1 v119))
theorem k0_idx7_inb : ∀ (v119 : IVec S16 32) (k0_hw7 : k0_chk7 v119), ∀ a x, ((![v119] : Fin 1 → IVec S16 32) a x).toNat < S61.size a := fun v119 k0_hw7 => k0_hw7

def k0_chk8 (v121 : IVec S16 32) : Prop :=
  (∀ a x, ((![v121] : Fin 1 → IVec S16 32) a x).toNat < S61.size a)
instance k0_chk8.dec : ∀ (v121 : IVec S16 32), Decidable (k0_chk8 v121) := fun v121 => decidable_of_iff' _ (Iff.of_eq (k0_chk8.eq_1 v121))
theorem k0_idx8_inb : ∀ (v121 : IVec S16 32) (k0_hw8 : k0_chk8 v121), ∀ a x, ((![v121] : Fin 1 → IVec S16 32) a x).toNat < S61.size a := fun v121 k0_hw8 => k0_hw8

def k0_chk9 (v123 : IVec S16 32) : Prop :=
  (∀ a x, ((![v123] : Fin 1 → IVec S16 32) a x).toNat < S61.size a)
instance k0_chk9.dec : ∀ (v123 : IVec S16 32), Decidable (k0_chk9 v123) := fun v123 => decidable_of_iff' _ (Iff.of_eq (k0_chk9.eq_1 v123))
theorem k0_idx9_inb : ∀ (v123 : IVec S16 32) (k0_hw9 : k0_chk9 v123), ∀ a x, ((![v123] : Fin 1 → IVec S16 32) a x).toNat < S61.size a := fun v123 k0_hw9 => k0_hw9

def k0_chk10 (v125 : IVec S16 32) : Prop :=
  (∀ a x, ((![v125] : Fin 1 → IVec S16 32) a x).toNat < S61.size a)
instance k0_chk10.dec : ∀ (v125 : IVec S16 32), Decidable (k0_chk10 v125) := fun v125 => decidable_of_iff' _ (Iff.of_eq (k0_chk10.eq_1 v125))
theorem k0_idx10_inb : ∀ (v125 : IVec S16 32) (k0_hw10 : k0_chk10 v125), ∀ a x, ((![v125] : Fin 1 → IVec S16 32) a x).toNat < S61.size a := fun v125 k0_hw10 => k0_hw10
def k0_off15 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v136 : Index := Scalar.indexCast arg16
  let c0_77 : Index := 0#32
  ![v136.toNat, 0]
def k0_off16 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v138 : Index := Scalar.indexCast arg16
  let c16_78 : Index := 16#32
  ![v138.toNat, 16]
def k0_off17 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v140 : Index := Scalar.indexCast arg16
  let c32_79 : Index := 32#32
  ![v140.toNat, 32]
def k0_off18 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v142 : Index := Scalar.indexCast arg16
  let c48_80 : Index := 48#32
  ![v142.toNat, 48]
def k0_off19 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v144 : Index := Scalar.indexCast arg16
  let c64_81 : Index := 64#32
  ![v144.toNat, 64]
def k0_off20 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v146 : Index := Scalar.indexCast arg16
  let c80_82 : Index := 80#32
  ![v146.toNat, 80]
def k0_off21 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v148 : Index := Scalar.indexCast arg16
  let c96_83 : Index := 96#32
  ![v148.toNat, 96]
def k0_off22 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v150 : Index := Scalar.indexCast arg16
  let c112_84 : Index := 112#32
  ![v150.toNat, 112]
def k0_off23 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v152 : Index := Scalar.indexCast arg16
  let c128_85 : Index := 128#32
  ![v152.toNat, 128]
def k0_off24 (k0_t2 : Fin k0_t2_loop.trips) : Fin 2 → Nat :=
  let c0_i32_43 : BitVec 32 := 0#32
  let c1_i32_45 : BitVec 32 := 1#32
  let arg16 : BitVec 32 := Scf.iv c0_i32_43 c1_i32_45 k0_t2
  let v154 : Index := Scalar.indexCast arg16
  let c144_86 : Index := 144#32
  ![v154.toNat, 144]
def k0_cond2 (k0_t1 : Fin k0_t1_loop.trips) : BitVec 1 :=
  let c0_i32_20 : BitVec 32 := 0#32
  let c1_i32_22 : BitVec 32 := 1#32
  let arg14 : BitVec 32 := Scf.iv c0_i32_20 c1_i32_22 k0_t1
  let c2_i32_33 : BitVec 32 := 2#32
  let v52 : BitVec 32 := Scalar.muli arg14 c2_i32_33
  let c0_i32_34 : BitVec 32 := 0#32
  let v53 : BitVec 32 := Scalar.addi v52 c0_i32_34
  let c2_i32_52 : BitVec 32 := 2#32
  let v75 : BitVec 32 := Scalar.addi v53 c2_i32_52
  let c40_i32 : BitVec 32 := 40#32
  let v76 : BitVec 1 := Scalar.cmpi .slt v75 c40_i32
  let v77 : BitVec 32 := Scalar.extui v76
  let c0_i32_53 : BitVec 32 := 0#32
  let v78 : BitVec 1 := Scalar.cmpi .ne v77 c0_i32_53
  v78

def k0_off25 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let c0_i32_20 : BitVec 32 := 0#32
  let c1_i32_22 : BitVec 32 := 1#32
  let arg14 : BitVec 32 := Scf.iv c0_i32_20 c1_i32_22 k0_t1
  let c2_i32_33 : BitVec 32 := 2#32
  let v52 : BitVec 32 := Scalar.muli arg14 c2_i32_33
  let c0_i32_34 : BitVec 32 := 0#32
  let v53 : BitVec 32 := Scalar.addi v52 c0_i32_34
  let c2_i32_77 : BitVec 32 := 2#32
  let v106 : BitVec 32 := Scalar.addi v53 c2_i32_77
  let c1_i32_78 : BitVec 32 := 1#32
  let v107 : BitVec 32 := Scalar.shrsi v106 c1_i32_78
  let v108 : BitVec 32 := Scalar.addi v29 v107
  let c1_i32_79 : BitVec 32 := 1#32
  let v109 : BitVec 32 := Scalar.andi v106 c1_i32_79
  let c80_i32_80 : BitVec 32 := 80#32
  let v110 : BitVec 32 := Scalar.muli v109 c80_i32_80
  let c0_i32_81 : BitVec 32 := 0#32
  ![v18.toNat, v108.toNat, v110.toNat, 0]
def k0_cond3 (k0_t1 : Fin k0_t1_loop.trips) : BitVec 1 :=
  let c0_i32_20 : BitVec 32 := 0#32
  let c1_i32_22 : BitVec 32 := 1#32
  let arg14 : BitVec 32 := Scf.iv c0_i32_20 c1_i32_22 k0_t1
  let c2_i32_54 : BitVec 32 := 2#32
  let v79 : BitVec 32 := Scalar.muli arg14 c2_i32_54
  let c1_i32_55 : BitVec 32 := 1#32
  let v80 : BitVec 32 := Scalar.addi v79 c1_i32_55
  let c2_i32_61 : BitVec 32 := 2#32
  let v89 : BitVec 1 := Scalar.cmpi .sge v80 c2_i32_61
  let v90 : BitVec 32 := Scalar.extui v89
  let c0_i32_62 : BitVec 32 := 0#32
  let v91 : BitVec 1 := Scalar.cmpi .ne v90 c0_i32_62
  v91

def k0_off26 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let c0_i32_20 : BitVec 32 := 0#32
  let c1_i32_22 : BitVec 32 := 1#32
  let arg14 : BitVec 32 := Scf.iv c0_i32_20 c1_i32_22 k0_t1
  let c2_i32_54 : BitVec 32 := 2#32
  let v79 : BitVec 32 := Scalar.muli arg14 c2_i32_54
  let c1_i32_55 : BitVec 32 := 1#32
  let v80 : BitVec 32 := Scalar.addi v79 c1_i32_55
  let c2_i32_77 : BitVec 32 := 2#32
  let v106 : BitVec 32 := Scalar.subi v80 c2_i32_77
  let c1_i32_78 : BitVec 32 := 1#32
  let v107 : BitVec 32 := Scalar.shrsi v106 c1_i32_78
  let v108 : BitVec 32 := Scalar.addi v29 v107
  let c1_i32_79 : BitVec 32 := 1#32
  let v109 : BitVec 32 := Scalar.andi v106 c1_i32_79
  let c80_i32_80 : BitVec 32 := 80#32
  let v110 : BitVec 32 := Scalar.muli v109 c80_i32_80
  let c0_i32_81 : BitVec 32 := 0#32
  ![v18.toNat, v108.toNat, v110.toNat, 0]
@[reducible] def k0_t3_loop : Scf.Loop 32 :=
  let c0_i32_64 : BitVec 32 := 0#32
  let c80_i32_65 : BitVec 32 := 80#32
  let v92 : BitVec 32 := Scalar.addi c0_i32_64 c80_i32_65
  let c1_i32_66 : BitVec 32 := 1#32
  ⟨c0_i32_64, v92, c1_i32_66⟩
def k0_off27 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v106 : Index := Scalar.indexCast arg16
  let c0 : Index := 0#32
  ![v106.toNat, 0]
def k0_off28 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v108 : Index := Scalar.indexCast arg16
  let c16 : Index := 16#32
  ![v108.toNat, 16]
def k0_off29 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v110 : Index := Scalar.indexCast arg16
  let c32 : Index := 32#32
  ![v110.toNat, 32]
def k0_off30 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v112 : Index := Scalar.indexCast arg16
  let c48 : Index := 48#32
  ![v112.toNat, 48]
def k0_off31 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v114 : Index := Scalar.indexCast arg16
  let c64 : Index := 64#32
  ![v114.toNat, 64]
def k0_off32 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v116 : Index := Scalar.indexCast arg16
  let c80 : Index := 80#32
  ![v116.toNat, 80]
def k0_off33 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v118 : Index := Scalar.indexCast arg16
  let c96 : Index := 96#32
  ![v118.toNat, 96]
def k0_off34 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v120 : Index := Scalar.indexCast arg16
  let c112 : Index := 112#32
  ![v120.toNat, 112]
def k0_off35 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v122 : Index := Scalar.indexCast arg16
  let c128 : Index := 128#32
  ![v122.toNat, 128]
def k0_off36 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v124 : Index := Scalar.indexCast arg16
  let c144 : Index := 144#32
  ![v124.toNat, 144]

def k0_chk11 (v107 : IVec S16 32) : Prop :=
  (∀ a x, ((![v107] : Fin 1 → IVec S16 32) a x).toNat < S61.size a)
instance k0_chk11.dec : ∀ (v107 : IVec S16 32), Decidable (k0_chk11 v107) := fun v107 => decidable_of_iff' _ (Iff.of_eq (k0_chk11.eq_1 v107))
theorem k0_idx11_inb : ∀ (v107 : IVec S16 32) (k0_hw11 : k0_chk11 v107), ∀ a x, ((![v107] : Fin 1 → IVec S16 32) a x).toNat < S61.size a := fun v107 k0_hw11 => k0_hw11

def k0_chk12 (v109 : IVec S16 32) : Prop :=
  (∀ a x, ((![v109] : Fin 1 → IVec S16 32) a x).toNat < S61.size a)
instance k0_chk12.dec : ∀ (v109 : IVec S16 32), Decidable (k0_chk12 v109) := fun v109 => decidable_of_iff' _ (Iff.of_eq (k0_chk12.eq_1 v109))
theorem k0_idx12_inb : ∀ (v109 : IVec S16 32) (k0_hw12 : k0_chk12 v109), ∀ a x, ((![v109] : Fin 1 → IVec S16 32) a x).toNat < S61.size a := fun v109 k0_hw12 => k0_hw12

def k0_chk13 (v111 : IVec S16 32) : Prop :=
  (∀ a x, ((![v111] : Fin 1 → IVec S16 32) a x).toNat < S61.size a)
instance k0_chk13.dec : ∀ (v111 : IVec S16 32), Decidable (k0_chk13 v111) := fun v111 => decidable_of_iff' _ (Iff.of_eq (k0_chk13.eq_1 v111))
theorem k0_idx13_inb : ∀ (v111 : IVec S16 32) (k0_hw13 : k0_chk13 v111), ∀ a x, ((![v111] : Fin 1 → IVec S16 32) a x).toNat < S61.size a := fun v111 k0_hw13 => k0_hw13

def k0_chk14 (v113 : IVec S16 32) : Prop :=
  (∀ a x, ((![v113] : Fin 1 → IVec S16 32) a x).toNat < S61.size a)
instance k0_chk14.dec : ∀ (v113 : IVec S16 32), Decidable (k0_chk14 v113) := fun v113 => decidable_of_iff' _ (Iff.of_eq (k0_chk14.eq_1 v113))
theorem k0_idx14_inb : ∀ (v113 : IVec S16 32) (k0_hw14 : k0_chk14 v113), ∀ a x, ((![v113] : Fin 1 → IVec S16 32) a x).toNat < S61.size a := fun v113 k0_hw14 => k0_hw14

def k0_chk15 (v115 : IVec S16 32) : Prop :=
  (∀ a x, ((![v115] : Fin 1 → IVec S16 32) a x).toNat < S61.size a)
instance k0_chk15.dec : ∀ (v115 : IVec S16 32), Decidable (k0_chk15 v115) := fun v115 => decidable_of_iff' _ (Iff.of_eq (k0_chk15.eq_1 v115))
theorem k0_idx15_inb : ∀ (v115 : IVec S16 32) (k0_hw15 : k0_chk15 v115), ∀ a x, ((![v115] : Fin 1 → IVec S16 32) a x).toNat < S61.size a := fun v115 k0_hw15 => k0_hw15

def k0_chk16 (v117 : IVec S16 32) : Prop :=
  (∀ a x, ((![v117] : Fin 1 → IVec S16 32) a x).toNat < S61.size a)
instance k0_chk16.dec : ∀ (v117 : IVec S16 32), Decidable (k0_chk16 v117) := fun v117 => decidable_of_iff' _ (Iff.of_eq (k0_chk16.eq_1 v117))
theorem k0_idx16_inb : ∀ (v117 : IVec S16 32) (k0_hw16 : k0_chk16 v117), ∀ a x, ((![v117] : Fin 1 → IVec S16 32) a x).toNat < S61.size a := fun v117 k0_hw16 => k0_hw16

def k0_chk17 (v119 : IVec S16 32) : Prop :=
  (∀ a x, ((![v119] : Fin 1 → IVec S16 32) a x).toNat < S61.size a)
instance k0_chk17.dec : ∀ (v119 : IVec S16 32), Decidable (k0_chk17 v119) := fun v119 => decidable_of_iff' _ (Iff.of_eq (k0_chk17.eq_1 v119))
theorem k0_idx17_inb : ∀ (v119 : IVec S16 32) (k0_hw17 : k0_chk17 v119), ∀ a x, ((![v119] : Fin 1 → IVec S16 32) a x).toNat < S61.size a := fun v119 k0_hw17 => k0_hw17

def k0_chk18 (v121 : IVec S16 32) : Prop :=
  (∀ a x, ((![v121] : Fin 1 → IVec S16 32) a x).toNat < S61.size a)
instance k0_chk18.dec : ∀ (v121 : IVec S16 32), Decidable (k0_chk18 v121) := fun v121 => decidable_of_iff' _ (Iff.of_eq (k0_chk18.eq_1 v121))
theorem k0_idx18_inb : ∀ (v121 : IVec S16 32) (k0_hw18 : k0_chk18 v121), ∀ a x, ((![v121] : Fin 1 → IVec S16 32) a x).toNat < S61.size a := fun v121 k0_hw18 => k0_hw18

def k0_chk19 (v123 : IVec S16 32) : Prop :=
  (∀ a x, ((![v123] : Fin 1 → IVec S16 32) a x).toNat < S61.size a)
instance k0_chk19.dec : ∀ (v123 : IVec S16 32), Decidable (k0_chk19 v123) := fun v123 => decidable_of_iff' _ (Iff.of_eq (k0_chk19.eq_1 v123))
theorem k0_idx19_inb : ∀ (v123 : IVec S16 32) (k0_hw19 : k0_chk19 v123), ∀ a x, ((![v123] : Fin 1 → IVec S16 32) a x).toNat < S61.size a := fun v123 k0_hw19 => k0_hw19

def k0_chk20 (v125 : IVec S16 32) : Prop :=
  (∀ a x, ((![v125] : Fin 1 → IVec S16 32) a x).toNat < S61.size a)
instance k0_chk20.dec : ∀ (v125 : IVec S16 32), Decidable (k0_chk20 v125) := fun v125 => decidable_of_iff' _ (Iff.of_eq (k0_chk20.eq_1 v125))
theorem k0_idx20_inb : ∀ (v125 : IVec S16 32) (k0_hw20 : k0_chk20 v125), ∀ a x, ((![v125] : Fin 1 → IVec S16 32) a x).toNat < S61.size a := fun v125 k0_hw20 => k0_hw20
def k0_off37 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v136 : Index := Scalar.indexCast arg16
  let c0_77 : Index := 0#32
  ![v136.toNat, 0]
def k0_off38 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v138 : Index := Scalar.indexCast arg16
  let c16_78 : Index := 16#32
  ![v138.toNat, 16]
def k0_off39 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v140 : Index := Scalar.indexCast arg16
  let c32_79 : Index := 32#32
  ![v140.toNat, 32]
def k0_off40 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v142 : Index := Scalar.indexCast arg16
  let c48_80 : Index := 48#32
  ![v142.toNat, 48]
def k0_off41 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v144 : Index := Scalar.indexCast arg16
  let c64_81 : Index := 64#32
  ![v144.toNat, 64]
def k0_off42 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v146 : Index := Scalar.indexCast arg16
  let c80_82 : Index := 80#32
  ![v146.toNat, 80]
def k0_off43 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v148 : Index := Scalar.indexCast arg16
  let c96_83 : Index := 96#32
  ![v148.toNat, 96]
def k0_off44 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v150 : Index := Scalar.indexCast arg16
  let c112_84 : Index := 112#32
  ![v150.toNat, 112]
def k0_off45 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v152 : Index := Scalar.indexCast arg16
  let c128_85 : Index := 128#32
  ![v152.toNat, 128]
def k0_off46 (k0_t3 : Fin k0_t3_loop.trips) : Fin 2 → Nat :=
  let c0_i32_64 : BitVec 32 := 0#32
  let c1_i32_66 : BitVec 32 := 1#32
  let arg16 : BitVec 32 := Scf.iv c0_i32_64 c1_i32_66 k0_t3
  let v154 : Index := Scalar.indexCast arg16
  let c144_86 : Index := 144#32
  ![v154.toNat, 144]
def k0_cond4 (k0_t1 : Fin k0_t1_loop.trips) : BitVec 1 :=
  let c0_i32_20 : BitVec 32 := 0#32
  let c1_i32_22 : BitVec 32 := 1#32
  let arg14 : BitVec 32 := Scf.iv c0_i32_20 c1_i32_22 k0_t1
  let c2_i32_54 : BitVec 32 := 2#32
  let v79 : BitVec 32 := Scalar.muli arg14 c2_i32_54
  let c1_i32_55 : BitVec 32 := 1#32
  let v80 : BitVec 32 := Scalar.addi v79 c1_i32_55
  let c2_i32_73 : BitVec 32 := 2#32
  let v102 : BitVec 32 := Scalar.addi v80 c2_i32_73
  let c40_i32_74 : BitVec 32 := 40#32
  let v103 : BitVec 1 := Scalar.cmpi .slt v102 c40_i32_74
  let v104 : BitVec 32 := Scalar.extui v103
  let c0_i32_75 : BitVec 32 := 0#32
  let v105 : BitVec 1 := Scalar.cmpi .ne v104 c0_i32_75
  v105

def k0_off47 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c20_i32 : BitVec 32 := 20#32
  let v29 : BitVec 32 := Scalar.muli v28 c20_i32
  let c0_i32_20 : BitVec 32 := 0#32
  let c1_i32_22 : BitVec 32 := 1#32
  let arg14 : BitVec 32 := Scf.iv c0_i32_20 c1_i32_22 k0_t1
  let c2_i32_54 : BitVec 32 := 2#32
  let v79 : BitVec 32 := Scalar.muli arg14 c2_i32_54
  let c1_i32_55 : BitVec 32 := 1#32
  let v80 : BitVec 32 := Scalar.addi v79 c1_i32_55
  let c2_i32_77 : BitVec 32 := 2#32
  let v106 : BitVec 32 := Scalar.addi v80 c2_i32_77
  let c1_i32_78 : BitVec 32 := 1#32
  let v107 : BitVec 32 := Scalar.shrsi v106 c1_i32_78
  let v108 : BitVec 32 := Scalar.addi v29 v107
  let c1_i32_79 : BitVec 32 := 1#32
  let v109 : BitVec 32 := Scalar.andi v106 c1_i32_79
  let c80_i32_80 : BitVec 32 := 80#32
  let v110 : BitVec 32 := Scalar.muli v109 c80_i32_80
  let c0_i32_81 : BitVec 32 := 0#32
  ![v18.toNat, v108.toNat, v110.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x1x80x160_S80x160 : S1x1x80x160.Squeezes S80x160
  h_S1x16 : 0 < S1x16.numel
  shapeCasts_S1x16_S16 : S1x16.ShapeCasts S16
  h_S61 : 0 < S61.numel
  shapeCasts_S16_S1x16 : S16.ShapeCasts S1x16
  hcc0_scratch5 : 0 + S_.numel ≤ 5
  hcc0_scratch6 : 1 + S_.numel ≤ 5
  hcc0_scratch7 : 2 + S_.numel ≤ 5
  hcc0_scratch8 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (19 * r.val))) a + S1x1x80x160.size a ≤ S4x160x160x160.size a
  k0_off2_inb : ∀ i : grid0.Coords, ∀ (r : Fin 2), ∀ a, (k0_off2 i (BitVec.ofNat 32 (19 * r.val))) a + S1x1x80x160.size a ≤ S4x160x160x160.size a
  k0_t1_ok : k0_t1_loop.OK
  k0_off3_inb : ∀ (i : grid0.Coords) (k0_t1 : Fin k0_t1_loop.trips), ∀ (r : Fin 2), ∀ a, (k0_off3 i k0_t1 (BitVec.ofNat 32 r.val)) a + S1x1x80x160.size a ≤ S4x160x160x160.size a
  k0_off4_inb : ∀ (i : grid0.Coords) (k0_t1 : Fin k0_t1_loop.trips), ∀ (k0_h1 : k0_cond1 k0_t1 = 1#1), ∀ a, (k0_off4 i k0_t1) a + S1x1x80x160.size a ≤ S4x160x160x160.size a
  k0_t2_ok : k0_t2_loop.OK
  k0_off5_inb : ∀ k0_t2 : Fin k0_t2_loop.trips, ∀ a, (k0_off5 k0_t2) a + S1x16.size a ≤ S80x160.size a
  k0_off6_inb : ∀ k0_t2 : Fin k0_t2_loop.trips, ∀ a, (k0_off6 k0_t2) a + S1x16.size a ≤ S80x160.size a
  k0_off7_inb : ∀ k0_t2 : Fin k0_t2_loop.trips, ∀ a, (k0_off7 k0_t2) a + S1x16.size a ≤ S80x160.size a
  k0_off8_inb : ∀ k0_t2 : Fin k0_t2_loop.trips, ∀ a, (k0_off8 k0_t2) a + S1x16.size a ≤ S80x160.size a
  k0_off9_inb : ∀ k0_t2 : Fin k0_t2_loop.trips, ∀ a, (k0_off9 k0_t2) a + S1x16.size a ≤ S80x160.size a
  k0_off10_inb : ∀ k0_t2 : Fin k0_t2_loop.trips, ∀ a, (k0_off10 k0_t2) a + S1x16.size a ≤ S80x160.size a
  k0_off11_inb : ∀ k0_t2 : Fin k0_t2_loop.trips, ∀ a, (k0_off11 k0_t2) a + S1x16.size a ≤ S80x160.size a
  k0_off12_inb : ∀ k0_t2 : Fin k0_t2_loop.trips, ∀ a, (k0_off12 k0_t2) a + S1x16.size a ≤ S80x160.size a
  k0_off13_inb : ∀ k0_t2 : Fin k0_t2_loop.trips, ∀ a, (k0_off13 k0_t2) a + S1x16.size a ≤ S80x160.size a
  k0_off14_inb : ∀ k0_t2 : Fin k0_t2_loop.trips, ∀ a, (k0_off14 k0_t2) a + S1x16.size a ≤ S80x160.size a
  k0_off15_inb : ∀ k0_t2 : Fin k0_t2_loop.trips, ∀ a, (k0_off15 k0_t2) a + S1x16.size a ≤ S80x160.size a
  k0_off16_inb : ∀ k0_t2 : Fin k0_t2_loop.trips, ∀ a, (k0_off16 k0_t2) a + S1x16.size a ≤ S80x160.size a
  k0_off17_inb : ∀ k0_t2 : Fin k0_t2_loop.trips, ∀ a, (k0_off17 k0_t2) a + S1x16.size a ≤ S80x160.size a
  k0_off18_inb : ∀ k0_t2 : Fin k0_t2_loop.trips, ∀ a, (k0_off18 k0_t2) a + S1x16.size a ≤ S80x160.size a
  k0_off19_inb : ∀ k0_t2 : Fin k0_t2_loop.trips, ∀ a, (k0_off19 k0_t2) a + S1x16.size a ≤ S80x160.size a
  k0_off20_inb : ∀ k0_t2 : Fin k0_t2_loop.trips, ∀ a, (k0_off20 k0_t2) a + S1x16.size a ≤ S80x160.size a
  k0_off21_inb : ∀ k0_t2 : Fin k0_t2_loop.trips, ∀ a, (k0_off21 k0_t2) a + S1x16.size a ≤ S80x160.size a
  k0_off22_inb : ∀ k0_t2 : Fin k0_t2_loop.trips, ∀ a, (k0_off22 k0_t2) a + S1x16.size a ≤ S80x160.size a
  k0_off23_inb : ∀ k0_t2 : Fin k0_t2_loop.trips, ∀ a, (k0_off23 k0_t2) a + S1x16.size a ≤ S80x160.size a
  k0_off24_inb : ∀ k0_t2 : Fin k0_t2_loop.trips, ∀ a, (k0_off24 k0_t2) a + S1x16.size a ≤ S80x160.size a
  k0_off25_inb : ∀ (i : grid0.Coords) (k0_t1 : Fin k0_t1_loop.trips), ∀ (k0_h2 : k0_cond2 k0_t1 = 1#1), ∀ a, (k0_off25 i k0_t1) a + S1x1x80x160.size a ≤ S4x160x160x160.size a
  k0_off26_inb : ∀ (i : grid0.Coords) (k0_t1 : Fin k0_t1_loop.trips), ∀ (k0_h3 : k0_cond3 k0_t1 = 1#1), ∀ a, (k0_off26 i k0_t1) a + S1x1x80x160.size a ≤ S4x160x160x160.size a
  k0_t3_ok : k0_t3_loop.OK
  k0_off27_inb : ∀ k0_t3 : Fin k0_t3_loop.trips, ∀ a, (k0_off27 k0_t3) a + S1x16.size a ≤ S80x160.size a
  k0_off28_inb : ∀ k0_t3 : Fin k0_t3_loop.trips, ∀ a, (k0_off28 k0_t3) a + S1x16.size a ≤ S80x160.size a
  k0_off29_inb : ∀ k0_t3 : Fin k0_t3_loop.trips, ∀ a, (k0_off29 k0_t3) a + S1x16.size a ≤ S80x160.size a
  k0_off30_inb : ∀ k0_t3 : Fin k0_t3_loop.trips, ∀ a, (k0_off30 k0_t3) a + S1x16.size a ≤ S80x160.size a
  k0_off31_inb : ∀ k0_t3 : Fin k0_t3_loop.trips, ∀ a, (k0_off31 k0_t3) a + S1x16.size a ≤ S80x160.size a
  k0_off32_inb : ∀ k0_t3 : Fin k0_t3_loop.trips, ∀ a, (k0_off32 k0_t3) a + S1x16.size a ≤ S80x160.size a
  k0_off33_inb : ∀ k0_t3 : Fin k0_t3_loop.trips, ∀ a, (k0_off33 k0_t3) a + S1x16.size a ≤ S80x160.size a
  k0_off34_inb : ∀ k0_t3 : Fin k0_t3_loop.trips, ∀ a, (k0_off34 k0_t3) a + S1x16.size a ≤ S80x160.size a
  k0_off35_inb : ∀ k0_t3 : Fin k0_t3_loop.trips, ∀ a, (k0_off35 k0_t3) a + S1x16.size a ≤ S80x160.size a
  k0_off36_inb : ∀ k0_t3 : Fin k0_t3_loop.trips, ∀ a, (k0_off36 k0_t3) a + S1x16.size a ≤ S80x160.size a
  k0_off37_inb : ∀ k0_t3 : Fin k0_t3_loop.trips, ∀ a, (k0_off37 k0_t3) a + S1x16.size a ≤ S80x160.size a
  k0_off38_inb : ∀ k0_t3 : Fin k0_t3_loop.trips, ∀ a, (k0_off38 k0_t3) a + S1x16.size a ≤ S80x160.size a
  k0_off39_inb : ∀ k0_t3 : Fin k0_t3_loop.trips, ∀ a, (k0_off39 k0_t3) a + S1x16.size a ≤ S80x160.size a
  k0_off40_inb : ∀ k0_t3 : Fin k0_t3_loop.trips, ∀ a, (k0_off40 k0_t3) a + S1x16.size a ≤ S80x160.size a
  k0_off41_inb : ∀ k0_t3 : Fin k0_t3_loop.trips, ∀ a, (k0_off41 k0_t3) a + S1x16.size a ≤ S80x160.size a
  k0_off42_inb : ∀ k0_t3 : Fin k0_t3_loop.trips, ∀ a, (k0_off42 k0_t3) a + S1x16.size a ≤ S80x160.size a
  k0_off43_inb : ∀ k0_t3 : Fin k0_t3_loop.trips, ∀ a, (k0_off43 k0_t3) a + S1x16.size a ≤ S80x160.size a
  k0_off44_inb : ∀ k0_t3 : Fin k0_t3_loop.trips, ∀ a, (k0_off44 k0_t3) a + S1x16.size a ≤ S80x160.size a
  k0_off45_inb : ∀ k0_t3 : Fin k0_t3_loop.trips, ∀ a, (k0_off45 k0_t3) a + S1x16.size a ≤ S80x160.size a
  k0_off46_inb : ∀ k0_t3 : Fin k0_t3_loop.trips, ∀ a, (k0_off46 k0_t3) a + S1x16.size a ≤ S80x160.size a
  k0_off47_inb : ∀ (i : grid0.Coords) (k0_t1 : Fin k0_t1_loop.trips), ∀ (k0_h4 : k0_cond4 k0_t1 = 1#1), ∀ a, (k0_off47 i k0_t1) a + S1x1x80x160.size a ≤ S4x160x160x160.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0

class Facts : Prop extends Facts₀ where

variable [Facts]
-- ==== ReferenceIdeal.lean ====
abbrev S4x160x160x160 : Shape := ⟨4, ![4, 160, 160, 160]⟩
abbrev S61 : Shape := ⟨1, ![61]⟩
abbrev S_ : Shape := ⟨0, ![]⟩
abbrev S4x160x160x160x1 : Shape := ⟨5, ![4, 160, 160, 160, 1]⟩
abbrev S1 : Shape := ⟨1, ![1]⟩
abbrev S1x1x1x1x1 : Shape := ⟨5, ![1, 1, 1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x160x160x160, .i32⟩
  | .hbm, ⟨1, _⟩ => ⟨S61, .i32⟩
  | .hbm, ⟨2, _⟩ => ⟨S_, .i32⟩
  | .hbm, ⟨3, _⟩ => ⟨S4x160x160x160, .i32⟩
  | .hbm, ⟨4, _⟩ => ⟨S4x160x160x160, .i1⟩
  | .hbm, ⟨5, _⟩ => ⟨S_, .i32⟩
  | .hbm, ⟨6, _⟩ => ⟨S4x160x160x160, .i32⟩
  | .hbm, ⟨7, _⟩ => ⟨S4x160x160x160, .i32⟩
  | .hbm, ⟨8, _⟩ => ⟨S4x160x160x160, .i32⟩
  | .hbm, ⟨9, _⟩ => ⟨S4x160x160x160x1, .i32⟩
  | .hbm, ⟨10, _⟩ => ⟨S1, .i32⟩
  | .hbm, ⟨11, _⟩ => ⟨S_, .i32⟩
  | .hbm, ⟨12, _⟩ => ⟨S4x160x160x160x1, .i32⟩
  | .hbm, ⟨13, _⟩ => ⟨S4x160x160x160x1, .i1⟩
  | .hbm, ⟨14, _⟩ => ⟨S1x1x1x1x1, .i32⟩
  | .hbm, ⟨15, _⟩ => ⟨S4x160x160x160x1, .i32⟩
  | .hbm, ⟨16, _⟩ => ⟨S4x160x160x160x1, .i1⟩
  | .hbm, ⟨17, _⟩ => ⟨S4x160x160x160x1, .i1⟩
  | .hbm, ⟨18, _⟩ => ⟨S_, .i1⟩
  | .hbm, ⟨19, _⟩ => ⟨S4x160x160x160, .i1⟩
  | .hbm, ⟨20, _⟩ => ⟨S4x160x160x160, .i32⟩
  | .hbm, ⟨21, _⟩ => ⟨S_, .i32⟩
  | .hbm, ⟨22, _⟩ => ⟨S4x160x160x160, .i32⟩
  | .hbm, ⟨23, _⟩ => ⟨S4x160x160x160, .i32⟩
  | _, _ => ⟨S4x160x160x160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_c_4 : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S4x160x160x160 : S_.BroadcastsInDim S4x160x160x160 (![] : Fin 0 → Fin S4x160x160x160.rank)
  bcast_S4x160x160x160_S4x160x160x160x1_0_1_2_3 : S4x160x160x160.BroadcastsInDim S4x160x160x160x1 (![0, 1, 2, 3] : Fin 4 → Fin S4x160x160x160x1.rank)
  bcast_S_S4x160x160x160x1 : S_.BroadcastsInDim S4x160x160x160x1 (![] : Fin 0 → Fin S4x160x160x160x1.rank)
  bcast_S1_S1x1x1x1x1_4 : S1.BroadcastsInDim S1x1x1x1x1 (![4] : Fin 1 → Fin S1x1x1x1x1.rank)
  bcast_S1x1x1x1x1_S4x160x160x160x1_0_1_2_3_4 : S1x1x1x1x1.BroadcastsInDim S4x160x160x160x1 (![0, 1, 2, 3, 4] : Fin 5 → Fin S4x160x160x160x1.rank)
  reducesTo_S4x160x160x160x1_S4x160x160x160_d4 : S4x160x160x160x1.ReducesTo [4] S4x160x160x160
  h_S_ : 0 < S_.numel
  gather_S61_S4x160x160x160x1_S4x160x160x160_n_0_n_n_0_4_1_wf : GatherDims.WF S61 S4x160x160x160x1 S4x160x160x160 [] [0] [] [0] [] 4 ![1]

variable [Facts₀]

def gather_S61_S4x160x160x160x1_S4x160x160x160_n_0_n_n_0_4_1 : GatherDims S61 S4x160x160x160x1 S4x160x160x160 where
  offsetDims := []
  collapsedSliceDims := [0]
  operandBatchingDims := []
  startIndicesBatchingDims := []
  startIndexMap := [0]
  indexVectorDim := 4
  sliceSizes := ![1]
  wf := gather_S61_S4x160x160x160x1_S4x160x160x160_n_0_n_n_0_4_1_wf

class Facts : Prop extends Facts₀ where

variable [Facts]
-- ==== Proof.Spec.lean ====
/-
  The value both programs compute, as one whole-array function of the two argument arrays: the table looked up at
  every label, `out i = lut[labels i]`. A label is a 32-bit word read as a natural number; where that number names an
  entry of the 61-entry table the result is that entry (elsewhere the function is given the value zero: the
  certificate's precondition puts every label inside the table, so that branch is never read).
-/
import Idealize.ShloMosaic.PureOps
import Idealize.ShloMosaic.Lib.ValueIdx

noncomputable section

namespace Cert.Proof.Spec

open Idealize.ShloMosaic

/-- The labels' (and the result's) shape. -/
abbrev SL : Shape := ⟨4, ![4, 160, 160, 160]⟩
/-- The table's shape. -/
abbrev ST : Shape := ⟨1, ![61]⟩

/-- Entry `n` of the table. -/
def entry (lut : IVec ST 32) (n : Nat) (h : n < 61) : BitVec 32 := lut (ValueIdx.ix1 (⟨n, h⟩ : Fin 61))

/-- The table looked up at every label. -/
def lookup (lab : IVec SL 32) (lut : IVec ST 32) : IVec SL 32 :=
  fun i => if h : (lab i).toNat < 61 then entry lut (lab i).toNat h else 0#32

/-- Every label names an entry of the table. -/
def InRange (lab : IVec SL 32) : Prop := ∀ i, (lab i).toNat < 61

theorem lookup_apply {lab : IVec SL 32} {lut : IVec ST 32} (i : SL.Idx) (h : (lab i).toNat < 61) :
    lookup lab lut i = entry lut (lab i).toNat h := dif_pos h

end Cert.Proof.Spec

end
-- ==== Proof.Iface.lean ====
/-
  The common vocabulary of the kernel's proof: the program as the launch theorem sees it, the resource algebra (the
  handshakes' rounds beside the local transfers' counters), the three arrays as locations, the geometry of the
  32 tiles' chunks, and what one tile is handed and hands back.

  Tile `L = (core, subcore)` has number `wid = 2·subcore + core`; it owns the 20 planes
  `[wid / 8, (wid % 8)·20 + p, ·, ·]`, `p < 20`, each as two chunks of 80 rows: chunk `g < 40` is the rectangle at
  offsets `[wid / 8, (wid % 8)·20 + g / 2, (g % 2)·80, 0]` of extents `[1, 1, 80, 160]`. A tile is handed a read share
  of the labels and of the table, whole, and its forty chunks of the result outright; it hands them back with every
  chunk of the result holding the table looked up at the labels.
-/
import proofs.«204852_g4896262718038_cont_8to1_c_202_13_alg».proof.KernelIdeal
import proofs.«204852_g4896262718038_cont_8to1_c_202_13_alg».proof.Proof.Gen.KernelIdeal
import proofs.«204852_g4896262718038_cont_8to1_c_202_13_alg».proof.Proof.Spec
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The labels, the table and the result, as locations of device `d`. -/
abbrev lLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-! ## The tiles and their chunks -/

/-- The grid coordinates of the tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's number: `2·subcore + core`. -/
def wid (L : grid0.Coords) : Nat := (L 1).val * 2 + (L 0).val

theorem wid_lt (L : grid0.Coords) : wid L < 32 := by
  have h0 : (L 0).val < 2 := (L 0).isLt
  have h1 : (L 1).val < 16 := (L 1).isLt
  unfold wid; omega

/-- The tile's number as an index of the 32 read shares. -/
abbrev tix (L : grid0.Coords) : Fin 32 := ⟨wid L, wid_lt L⟩

/-- Chunk `g` of tile `L`: its offsets in the 4×160×160×160 arrays. -/
def chunkOff (L : grid0.Coords) (g : Fin 40) : Fin 4 → Nat :=
  ![wid L / 8, (wid L % 8) * 20 + g.val / 2, (g.val % 2) * 80, 0]

theorem chunkOff_inb (L : grid0.Coords) (g : Fin 40) : ∀ a, chunkOff L g a + S1x1x80x160.size a ≤ S4x160x160x160.size a := by
  have hw := wid_lt L
  have hg := g.isLt
  intro a
  fin_cases a <;> simp [chunkOff] <;> omega

/-- Chunk `g` of tile `L` as a rectangle, and as a set of indices. -/
abbrev chunkRect (L : grid0.Coords) (g : Fin 40) : Rect S4x160x160x160 :=
  Rect.unit (s := S4x160x160x160) (chunkOff L g) S1x1x80x160.size (chunkOff_inb L g)
def chunkSet (L : grid0.Coords) (g : Fin 40) : Finset S4x160x160x160.Idx := (chunkRect L g).set

/-! ## What a tile is handed, and what it hands back -/

variable (m : (ℓ : Loc nD τ sig) → Buf (Elt F) ℓ)

/-- The result the kernel is to leave on device `d`: the table looked up at the labels. -/
abbrev want (d : Dev nD) : Buf (Elt F) (oLoc d) := Spec.lookup (m (lLoc d)) (m (tLoc d))

/-- Handed to tile `L`: a read share of the labels and of the table, and its forty chunks of the result. -/
def tileIn (d : Dev nD) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} m (oLoc d))

/-- Handed back: the same shares, and the forty chunks at the table looked up at the labels. -/
def tileOut (d : Dev nD) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} want m d)

variable [FloatOps F]

/-- The tile's task, run on vector subcore `(L 0, L 1)` of device `d` from what it is handed, ends with what it hands
    back (and its own scratch and semaphores as it found them, its waits recorded). -/
def TileBody : Prop :=
  ∀ (d : Dev nD) (L : grid0.Coords), (K (F := F)).Facts → Spec.InRange (m (lLoc d)) →
    ∀ (O : CellTallies nD τ sig (HIx 1)) (W : Waits sig (HIx 1)), (∀ g, O g none = 0) →
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KI

end
-- ==== Proof.GeomOff.lean ====
/-
  The chunk geometry, first part: the program's own offset functions and branch conditions in closed form.

  Every slice the tile's task takes of the labels or of the result is one of its forty chunks: the two copies started
  before the loop are chunks 0 and 1, trip `t` of the loop works on chunks `2t` and `2t + 1`, waits for the write-back of
  chunks `2t - 2` and `2t - 1` (from the second trip on), fetches chunks `2t + 2` and `2t + 3` (up to the last trip but
  one), and the two write-backs awaited after the loop are chunks 38 and 39. The tiles are 32 and the trips 20, so each
  closed form is checked at every tile and trip.
-/
import proofs.«204852_g4896262718038_cont_8to1_c_202_13_alg».proof.Proof.Iface

namespace Cert.Proof.KI

open Cert.KernelIdeal Cert.KernelIdeal.Gen

open Idealize.ShloMosaic

/-- The offsets of chunk number `n` of tile `L`, for a bare number `n`. -/
def chunkOffN (L : grid0.Coords) (n : Nat) : Fin 4 → Nat :=
  ![wid L / 8, (wid L % 8) * 20 + n / 2, (n % 2) * 80, 0]

theorem chunkOff_eq_N (L : grid0.Coords) (g : Fin 40) : chunkOff L g = chunkOffN L g.val := rfl

theorem trips_le : k0_t1_loop.trips ≤ 20 := k0_t1_abs.2.1

/-- Twice a trip's number, plus at most three less one, is a chunk's number. -/
theorem two_mul_trip_lt (t : Fin k0_t1_loop.trips) : 2 * t.val + 1 < 40 := by
  have h1 := t.isLt
  have h2 := trips_le
  omega

/-! ## The copies outside the loop -/

theorem off1_0 (L : grid0.Coords) : k0_off1 L 0#32 = chunkOff L ⟨0, by decide⟩ := by
  have h : ∀ L : grid0.Coords, k0_off1 L 0#32 = chunkOffN L 0 := by decide +kernel
  exact h L

theorem off1_19 (L : grid0.Coords) : k0_off1 L 19#32 = chunkOff L ⟨38, by decide⟩ := by
  have h : ∀ L : grid0.Coords, k0_off1 L 19#32 = chunkOffN L 38 := by decide +kernel
  exact h L

theorem off2_0 (L : grid0.Coords) : k0_off2 L 0#32 = chunkOff L ⟨1, by decide⟩ := by
  have h : ∀ L : grid0.Coords, k0_off2 L 0#32 = chunkOffN L 1 := by decide +kernel
  exact h L

theorem off2_19 (L : grid0.Coords) : k0_off2 L 19#32 = chunkOff L ⟨39, by decide⟩ := by
  have h : ∀ L : grid0.Coords, k0_off2 L 19#32 = chunkOffN L 39 := by decide +kernel
  exact h L

/-! ## The chunks a trip works on -/

theorem off3_0 (L : grid0.Coords) (t : Fin k0_t1_loop.trips) :
    k0_off3 L t 0#32 = chunkOff L ⟨2 * t.val, by have := two_mul_trip_lt t; omega⟩ := by
  have h : ∀ (L : grid0.Coords) (t : Fin k0_t1_loop.trips), k0_off3 L t 0#32 = chunkOffN L (2 * t.val) := by
    decide +kernel
  exact h L t

theorem off3_1 (L : grid0.Coords) (t : Fin k0_t1_loop.trips) :
    k0_off3 L t 1#32 = chunkOff L ⟨2 * t.val + 1, two_mul_trip_lt t⟩ := by
  have h : ∀ (L : grid0.Coords) (t : Fin k0_t1_loop.trips), k0_off3 L t 1#32 = chunkOffN L (2 * t.val + 1) := by
    decide +kernel
  exact h L t

/-! ## The branch conditions -/

theorem cond1_iff (t : Fin k0_t1_loop.trips) : k0_cond1 t = 1#1 ↔ 1 ≤ t.val := by
  have h : ∀ t : Fin k0_t1_loop.trips, k0_cond1 t = 1#1 ↔ 1 ≤ t.val := by decide +kernel
  exact h t

theorem cond3_iff (t : Fin k0_t1_loop.trips) : k0_cond3 t = 1#1 ↔ 1 ≤ t.val := by
  have h : ∀ t : Fin k0_t1_loop.trips, k0_cond3 t = 1#1 ↔ 1 ≤ t.val := by decide +kernel
  exact h t

theorem cond2_iff (t : Fin k0_t1_loop.trips) : k0_cond2 t = 1#1 ↔ t.val < 19 := by
  have h : ∀ t : Fin k0_t1_loop.trips, k0_cond2 t = 1#1 ↔ t.val < 19 := by decide +kernel
  exact h t

theorem cond4_iff (t : Fin k0_t1_loop.trips) : k0_cond4 t = 1#1 ↔ t.val < 19 := by
  have h : ∀ t : Fin k0_t1_loop.trips, k0_cond4 t = 1#1 ↔ t.val < 19 := by decide +kernel
  exact h t

/-! ## The chunks written back two trips late, and fetched one trip early -/

theorem off4_eq (L : grid0.Coords) (t : Fin k0_t1_loop.trips) (h : 1 ≤ t.val) :
    k0_off4 L t = chunkOff L ⟨2 * t.val - 2, by have := two_mul_trip_lt t; omega⟩ := by
  have h' : ∀ (L : grid0.Coords) (t : Fin k0_t1_loop.trips), 1 ≤ t.val → k0_off4 L t = chunkOffN L (2 * t.val - 2) := by
    decide +kernel
  exact h' L t h

theorem off26_eq (L : grid0.Coords) (t : Fin k0_t1_loop.trips) (h : 1 ≤ t.val) :
    k0_off26 L t = chunkOff L ⟨2 * t.val - 1, by have := two_mul_trip_lt t; omega⟩ := by
  have h' : ∀ (L : grid0.Coords) (t : Fin k0_t1_loop.trips), 1 ≤ t.val → k0_off26 L t = chunkOffN L (2 * t.val - 1) := by
    decide +kernel
  exact h' L t h

theorem off25_eq (L : grid0.Coords) (t : Fin k0_t1_loop.trips) (h : t.val < 19) :
    k0_off25 L t = chunkOff L ⟨2 * t.val + 2, by omega⟩ := by
  have h' : ∀ (L : grid0.Coords) (t : Fin k0_t1_loop.trips), t.val < 19 → k0_off25 L t = chunkOffN L (2 * t.val + 2) := by
    decide +kernel
  exact h' L t h

theorem off47_eq (L : grid0.Coords) (t : Fin k0_t1_loop.trips) (h : t.val < 19) :
    k0_off47 L t = chunkOff L ⟨2 * t.val + 3, by omega⟩ := by
  have h' : ∀ (L : grid0.Coords) (t : Fin k0_t1_loop.trips), t.val < 19 → k0_off47 L t = chunkOffN L (2 * t.val + 3) := by
    decide +kernel
  exact h' L t h

end Cert.Proof.KI
-- ==== Proof.Geom.lean ====
/-
  The chunk geometry, second part: the 1280 chunks (32 tiles, 40 chunks each) tile the 4×160×160×160 array, and a
  chunk's set of indices is what the program's own slice of the labels, or of the result, addresses.

  Chunk `g` of tile number `w` is the rectangle at offsets `[w / 8, (w % 8)·20 + g / 2, (g % 2)·80, 0]` of extents
  `[1, 1, 80, 160]`. An index `[i₀, i₁, i₂, i₃]` lies in it exactly when `i₀ = w / 8`, `i₁ = (w % 8)·20 + g / 2` and
  `i₂ / 80 = g % 2`; so it lies in the chunk `g = (i₁ % 20)·2 + i₂ / 80` of tile `w = i₀·8 + i₁ / 20` and in no other:
  two different chunks differ in the first offset, or else in the second, or else in the third by 80.
-/
import proofs.«204852_g4896262718038_cont_8to1_c_202_13_alg».proof.Proof.GeomOff

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Membership in a chunk, by coordinates -/

theorem wid_coordsV (c : Fin (grid0.bound 0)) (s : Fin (grid0.bound 1)) : wid (coordsV c s) = s.val * 2 + c.val := rfl

theorem mem_chunkSet {L : grid0.Coords} {g : Fin 40} {i : S4x160x160x160.Idx} :
    i ∈ chunkSet L g ↔ ∀ a, chunkOff L g a ≤ i a ∧ (i a : Nat) < chunkOff L g a + S1x1x80x160.size a :=
  Rect.mem_set_unit

/-! ## The chunks are pairwise disjoint -/

/-- Two chunks whose offsets are 1-apart on one of the first two axes, or 80-apart on the third, are disjoint. -/
theorem chunkSet_disjoint_of {L L' : grid0.Coords} {g g' : Fin 40}
    (h : wid L / 8 ≠ wid L' / 8 ∨ (wid L % 8) * 20 + g.val / 2 ≠ (wid L' % 8) * 20 + g'.val / 2 ∨ g.val % 2 ≠ g'.val % 2) :
    Disjoint (chunkSet L g) (chunkSet L' g') := by
  rcases h with h | h | h
  · exact Rect.unit_disjoint 0 (by simp [chunkOff]; omega)
  · exact Rect.unit_disjoint 1 (by simp [chunkOff]; omega)
  · exact Rect.unit_disjoint 2 (by simp [chunkOff]; omega)

theorem chunk_disjoint : ∀ x ∈ (Finset.univ : Finset (Fin (grid0.bound 0) × Fin (grid0.bound 1) × Fin 40)),
    ∀ y ∈ (Finset.univ : Finset (Fin (grid0.bound 0) × Fin (grid0.bound 1) × Fin 40)), x ≠ y →
      Disjoint (chunkSet (coordsV x.1 x.2.1) x.2.2) (chunkSet (coordsV y.1 y.2.1) y.2.2) := by
  rintro ⟨c, s, g⟩ - ⟨c', s', g'⟩ - hne
  have hc : c.val < 2 := c.isLt
  have hc' : c'.val < 2 := c'.isLt
  have hs : s.val < 16 := s.isLt
  have hs' : s'.val < 16 := s'.isLt
  have hg := g.isLt
  have hg' := g'.isLt
  have hne' : ¬ (c.val = c'.val ∧ s.val = s'.val ∧ g.val = g'.val) := by
    rintro ⟨h1, h2, h3⟩
    exact hne (by rw [Fin.ext h1, Fin.ext h2, Fin.ext h3])
  apply chunkSet_disjoint_of
  simp only [wid_coordsV]
  omega

/-! ## The chunks cover the array -/

/-- Membership in a chunk, axis by axis: the first two coordinates are the chunk's, the third lies in its half. -/
theorem mem_chunkSet_iff {L : grid0.Coords} {g : Fin 40} {i : S4x160x160x160.Idx} :
    i ∈ chunkSet L g ↔ (i 0 : Nat) = wid L / 8 ∧ (i 1 : Nat) = (wid L % 8) * 20 + g.val / 2 ∧ (i 2 : Nat) / 80 = g.val % 2 := by
  have h2 : (i 2 : Nat) < 160 := (i 2).isLt
  have h3 : (i 3 : Nat) < 160 := (i 3).isLt
  rw [mem_chunkSet]
  simp [Fin.forall_fin_succ, chunkOff]
  omega

theorem chunk_cover : (Finset.univ : Finset (Fin (grid0.bound 0) × Fin (grid0.bound 1) × Fin 40)).biUnion
    (fun x => chunkSet (coordsV x.1 x.2.1) x.2.2) = Finset.univ := by
  rw [Finset.eq_univ_iff_forall]
  intro i
  have h0 : (i 0 : Nat) < 4 := (i 0).isLt
  have h1 : (i 1 : Nat) < 160 := (i 1).isLt
  have h2 : (i 2 : Nat) < 160 := (i 2).isLt
  obtain ⟨W, hW⟩ : ∃ W, W = (i 0 : Nat) * 8 + (i 1 : Nat) / 20 := ⟨_, rfl⟩
  obtain ⟨G, hG⟩ : ∃ G, G = ((i 1 : Nat) % 20) * 2 + (i 2 : Nat) / 80 := ⟨_, rfl⟩
  have hc : W % 2 < 2 := by omega
  have hs : W / 2 < 16 := by omega
  have hg : G < 40 := by omega
  rw [Finset.mem_biUnion]
  refine ⟨((⟨W % 2, hc⟩ : Fin (grid0.bound 0)), (⟨W / 2, hs⟩ : Fin (grid0.bound 1)), (⟨G, hg⟩ : Fin 40)),
    Finset.mem_univ _, ?_⟩
  rw [mem_chunkSet_iff]
  show (i 0 : Nat) = (W / 2 * 2 + W % 2) / 8 ∧ (i 1 : Nat) = ((W / 2 * 2 + W % 2) % 8) * 20 + G / 2
    ∧ (i 2 : Nat) / 80 = G % 2
  omega

/-! ## The whole result is its chunks -/

theorem oPts_chunks (d : Dev nD) (f : Buf (Elt F) (oLoc d)) :
    (oLoc d ↦{fullShare} f : sProp 𝕄) = bigSep (Finset.univ : Finset (Fin (grid0.bound 0) × Fin (grid0.bound 1) × Fin 40))
      fun x => oLoc d ↦[chunkSet (coordsV x.1 x.2.1) x.2.2]{fullShare} f := by
  rw [← pointsTo_biUnion Finset.univ (ℓ := oLoc d) (fun x : Fin (grid0.bound 0) × Fin (grid0.bound 1) × Fin 40 =>
    chunkSet (coordsV x.1 x.2.1) x.2.2) chunk_disjoint, chunk_cover]; try rfl

/-! ## A chunk is what the program's slice addresses -/

/-- The slice of the result at a chunk's offsets, squeezed to 80×160, addresses the chunk's indices. -/
theorem set_chunk_o (L : grid0.Coords) (g : Fin 40) (off : Fin 4 → Nat)
    (hinb : ∀ a, off a + S1x1x80x160.size a ≤ S4x160x160x160.size a) (hsq : S1x1x80x160.Squeezes S80x160)
    (h : off = chunkOff L g) :
    (((Memref.whole main_v0_scv).slice (Rect.unit (s := S4x160x160x160) off S1x1x80x160.size hinb) (fun _ => rfl)).squeeze
      S80x160 hsq).view.set = chunkSet L g := by
  subst h
  show (((View.whole (main_v0_scv : Ref sig .scVector)).slice (Rect.unit (s := S4x160x160x160) (chunkOff L g) S1x1x80x160.size hinb)).reshape
    S80x160 hsq.numel_eq).set = _
  rw [View.set_reshape, View.set_slice_whole]
  rfl

/-- The slice of the labels at a chunk's offsets, squeezed to 80×160, addresses the chunk's indices. -/
theorem set_chunk_l (L : grid0.Coords) (g : Fin 40) (off : Fin 4 → Nat)
    (hinb : ∀ a, off a + S1x1x80x160.size a ≤ S4x160x160x160.size a) (hsq : S1x1x80x160.Squeezes S80x160)
    (h : off = chunkOff L g) :
    (((Memref.whole main_arg0_scv).slice (Rect.unit (s := S4x160x160x160) off S1x1x80x160.size hinb) (fun _ => rfl)).squeeze
      S80x160 hsq).view.set = chunkSet L g := by
  subst h
  show (((View.whole (main_arg0_scv : Ref sig .scVector)).slice (Rect.unit (s := S4x160x160x160) (chunkOff L g) S1x1x80x160.size hinb)).reshape
    S80x160 hsq.numel_eq).set = _
  rw [View.set_reshape, View.set_slice_whole]
  rfl

end Cert.Proof.KI

end
-- ==== Proof.Launch.lean ====
/-
  The launch. One tile's task is taken as proved (`TileBody`); from it, every weakly fair execution of the device's
  threads — the TensorCore's one call, the two sequencers' dispatch, the thirty-two vector subcores' tasks — terminates
  with the result array holding the table looked up at the labels, the labels and the table as they were.

  The call's payloads: the TensorCore hands each SparseCore what its sixteen tasks need, a task is handed `tileIn` and
  hands back `tileOut`, so the sequencer's split is the identity and all the dealing happens at the call itself: the
  labels and the table are each split into 32 read shares, share `2·subcore + core` going to tile `(core, subcore)`
  (a bijection between the 2 × 16 tiles and the 32 shares), and the result array is split into its 1280 chunks, forty
  per tile; when the call returns the shares are joined and the chunks, now at the looked-up values, reassembled.
-/
import proofs.«204852_g4896262718038_cont_8to1_c_202_13_alg».proof.Proof.Iface
import proofs.«204852_g4896262718038_cont_8to1_c_202_13_alg».proof.Proof.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

/-! ## What the handshakes carry -/

variable (m : (ℓ : Loc nD τ sig) → Buf (Elt F) ℓ) (ρ : Dev nD → PrngReg)

/-- What the sequencer of core `c` is handed, and hands back: its sixteen tiles' shares. -/
@[irreducible] def coreIn (d : Dev nD) (c : Fin (grid0.bound 0)) : sProp 𝕄 := bigSep Finset.univ fun s : Fin (grid0.bound 1) => tileIn m d (coordsV c s)
@[irreducible] def coreOut (d : Dev nD) (c : Fin (grid0.bound 0)) : sProp 𝕄 := bigSep Finset.univ fun s : Fin (grid0.bound 1) => tileOut m d (coordsV c s)

/-- The one call: each tile is handed `tileIn` and hands back `tileOut`, a SparseCore its sixteen tiles' worth. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance tileIn_storable (d : Dev nD) (L : grid0.Coords) : BI.Storable (upEmb : UEmb _ 𝕄) (tileIn m d L) := by
  unfold tileIn; infer_instance
instance tileOut_storable (d : Dev nD) (L : grid0.Coords) : BI.Storable (upEmb : UEmb _ 𝕄) (tileOut m d L) := by
  unfold tileOut; infer_instance

instance P_storable : (P (F := F) m).IsStorable where
  st q d c := match q with
    | 0 => by dsimp only [P]; unfold coreIn; infer_instance
  dn q d c := match q with
    | 0 => by dsimp only [P]; unfold coreOut; infer_instance
  go q d c i := match q with
    | 0 => (inferInstance : BI.Storable (upEmb : UEmb _ 𝕄) (tileIn m d (coordsV (Fin.cast nCore_zero c) (Fin.cast nSub_zero i))))
  td q d c i := match q with
    | 0 => (inferInstance : BI.Storable (upEmb : UEmb _ 𝕄) (tileOut m d (coordsV (Fin.cast nCore_zero c) (Fin.cast nSub_zero i))))

/-! ## The tile's obligation, from the tile's task -/

variable [FloatOps F]

theorem defs₀_vector (c : Fin τ.nSC) (s : Fin τ.nSub) :
    defs₀ (F := F) (.scVector c s) 0 ()
      = SparseCore.onTile hcore0 hsub0 (fun c s => cc0__body (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) (hr : ∀ d, Spec.InRange (m (lLoc d))) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) facts (hr d) O W hO).trans (wp_mono frame _ _ fun _ => obl_post)

/-! ## The sequencer's split: its sixteen tiles' shares, as handed -/

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  dsimp only [P]
  rw [bigSep_tasks (F := F) (fun i => tileIn m d (coordsV (Fin.cast nCore_zero c) i)),
    bigSep_tasks (F := F) (fun i => tileOut m d (coordsV (Fin.cast nCore_zero c) i))]
  unfold coreIn coreOut
  iintro H; imodintro
  isplitl [H]; · iexact H
  iintro H; iexact H

/-! ## The launch element of the ghost state: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the thirty-two tiles

The tile on core `c`, subcore `s` has number `2·s + c`: the tiles are the numbers below 32, each once. -/

/-- The tiles, numbered. -/
def tileEquiv : Fin (grid0.bound 0) × Fin (grid0.bound 1) ≃ Fin 32 where
  toFun x := tix (coordsV x.1 x.2)
  invFun j := (⟨j.val % 2, Nat.mod_lt _ (by decide)⟩, ⟨j.val / 2, by have := j.isLt; show j.val / 2 < 16; omega⟩)
  left_inv x := by
    have h0 : x.1.val < 2 := x.1.isLt
    have h1 : x.2.val < 16 := x.2.isLt
    refine Prod.ext (Fin.ext ?_) (Fin.ext ?_)
    · show (x.2.val * 2 + x.1.val) % 2 = x.1.val; omega
    · show (x.2.val * 2 + x.1.val) / 2 = x.2.val; omega
  right_inv j := by
    refine Fin.ext ?_
    show (j.val / 2) * 2 + j.val % 2 = j.val; omega

omit [FloatOps F] in
/-- One summand per share is one per tile. -/
theorem toks_deal (Φ : Fin 32 → sProp 𝕄) :
    bigSep Finset.univ Φ = bigSep Finset.univ fun c : Fin (grid0.bound 0) => bigSep Finset.univ fun s : Fin (grid0.bound 1) => Φ (tix (coordsV c s)) := by
  rw [bigSep_univ_equiv tileEquiv Φ, bigSep_univ_prod]; rfl

omit [FloatOps F] in
/-- The result array is the tiles' forty chunks each. -/
theorem chunks_deal (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun g : Fin 40 => oLoc d ↦[chunkSet (coordsV c s) g]{fullShare} f := by
  rw [oPts_chunks, bigSep_univ_prod]
  exact bigSep_congr fun c _ => bigSep_univ_prod _

omit [FloatOps F] in
theorem bigSep2_sep3 {α β : Type} (s : Finset α) (t : Finset β) (A B C : α → β → sProp 𝕄) :
    (bigSep s fun a => bigSep t fun b => iprop(A a b ∗ B a b ∗ C a b))
      = iprop((bigSep s fun a => bigSep t (A a)) ∗ (bigSep s fun a => bigSep t (B a)) ∗ bigSep s fun a => bigSep t (C a)) := by
  rw [← bigSep_sep', ← bigSep_sep']
  exact bigSep_congr fun a _ => by rw [bigSep_sep', bigSep_sep']

/-- What a tile holds with the result's chunks at `f`: `tileIn` at the launch contents, `tileOut` at the looked-up ones. -/
def tileRes (d : Dev nD) (f : Buf (Elt F) (oLoc d)) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} f)

omit [FloatOps F] in
theorem tileIn_eq (d : Dev nD) (L : grid0.Coords) : tileIn m d L = tileRes m d (m (oLoc d)) L := by unfold tileIn tileRes; rfl
omit [FloatOps F] in
theorem tileOut_eq (d : Dev nD) (L : grid0.Coords) : tileOut m d L = tileRes m d (want m d) L := by unfold tileOut tileRes; rfl

omit [FloatOps F] in
/-- All the tiles' holdings: the 32 read shares of the labels, those of the table, and the result array whole. -/
theorem tiles_eq (d : Dev nD) (f : Buf (Elt F) (oLoc d)) :
    (bigSep Finset.univ fun c : Fin (grid0.bound 0) => bigSep Finset.univ fun s : Fin (grid0.bound 1) => tileRes m d f (coordsV c s))
      = iprop((bigSep Finset.univ fun i : Fin 32 => lLoc d ↦{Transfers.shareTok fullShare 32 i} m (lLoc d))
          ∗ (bigSep Finset.univ fun i : Fin 32 => tLoc d ↦{Transfers.shareTok fullShare 32 i} m (tLoc d)) ∗ oLoc d ↦{fullShare} f) := by
  rw [toks_deal (F := F) (fun i => lLoc d ↦{Transfers.shareTok fullShare 32 i} m (lLoc d)),
    toks_deal (F := F) (fun i => tLoc d ↦{Transfers.shareTok fullShare 32 i} m (tLoc d)), chunks_deal d f]
  unfold tileRes
  exact bigSep2_sep3 _ _ _ _ _

/-- What of the labels and the table stays with the TensorCore during the call. -/
abbrev kept (d : Dev nD) : sProp 𝕄 :=
  iprop((lLoc d ↦{Transfers.shareDrop fullShare 32} m (lLoc d)) ∗ (tLoc d ↦{Transfers.shareDrop fullShare 32} m (tLoc d)))

omit [FloatOps F] in
/-- The three arrays, dealt; -/
theorem deal_split (d : Dev nD) (f : Buf (Elt F) (oLoc d)) :
    iprop((lLoc d ↦{fullShare} m (lLoc d)) ∗ (tLoc d ↦{fullShare} m (tLoc d)) ∗ oLoc d ↦{fullShare} f)
      ⊢ iprop(kept m d ∗ bigSep Finset.univ fun c : Fin (grid0.bound 0) => bigSep Finset.univ fun s : Fin (grid0.bound 1) => tileRes m d f (coordsV c s)) := by
  rw [tiles_eq]
  iintro ⟨Hl, Ht, Ho⟩
  ihave Hl' := (Transfers.pointsTo_toks_split fullShare 32) $$ Hl
  ihave Ht' := (Transfers.pointsTo_toks_split fullShare 32) $$ Ht
  icases Hl' with ⟨Hld, Hlt⟩
  icases Ht' with ⟨Htd, Htt⟩
  isplitl [Hld Htd]
  · isplitl [Hld]; · iexact Hld
    iexact Htd
  isplitl [Hlt]; · iexact Hlt
  isplitl [Htt]; · iexact Htt
  iexact Ho

omit [FloatOps F] in
/-- and gathered back. -/
theorem deal_join (d : Dev nD) (f : Buf (Elt F) (oLoc d)) :
    iprop(kept m d ∗ bigSep Finset.univ fun c : Fin (grid0.bound 0) => bigSep Finset.univ fun s : Fin (grid0.bound 1) => tileRes m d f (coordsV c s))
      ⊢ iprop((lLoc d ↦{fullShare} m (lLoc d)) ∗ (tLoc d ↦{fullShare} m (tLoc d)) ∗ oLoc d ↦{fullShare} f) := by
  rw [tiles_eq]
  iintro ⟨⟨Hld, Htd⟩, Hlt, Htt, Ho⟩
  isplitl [Hld Hlt]
  · iapply (Transfers.pointsTo_toks_join fullShare 32)
    isplitl [Hld]; · iexact Hld
    iexact Hlt
  isplitl [Htd Htt]
  · iapply (Transfers.pointsTo_toks_join fullShare 32)
    isplitl [Htd]; · iexact Htd
    iexact Htt
  iexact Ho

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((lLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin (grid0.bound 0) => bigSep Finset.univ fun s : Fin (grid0.bound 1) => tileRes m d (m (oLoc d)) (coordsV c s) := by
  dsimp only [P]
  rw [bigSep_cores (F := F) (coreIn m d)]
  unfold coreIn
  exact bigSep_congr fun c _ => bigSep_congr fun s _ => tileIn_eq m d _
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => tileRes m d (want m d) (coordsV c s) := by
  dsimp only [P]
  rw [bigSep_cores (F := F) (coreOut m d)]
  unfold coreOut
  exact bigSep_congr fun c _ => bigSep_congr fun s _ => tileOut_eq m d _

/-- What the TensorCore ends with: the labels and the table whole again, the result at the table looked up at the labels. -/
abbrev FIN (d : Dev nD) : sProp 𝕄 :=
  iprop((lLoc d ↦{fullShare} m (lLoc d)) ∗ (tLoc d ↦{fullShare} m (tLoc d)) ∗ oLoc d ↦{fullShare} want m d)

/-- @main on device `d`'s TensorCore: the one call. The arrays are dealt to the tiles going in and gathered coming back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hd := (deal_split m d (m (oLoc d))) $$ Harr
  icases Hd with ⟨Hkept, Htiles⟩
  iapply ((K (F := F)).wp_run (D (F := F)) 𝒱 (EH := EH) (P := P m) κ d 0) $$ [Hst Hkept Htiles]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hf := (deal_join m d (want m d)) $$ [Hkept Hdn']
  · isplitl [Hkept]; · iexact Hkept
    iexact Hdn'
  imodintro
  isplitl [Hst]; · iexact Hst
  iexact Hf

def fq (d : Dev nD) (s' : Phys nD τ sig (Elt F)) : Prop :=
  s'.mem.mem (oLoc d) = want m d ∧ s'.mem.mem (lLoc d) = m (lLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hl, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads terminates, the result holding the table looked up at the
    labels, the labels and the table unchanged: from one tile's task and the labels' range. -/
theorem run_main [∀ e, Nonempty (Elt F e)] (hbody : TileBody m) (hr : ∀ d, Spec.InRange (m (lLoc d))) :
    θ_run (Cert.KernelIdeal.defs (F := F)) (Cert.KernelIdeal.threads (F := F)) ⟨m, fun _ => 0, ρ⟩
      (fun r => ∀ c : Dev nD, r.2.mem (oLoc c) = want m c ∧ r.2.mem (lLoc c) = m (lLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = want m c ∧ r.2.mem (lLoc c) = m (lLoc c) ∧ r.2.mem (tLoc c) = m (tLoc c)) (fun _ h => h)

end Cert.Proof.KI

end
-- ==== Proof.IfaceB.lean ====
/-
  The common vocabulary of the kernel's proof: the program as the launch theorem sees it, the resource algebra (the
  handshakes' rounds beside the local transfers' counters), the three arrays as locations, the geometry of the
  32 tiles' chunks, and what one tile is handed and hands back.

  Tile `L = (core, subcore)` has number `wid = 2·subcore + core`; it owns the 20 planes
  `[wid / 8, (wid % 8)·20 + p, ·, ·]`, `p < 20`, each as two chunks of 80 rows: chunk `g < 40` is the rectangle at
  offsets `[wid / 8, (wid % 8)·20 + g / 2, (g % 2)·80, 0]` of extents `[1, 1, 80, 160]`. A tile is handed a read share
  of the labels and of the table, whole, and its forty chunks of the result outright; it hands them back with every
  chunk of the result holding the table looked up at the labels.
-/
import proofs.«204852_g4896262718038_cont_8to1_c_202_13_alg».proof.Kernel
import proofs.«204852_g4896262718038_cont_8to1_c_202_13_alg».proof.Proof.Gen.Kernel
import proofs.«204852_g4896262718038_cont_8to1_c_202_13_alg».proof.Proof.Spec
import Idealize.ShloMosaic.Lib.SparseCore.Launch
import Idealize.ShloMosaic.Lib.SparseCore.Ops
import Idealize.ShloMosaic.Lib.Pipeline.Kit
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The labels, the table and the result, as locations of device `d`. -/
abbrev lLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-! ## The tiles and their chunks -/

/-- The grid coordinates of the tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The tile's number: `2·subcore + core`. -/
def wid (L : grid0.Coords) : Nat := (L 1).val * 2 + (L 0).val

theorem wid_lt (L : grid0.Coords) : wid L < 32 := by
  have h0 : (L 0).val < 2 := (L 0).isLt
  have h1 : (L 1).val < 16 := (L 1).isLt
  unfold wid; omega

/-- The tile's number as an index of the 32 read shares. -/
abbrev tix (L : grid0.Coords) : Fin 32 := ⟨wid L, wid_lt L⟩

/-- Chunk `g` of tile `L`: its offsets in the 4×160×160×160 arrays. -/
def chunkOff (L : grid0.Coords) (g : Fin 40) : Fin 4 → Nat :=
  ![wid L / 8, (wid L % 8) * 20 + g.val / 2, (g.val % 2) * 80, 0]

theorem chunkOff_inb (L : grid0.Coords) (g : Fin 40) : ∀ a, chunkOff L g a + S1x1x80x160.size a ≤ S4x160x160x160.size a := by
  have hw := wid_lt L
  have hg := g.isLt
  intro a
  fin_cases a <;> simp [chunkOff] <;> omega

/-- Chunk `g` of tile `L` as a rectangle, and as a set of indices. -/
abbrev chunkRect (L : grid0.Coords) (g : Fin 40) : Rect S4x160x160x160 :=
  Rect.unit (s := S4x160x160x160) (chunkOff L g) S1x1x80x160.size (chunkOff_inb L g)
def chunkSet (L : grid0.Coords) (g : Fin 40) : Finset S4x160x160x160.Idx := (chunkRect L g).set

/-! ## What a tile is handed, and what it hands back -/

variable (m : (ℓ : Loc nD τ sig) → Buf (Elt F) ℓ)

/-- The result the kernel is to leave on device `d`: the table looked up at the labels. -/
abbrev want (d : Dev nD) : Buf (Elt F) (oLoc d) := Spec.lookup (m (lLoc d)) (m (tLoc d))

/-- Handed to tile `L`: a read share of the labels and of the table, and its forty chunks of the result. -/
def tileIn (d : Dev nD) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} m (oLoc d))

/-- Handed back: the same shares, and the forty chunks at the table looked up at the labels. -/
def tileOut (d : Dev nD) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} want m d)

variable [FloatOps F]

/-- The tile's task, run on vector subcore `(L 0, L 1)` of device `d` from what it is handed, ends with what it hands
    back (and its own scratch and semaphores as it found them, its waits recorded). -/
def TileBody : Prop :=
  ∀ (d : Dev nD) (L : grid0.Coords), (K (F := F)).Facts → Spec.InRange (m (lLoc d)) →
    ∀ (O : CellTallies nD τ sig (HIx 1)) (W : Waits sig (HIx 1)), (∀ g, O g none = 0) →
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KB

end
-- ==== Proof.GeomOffB.lean ====
/-
  The chunk geometry, first part: the program's own offset functions and branch conditions in closed form.

  Every slice the tile's task takes of the labels or of the result is one of its forty chunks: the two copies started
  before the loop are chunks 0 and 1, trip `t` of the loop works on chunks `2t` and `2t + 1`, waits for the write-back of
  chunks `2t - 2` and `2t - 1` (from the second trip on), fetches chunks `2t + 2` and `2t + 3` (up to the last trip but
  one), and the two write-backs awaited after the loop are chunks 38 and 39. The tiles are 32 and the trips 20, so each
  closed form is checked at every tile and trip.
-/
import proofs.«204852_g4896262718038_cont_8to1_c_202_13_alg».proof.Proof.IfaceB

namespace Cert.Proof.KB

open Cert.Kernel Cert.Kernel.Gen

open Idealize.ShloMosaic

/-- The offsets of chunk number `n` of tile `L`, for a bare number `n`. -/
def chunkOffN (L : grid0.Coords) (n : Nat) : Fin 4 → Nat :=
  ![wid L / 8, (wid L % 8) * 20 + n / 2, (n % 2) * 80, 0]

theorem chunkOff_eq_N (L : grid0.Coords) (g : Fin 40) : chunkOff L g = chunkOffN L g.val := rfl

theorem trips_le : k0_t1_loop.trips ≤ 20 := k0_t1_abs.2.1

/-- Twice a trip's number, plus at most three less one, is a chunk's number. -/
theorem two_mul_trip_lt (t : Fin k0_t1_loop.trips) : 2 * t.val + 1 < 40 := by
  have h1 := t.isLt
  have h2 := trips_le
  omega

/-! ## The copies outside the loop -/

theorem off1_0 (L : grid0.Coords) : k0_off1 L 0#32 = chunkOff L ⟨0, by decide⟩ := by
  have h : ∀ L : grid0.Coords, k0_off1 L 0#32 = chunkOffN L 0 := by decide +kernel
  exact h L

theorem off1_19 (L : grid0.Coords) : k0_off1 L 19#32 = chunkOff L ⟨38, by decide⟩ := by
  have h : ∀ L : grid0.Coords, k0_off1 L 19#32 = chunkOffN L 38 := by decide +kernel
  exact h L

theorem off2_0 (L : grid0.Coords) : k0_off2 L 0#32 = chunkOff L ⟨1, by decide⟩ := by
  have h : ∀ L : grid0.Coords, k0_off2 L 0#32 = chunkOffN L 1 := by decide +kernel
  exact h L

theorem off2_19 (L : grid0.Coords) : k0_off2 L 19#32 = chunkOff L ⟨39, by decide⟩ := by
  have h : ∀ L : grid0.Coords, k0_off2 L 19#32 = chunkOffN L 39 := by decide +kernel
  exact h L

/-! ## The chunks a trip works on -/

theorem off3_0 (L : grid0.Coords) (t : Fin k0_t1_loop.trips) :
    k0_off3 L t 0#32 = chunkOff L ⟨2 * t.val, by have := two_mul_trip_lt t; omega⟩ := by
  have h : ∀ (L : grid0.Coords) (t : Fin k0_t1_loop.trips), k0_off3 L t 0#32 = chunkOffN L (2 * t.val) := by
    decide +kernel
  exact h L t

theorem off3_1 (L : grid0.Coords) (t : Fin k0_t1_loop.trips) :
    k0_off3 L t 1#32 = chunkOff L ⟨2 * t.val + 1, two_mul_trip_lt t⟩ := by
  have h : ∀ (L : grid0.Coords) (t : Fin k0_t1_loop.trips), k0_off3 L t 1#32 = chunkOffN L (2 * t.val + 1) := by
    decide +kernel
  exact h L t

/-! ## The branch conditions -/

theorem cond1_iff (t : Fin k0_t1_loop.trips) : k0_cond1 t = 1#1 ↔ 1 ≤ t.val := by
  have h : ∀ t : Fin k0_t1_loop.trips, k0_cond1 t = 1#1 ↔ 1 ≤ t.val := by decide +kernel
  exact h t

theorem cond3_iff (t : Fin k0_t1_loop.trips) : k0_cond3 t = 1#1 ↔ 1 ≤ t.val := by
  have h : ∀ t : Fin k0_t1_loop.trips, k0_cond3 t = 1#1 ↔ 1 ≤ t.val := by decide +kernel
  exact h t

theorem cond2_iff (t : Fin k0_t1_loop.trips) : k0_cond2 t = 1#1 ↔ t.val < 19 := by
  have h : ∀ t : Fin k0_t1_loop.trips, k0_cond2 t = 1#1 ↔ t.val < 19 := by decide +kernel
  exact h t

theorem cond4_iff (t : Fin k0_t1_loop.trips) : k0_cond4 t = 1#1 ↔ t.val < 19 := by
  have h : ∀ t : Fin k0_t1_loop.trips, k0_cond4 t = 1#1 ↔ t.val < 19 := by decide +kernel
  exact h t

/-! ## The chunks written back two trips late, and fetched one trip early -/

theorem off4_eq (L : grid0.Coords) (t : Fin k0_t1_loop.trips) (h : 1 ≤ t.val) :
    k0_off4 L t = chunkOff L ⟨2 * t.val - 2, by have := two_mul_trip_lt t; omega⟩ := by
  have h' : ∀ (L : grid0.Coords) (t : Fin k0_t1_loop.trips), 1 ≤ t.val → k0_off4 L t = chunkOffN L (2 * t.val - 2) := by
    decide +kernel
  exact h' L t h

theorem off26_eq (L : grid0.Coords) (t : Fin k0_t1_loop.trips) (h : 1 ≤ t.val) :
    k0_off26 L t = chunkOff L ⟨2 * t.val - 1, by have := two_mul_trip_lt t; omega⟩ := by
  have h' : ∀ (L : grid0.Coords) (t : Fin k0_t1_loop.trips), 1 ≤ t.val → k0_off26 L t = chunkOffN L (2 * t.val - 1) := by
    decide +kernel
  exact h' L t h

theorem off25_eq (L : grid0.Coords) (t : Fin k0_t1_loop.trips) (h : t.val < 19) :
    k0_off25 L t = chunkOff L ⟨2 * t.val + 2, by omega⟩ := by
  have h' : ∀ (L : grid0.Coords) (t : Fin k0_t1_loop.trips), t.val < 19 → k0_off25 L t = chunkOffN L (2 * t.val + 2) := by
    decide +kernel
  exact h' L t h

theorem off47_eq (L : grid0.Coords) (t : Fin k0_t1_loop.trips) (h : t.val < 19) :
    k0_off47 L t = chunkOff L ⟨2 * t.val + 3, by omega⟩ := by
  have h' : ∀ (L : grid0.Coords) (t : Fin k0_t1_loop.trips), t.val < 19 → k0_off47 L t = chunkOffN L (2 * t.val + 3) := by
    decide +kernel
  exact h' L t h

end Cert.Proof.KB
-- ==== Proof.GeomB.lean ====
/-
  The chunk geometry, second part: the 1280 chunks (32 tiles, 40 chunks each) tile the 4×160×160×160 array, and a
  chunk's set of indices is what the program's own slice of the labels, or of the result, addresses.

  Chunk `g` of tile number `w` is the rectangle at offsets `[w / 8, (w % 8)·20 + g / 2, (g % 2)·80, 0]` of extents
  `[1, 1, 80, 160]`. An index `[i₀, i₁, i₂, i₃]` lies in it exactly when `i₀ = w / 8`, `i₁ = (w % 8)·20 + g / 2` and
  `i₂ / 80 = g % 2`; so it lies in the chunk `g = (i₁ % 20)·2 + i₂ / 80` of tile `w = i₀·8 + i₁ / 20` and in no other:
  two different chunks differ in the first offset, or else in the second, or else in the third by 80.
-/
import proofs.«204852_g4896262718038_cont_8to1_c_202_13_alg».proof.Proof.GeomOffB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Membership in a chunk, by coordinates -/

theorem wid_coordsV (c : Fin (grid0.bound 0)) (s : Fin (grid0.bound 1)) : wid (coordsV c s) = s.val * 2 + c.val := rfl

theorem mem_chunkSet {L : grid0.Coords} {g : Fin 40} {i : S4x160x160x160.Idx} :
    i ∈ chunkSet L g ↔ ∀ a, chunkOff L g a ≤ i a ∧ (i a : Nat) < chunkOff L g a + S1x1x80x160.size a :=
  Rect.mem_set_unit

/-! ## The chunks are pairwise disjoint -/

/-- Two chunks whose offsets are 1-apart on one of the first two axes, or 80-apart on the third, are disjoint. -/
theorem chunkSet_disjoint_of {L L' : grid0.Coords} {g g' : Fin 40}
    (h : wid L / 8 ≠ wid L' / 8 ∨ (wid L % 8) * 20 + g.val / 2 ≠ (wid L' % 8) * 20 + g'.val / 2 ∨ g.val % 2 ≠ g'.val % 2) :
    Disjoint (chunkSet L g) (chunkSet L' g') := by
  rcases h with h | h | h
  · exact Rect.unit_disjoint 0 (by simp [chunkOff]; omega)
  · exact Rect.unit_disjoint 1 (by simp [chunkOff]; omega)
  · exact Rect.unit_disjoint 2 (by simp [chunkOff]; omega)

theorem chunk_disjoint : ∀ x ∈ (Finset.univ : Finset (Fin (grid0.bound 0) × Fin (grid0.bound 1) × Fin 40)),
    ∀ y ∈ (Finset.univ : Finset (Fin (grid0.bound 0) × Fin (grid0.bound 1) × Fin 40)), x ≠ y →
      Disjoint (chunkSet (coordsV x.1 x.2.1) x.2.2) (chunkSet (coordsV y.1 y.2.1) y.2.2) := by
  rintro ⟨c, s, g⟩ - ⟨c', s', g'⟩ - hne
  have hc : c.val < 2 := c.isLt
  have hc' : c'.val < 2 := c'.isLt
  have hs : s.val < 16 := s.isLt
  have hs' : s'.val < 16 := s'.isLt
  have hg := g.isLt
  have hg' := g'.isLt
  have hne' : ¬ (c.val = c'.val ∧ s.val = s'.val ∧ g.val = g'.val) := by
    rintro ⟨h1, h2, h3⟩
    exact hne (by rw [Fin.ext h1, Fin.ext h2, Fin.ext h3])
  apply chunkSet_disjoint_of
  simp only [wid_coordsV]
  omega

/-! ## The chunks cover the array -/

/-- Membership in a chunk, axis by axis: the first two coordinates are the chunk's, the third lies in its half. -/
theorem mem_chunkSet_iff {L : grid0.Coords} {g : Fin 40} {i : S4x160x160x160.Idx} :
    i ∈ chunkSet L g ↔ (i 0 : Nat) = wid L / 8 ∧ (i 1 : Nat) = (wid L % 8) * 20 + g.val / 2 ∧ (i 2 : Nat) / 80 = g.val % 2 := by
  have h2 : (i 2 : Nat) < 160 := (i 2).isLt
  have h3 : (i 3 : Nat) < 160 := (i 3).isLt
  rw [mem_chunkSet]
  simp [Fin.forall_fin_succ, chunkOff]
  omega

theorem chunk_cover : (Finset.univ : Finset (Fin (grid0.bound 0) × Fin (grid0.bound 1) × Fin 40)).biUnion
    (fun x => chunkSet (coordsV x.1 x.2.1) x.2.2) = Finset.univ := by
  rw [Finset.eq_univ_iff_forall]
  intro i
  have h0 : (i 0 : Nat) < 4 := (i 0).isLt
  have h1 : (i 1 : Nat) < 160 := (i 1).isLt
  have h2 : (i 2 : Nat) < 160 := (i 2).isLt
  obtain ⟨W, hW⟩ : ∃ W, W = (i 0 : Nat) * 8 + (i 1 : Nat) / 20 := ⟨_, rfl⟩
  obtain ⟨G, hG⟩ : ∃ G, G = ((i 1 : Nat) % 20) * 2 + (i 2 : Nat) / 80 := ⟨_, rfl⟩
  have hc : W % 2 < 2 := by omega
  have hs : W / 2 < 16 := by omega
  have hg : G < 40 := by omega
  rw [Finset.mem_biUnion]
  refine ⟨((⟨W % 2, hc⟩ : Fin (grid0.bound 0)), (⟨W / 2, hs⟩ : Fin (grid0.bound 1)), (⟨G, hg⟩ : Fin 40)),
    Finset.mem_univ _, ?_⟩
  rw [mem_chunkSet_iff]
  show (i 0 : Nat) = (W / 2 * 2 + W % 2) / 8 ∧ (i 1 : Nat) = ((W / 2 * 2 + W % 2) % 8) * 20 + G / 2
    ∧ (i 2 : Nat) / 80 = G % 2
  omega

/-! ## The whole result is its chunks -/

theorem oPts_chunks (d : Dev nD) (f : Buf (Elt F) (oLoc d)) :
    (oLoc d ↦{fullShare} f : sProp 𝕄) = bigSep (Finset.univ : Finset (Fin (grid0.bound 0) × Fin (grid0.bound 1) × Fin 40))
      fun x => oLoc d ↦[chunkSet (coordsV x.1 x.2.1) x.2.2]{fullShare} f := by
  rw [← pointsTo_biUnion Finset.univ (ℓ := oLoc d) (fun x : Fin (grid0.bound 0) × Fin (grid0.bound 1) × Fin 40 =>
    chunkSet (coordsV x.1 x.2.1) x.2.2) chunk_disjoint, chunk_cover]; try rfl

/-! ## A chunk is what the program's slice addresses -/

/-- The slice of the result at a chunk's offsets, squeezed to 80×160, addresses the chunk's indices. -/
theorem set_chunk_o (L : grid0.Coords) (g : Fin 40) (off : Fin 4 → Nat)
    (hinb : ∀ a, off a + S1x1x80x160.size a ≤ S4x160x160x160.size a) (hsq : S1x1x80x160.Squeezes S80x160)
    (h : off = chunkOff L g) :
    (((Memref.whole main_v0_scv).slice (Rect.unit (s := S4x160x160x160) off S1x1x80x160.size hinb) (fun _ => rfl)).squeeze
      S80x160 hsq).view.set = chunkSet L g := by
  subst h
  show (((View.whole (main_v0_scv : Ref sig .scVector)).slice (Rect.unit (s := S4x160x160x160) (chunkOff L g) S1x1x80x160.size hinb)).reshape
    S80x160 hsq.numel_eq).set = _
  rw [View.set_reshape, View.set_slice_whole]
  rfl

/-- The slice of the labels at a chunk's offsets, squeezed to 80×160, addresses the chunk's indices. -/
theorem set_chunk_l (L : grid0.Coords) (g : Fin 40) (off : Fin 4 → Nat)
    (hinb : ∀ a, off a + S1x1x80x160.size a ≤ S4x160x160x160.size a) (hsq : S1x1x80x160.Squeezes S80x160)
    (h : off = chunkOff L g) :
    (((Memref.whole main_arg0_scv).slice (Rect.unit (s := S4x160x160x160) off S1x1x80x160.size hinb) (fun _ => rfl)).squeeze
      S80x160 hsq).view.set = chunkSet L g := by
  subst h
  show (((View.whole (main_arg0_scv : Ref sig .scVector)).slice (Rect.unit (s := S4x160x160x160) (chunkOff L g) S1x1x80x160.size hinb)).reshape
    S80x160 hsq.numel_eq).set = _
  rw [View.set_reshape, View.set_slice_whole]
  rfl

end Cert.Proof.KB

end
-- ==== Proof.LaunchB.lean ====
/-
  The launch. One tile's task is taken as proved (`TileBody`); from it, every weakly fair execution of the device's
  threads — the TensorCore's one call, the two sequencers' dispatch, the thirty-two vector subcores' tasks — terminates
  with the result array holding the table looked up at the labels, the labels and the table as they were.

  The call's payloads: the TensorCore hands each SparseCore what its sixteen tasks need, a task is handed `tileIn` and
  hands back `tileOut`, so the sequencer's split is the identity and all the dealing happens at the call itself: the
  labels and the table are each split into 32 read shares, share `2·subcore + core` going to tile `(core, subcore)`
  (a bijection between the 2 × 16 tiles and the 32 shares), and the result array is split into its 1280 chunks, forty
  per tile; when the call returns the shares are joined and the chunks, now at the looked-up values, reassembled.
-/
import proofs.«204852_g4896262718038_cont_8to1_c_202_13_alg».proof.Proof.IfaceB
import proofs.«204852_g4896262718038_cont_8to1_c_202_13_alg».proof.Proof.GeomB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

/-! ## What the handshakes carry -/

variable (m : (ℓ : Loc nD τ sig) → Buf (Elt F) ℓ) (ρ : Dev nD → PrngReg)

/-- What the sequencer of core `c` is handed, and hands back: its sixteen tiles' shares. -/
@[irreducible] def coreIn (d : Dev nD) (c : Fin (grid0.bound 0)) : sProp 𝕄 := bigSep Finset.univ fun s : Fin (grid0.bound 1) => tileIn m d (coordsV c s)
@[irreducible] def coreOut (d : Dev nD) (c : Fin (grid0.bound 0)) : sProp 𝕄 := bigSep Finset.univ fun s : Fin (grid0.bound 1) => tileOut m d (coordsV c s)

/-- The one call: each tile is handed `tileIn` and hands back `tileOut`, a SparseCore its sixteen tiles' worth. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance tileIn_storable (d : Dev nD) (L : grid0.Coords) : BI.Storable (upEmb : UEmb _ 𝕄) (tileIn m d L) := by
  unfold tileIn; infer_instance
instance tileOut_storable (d : Dev nD) (L : grid0.Coords) : BI.Storable (upEmb : UEmb _ 𝕄) (tileOut m d L) := by
  unfold tileOut; infer_instance

instance P_storable : (P (F := F) m).IsStorable where
  st q d c := match q with
    | 0 => by dsimp only [P]; unfold coreIn; infer_instance
  dn q d c := match q with
    | 0 => by dsimp only [P]; unfold coreOut; infer_instance
  go q d c i := match q with
    | 0 => (inferInstance : BI.Storable (upEmb : UEmb _ 𝕄) (tileIn m d (coordsV (Fin.cast nCore_zero c) (Fin.cast nSub_zero i))))
  td q d c i := match q with
    | 0 => (inferInstance : BI.Storable (upEmb : UEmb _ 𝕄) (tileOut m d (coordsV (Fin.cast nCore_zero c) (Fin.cast nSub_zero i))))

/-! ## The tile's obligation, from the tile's task -/

variable [FloatOps F]

theorem defs₀_vector (c : Fin τ.nSC) (s : Fin τ.nSub) :
    defs₀ (F := F) (.scVector c s) 0 ()
      = SparseCore.onTile hcore0 hsub0 (fun c s => cc0__body (coordsV c s)
          (Memref.whole main_arg0_scv) (Memref.isWhole_whole _) (Memref.whole main_arg1_scv) (Memref.isWhole_whole _)
          (Memref.whole main_v0_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) (hr : ∀ d, Spec.InRange (m (lLoc d))) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) facts (hr d) O W hO).trans (wp_mono frame _ _ fun _ => obl_post)

/-! ## The sequencer's split: its sixteen tiles' shares, as handed -/

omit [FloatOps F] in
theorem bigSep_tasks (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  dsimp only [P]
  rw [bigSep_tasks (F := F) (fun i => tileIn m d (coordsV (Fin.cast nCore_zero c) i)),
    bigSep_tasks (F := F) (fun i => tileOut m d (coordsV (Fin.cast nCore_zero c) i))]
  unfold coreIn coreOut
  iintro H; imodintro
  isplitl [H]; · iexact H
  iintro H; iexact H

/-! ## The launch element of the ghost state: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Dealing the arrays to the thirty-two tiles

The tile on core `c`, subcore `s` has number `2·s + c`: the tiles are the numbers below 32, each once. -/

/-- The tiles, numbered. -/
def tileEquiv : Fin (grid0.bound 0) × Fin (grid0.bound 1) ≃ Fin 32 where
  toFun x := tix (coordsV x.1 x.2)
  invFun j := (⟨j.val % 2, Nat.mod_lt _ (by decide)⟩, ⟨j.val / 2, by have := j.isLt; show j.val / 2 < 16; omega⟩)
  left_inv x := by
    have h0 : x.1.val < 2 := x.1.isLt
    have h1 : x.2.val < 16 := x.2.isLt
    refine Prod.ext (Fin.ext ?_) (Fin.ext ?_)
    · show (x.2.val * 2 + x.1.val) % 2 = x.1.val; omega
    · show (x.2.val * 2 + x.1.val) / 2 = x.2.val; omega
  right_inv j := by
    refine Fin.ext ?_
    show (j.val / 2) * 2 + j.val % 2 = j.val; omega

omit [FloatOps F] in
/-- One summand per share is one per tile. -/
theorem toks_deal (Φ : Fin 32 → sProp 𝕄) :
    bigSep Finset.univ Φ = bigSep Finset.univ fun c : Fin (grid0.bound 0) => bigSep Finset.univ fun s : Fin (grid0.bound 1) => Φ (tix (coordsV c s)) := by
  rw [bigSep_univ_equiv tileEquiv Φ, bigSep_univ_prod]; rfl

omit [FloatOps F] in
/-- The result array is the tiles' forty chunks each. -/
theorem chunks_deal (d : Dev nD) (f : Buf (Elt F) (oLoc d)) :
    (oLoc d ↦{fullShare} f : sProp 𝕄) = bigSep Finset.univ fun c : Fin (grid0.bound 0) => bigSep Finset.univ fun s : Fin (grid0.bound 1) =>
      bigSep Finset.univ fun g : Fin 40 => oLoc d ↦[chunkSet (coordsV c s) g]{fullShare} f := by
  rw [oPts_chunks, bigSep_univ_prod]
  exact bigSep_congr fun c _ => bigSep_univ_prod _

omit [FloatOps F] in
theorem bigSep2_sep3 {α β : Type} (s : Finset α) (t : Finset β) (A B C : α → β → sProp 𝕄) :
    (bigSep s fun a => bigSep t fun b => iprop(A a b ∗ B a b ∗ C a b))
      = iprop((bigSep s fun a => bigSep t (A a)) ∗ (bigSep s fun a => bigSep t (B a)) ∗ bigSep s fun a => bigSep t (C a)) := by
  rw [← bigSep_sep', ← bigSep_sep']
  exact bigSep_congr fun a _ => by rw [bigSep_sep', bigSep_sep']

/-- What a tile holds with the result's chunks at `f`: `tileIn` at the launch contents, `tileOut` at the looked-up ones. -/
def tileRes (d : Dev nD) (f : Buf (Elt F) (oLoc d)) (L : grid0.Coords) : sProp 𝕄 :=
  iprop((lLoc d ↦{Transfers.shareTok fullShare 32 (tix L)} m (lLoc d)) ∗ (tLoc d ↦{Transfers.shareTok fullShare 32 (tix L)} m (tLoc d))
    ∗ bigSep (Finset.univ : Finset (Fin 40)) fun g => oLoc d ↦[chunkSet L g]{fullShare} f)

omit [FloatOps F] in
theorem tileIn_eq (d : Dev nD) (L : grid0.Coords) : tileIn m d L = tileRes m d (m (oLoc d)) L := by unfold tileIn tileRes; rfl
omit [FloatOps F] in
theorem tileOut_eq (d : Dev nD) (L : grid0.Coords) : tileOut m d L = tileRes m d (want m d) L := by unfold tileOut tileRes; rfl

omit [FloatOps F] in
/-- All the tiles' holdings: the 32 read shares of the labels, those of the table, and the result array whole. -/
theorem tiles_eq (d : Dev nD) (f : Buf (Elt F) (oLoc d)) :
    (bigSep Finset.univ fun c : Fin (grid0.bound 0) => bigSep Finset.univ fun s : Fin (grid0.bound 1) => tileRes m d f (coordsV c s))
      = iprop((bigSep Finset.univ fun i : Fin 32 => lLoc d ↦{Transfers.shareTok fullShare 32 i} m (lLoc d))
          ∗ (bigSep Finset.univ fun i : Fin 32 => tLoc d ↦{Transfers.shareTok fullShare 32 i} m (tLoc d)) ∗ oLoc d ↦{fullShare} f) := by
  rw [toks_deal (F := F) (fun i => lLoc d ↦{Transfers.shareTok fullShare 32 i} m (lLoc d)),
    toks_deal (F := F) (fun i => tLoc d ↦{Transfers.shareTok fullShare 32 i} m (tLoc d)), chunks_deal d f]
  unfold tileRes
  exact bigSep2_sep3 _ _ _ _ _

/-- What of the labels and the table stays with the TensorCore during the call. -/
abbrev kept (d : Dev nD) : sProp 𝕄 :=
  iprop((lLoc d ↦{Transfers.shareDrop fullShare 32} m (lLoc d)) ∗ (tLoc d ↦{Transfers.shareDrop fullShare 32} m (tLoc d)))

omit [FloatOps F] in
/-- The three arrays, dealt; -/
theorem deal_split (d : Dev nD) (f : Buf (Elt F) (oLoc d)) :
    iprop((lLoc d ↦{fullShare} m (lLoc d)) ∗ (tLoc d ↦{fullShare} m (tLoc d)) ∗ oLoc d ↦{fullShare} f)
      ⊢ iprop(kept m d ∗ bigSep Finset.univ fun c : Fin (grid0.bound 0) => bigSep Finset.univ fun s : Fin (grid0.bound 1) => tileRes m d f (coordsV c s)) := by
  rw [tiles_eq]
  iintro ⟨Hl, Ht, Ho⟩
  ihave Hl' := (Transfers.pointsTo_toks_split fullShare 32) $$ Hl
  ihave Ht' := (Transfers.pointsTo_toks_split fullShare 32) $$ Ht
  icases Hl' with ⟨Hld, Hlt⟩
  icases Ht' with ⟨Htd, Htt⟩
  isplitl [Hld Htd]
  · isplitl [Hld]; · iexact Hld
    iexact Htd
  isplitl [Hlt]; · iexact Hlt
  isplitl [Htt]; · iexact Htt
  iexact Ho

omit [FloatOps F] in
/-- and gathered back. -/
theorem deal_join (d : Dev nD) (f : Buf (Elt F) (oLoc d)) :
    iprop(kept m d ∗ bigSep Finset.univ fun c : Fin (grid0.bound 0) => bigSep Finset.univ fun s : Fin (grid0.bound 1) => tileRes m d f (coordsV c s))
      ⊢ iprop((lLoc d ↦{fullShare} m (lLoc d)) ∗ (tLoc d ↦{fullShare} m (tLoc d)) ∗ oLoc d ↦{fullShare} f) := by
  rw [tiles_eq]
  iintro ⟨⟨Hld, Htd⟩, Hlt, Htt, Ho⟩
  isplitl [Hld Hlt]
  · iapply (Transfers.pointsTo_toks_join fullShare 32)
    isplitl [Hld]; · iexact Hld
    iexact Hlt
  isplitl [Htd Htt]
  · iapply (Transfers.pointsTo_toks_join fullShare 32)
    isplitl [Htd]; · iexact Htd
    iexact Htt
  iexact Ho

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((lLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c)
    = bigSep Finset.univ fun c : Fin (grid0.bound 0) => bigSep Finset.univ fun s : Fin (grid0.bound 1) => tileRes m d (m (oLoc d)) (coordsV c s) := by
  dsimp only [P]
  rw [bigSep_cores (F := F) (coreIn m d)]
  unfold coreIn
  exact bigSep_congr fun c _ => bigSep_congr fun s _ => tileIn_eq m d _
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => tileRes m d (want m d) (coordsV c s) := by
  dsimp only [P]
  rw [bigSep_cores (F := F) (coreOut m d)]
  unfold coreOut
  exact bigSep_congr fun c _ => bigSep_congr fun s _ => tileOut_eq m d _

/-- What the TensorCore ends with: the labels and the table whole again, the result at the table looked up at the labels. -/
abbrev FIN (d : Dev nD) : sProp 𝕄 :=
  iprop((lLoc d ↦{fullShare} m (lLoc d)) ∗ (tLoc d ↦{fullShare} m (tLoc d)) ∗ oLoc d ↦{fullShare} want m d)

/-- @main on device `d`'s TensorCore: the one call. The arrays are dealt to the tiles going in and gathered coming back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Hd := (deal_split m d (m (oLoc d))) $$ Harr
  icases Hd with ⟨Hkept, Htiles⟩
  iapply ((K (F := F)).wp_run (D (F := F)) 𝒱 (EH := EH) (P := P m) κ d 0) $$ [Hst Hkept Htiles]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hf := (deal_join m d (want m d)) $$ [Hkept Hdn']
  · isplitl [Hkept]; · iexact Hkept
    iexact Hdn'
  imodintro
  isplitl [Hst]; · iexact Hst
  iexact Hf

def fq (d : Dev nD) (s' : Phys nD τ sig (Elt F)) : Prop :=
  s'.mem.mem (oLoc d) = want m d ∧ s'.mem.mem (lLoc d) = m (lLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hl, Ht, Ho⟩, HSI⟩
  ihave H := (persistent_entails_right (SI_pointsTo_agree (st := s') (ℓ := lLoc d) (I := Finset.univ) (q := fullShare) (f := m (lLoc d)))) $$ [HSI Hl]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := want m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads terminates, the result holding the table looked up at the
    labels, the labels and the table unchanged: from one tile's task and the labels' range. -/
theorem run_main [∀ e, Nonempty (Elt F e)] (hbody : TileBody m) (hr : ∀ d, Spec.InRange (m (lLoc d))) :
    θ_run (Cert.Kernel.defs (F := F)) (Cert.Kernel.threads (F := F)) ⟨m, fun _ => 0, ρ⟩
      (fun r => ∀ c : Dev nD, r.2.mem (oLoc c) = want m c ∧ r.2.mem (lLoc c) = m (lLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hbody hr)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (oLoc c) = want m c ∧ r.2.mem (lLoc c) = m (lLoc c) ∧ r.2.mem (tLoc c) = m (tLoc c)) (fun _ h => h)

end Cert.Proof.KB

end
-- ==== Proof.Own.lean ====
import proofs.«204852_g4896262718038_cont_8to1_c_202_13_alg».proof.Proof.Iface
import proofs.«204852_g4896262718038_cont_8to1_c_202_13_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own scratch buffers and semaphores, named -/

section Own

variable (d : Dev nD) (L : grid0.Coords)

/-- The tile's thread. -/
abbrev thr : Thread nD τ := V d (cV L) (jV L)

/-- The tile's five DMA semaphores: the two in-slots', the two out-slots', the table copy's. -/
abbrev semI0 : GSem nD τ sig := (thr d L, .dma cc0_scratch5.sem)
abbrev semI1 : GSem nD τ sig := (thr d L, .dma cc0_scratch6.sem)
abbrev semO0 : GSem nD τ sig := (thr d L, .dma cc0_scratch7.sem)
abbrev semO1 : GSem nD τ sig := (thr d L, .dma cc0_scratch8.sem)
abbrev semT : GSem nD τ sig := (thr d L, .dma cc0_scoped0.sem)

theorem ownSems0_V :
    (ownSems0 (thr d L) : sProp 𝕄)
      = iprop(semVal (semI0 d L) 0 ∗ semVal (semI1 d L) 0 ∗ semVal (semO0 d L) 0 ∗ semVal (semO1 d L) 0 ∗ semVal (semT d L) 0
          ∗ bigSep (((((ownCells (thr d L)).erase (semI0 d L)).erase (semI1 d L)).erase (semO0 d L)).erase (semO1 d L) |>.erase (semT d L))
              fun g => semVal g 0) := by
  unfold SparseCore.Cfg.ownSems0
  have hm : ∀ s : DmaSem sig, ((thr d L, SemLoc.dma s) : GSem nD τ sig) ∈ ownCells (thr d L) ↔ (SemLoc.dma s : SemLoc sig).isScoped .scVector = true :=
    fun s => (mem_ownCells (g := (thr d L, SemLoc.dma s))).trans ⟨fun h => h.2, fun h => ⟨rfl, h⟩⟩
  have hne : ∀ a b : DmaSem sig, a ≠ b → ((thr d L, SemLoc.dma a) : GSem nD τ sig) ≠ (thr d L, SemLoc.dma b) :=
    fun a b h e => h (SemLoc.dma.inj (Prod.mk.inj e).2)
  rw [SparseCore.bigSep_erase' ((hm cc0_scratch5.sem).mpr (by decide)),
    SparseCore.bigSep_erase' (Finset.mem_erase.mpr ⟨hne _ _ (by decide), (hm cc0_scratch6.sem).mpr (by decide)⟩),
    SparseCore.bigSep_erase' (Finset.mem_erase.mpr ⟨hne _ _ (by decide), Finset.mem_erase.mpr ⟨hne _ _ (by decide), (hm cc0_scratch7.sem).mpr (by decide)⟩⟩),
    SparseCore.bigSep_erase' (Finset.mem_erase.mpr ⟨hne _ _ (by decide), Finset.mem_erase.mpr ⟨hne _ _ (by decide),
      Finset.mem_erase.mpr ⟨hne _ _ (by decide), (hm cc0_scratch8.sem).mpr (by decide)⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), (hm cc0_scoped0.sem).mpr (by decide)⟩⟩⟩⟩)]

/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have hm0 := SparseCore.Cfg.mem_ownRefs_of_owner (sig := sig) (p := Proc.scVector (cV L) (jV L)) (b := (Proc.scVector (cV L) (jV L)).devRef cc0_scratch0) rfl
  have hm1 := SparseCore.Cfg.mem_ownRefs_of_owner (sig := sig) (p := Proc.scVector (cV L) (jV L)) (b := (Proc.scVector (cV L) (jV L)).devRef cc0_scratch1) rfl
  have hm2 := SparseCore.Cfg.mem_ownRefs_of_owner (sig := sig) (p := Proc.scVector (cV L) (jV L)) (b := (Proc.scVector (cV L) (jV L)).devRef cc0_scratch2) rfl
  have hm3 := SparseCore.Cfg.mem_ownRefs_of_owner (sig := sig) (p := Proc.scVector (cV L) (jV L)) (b := (Proc.scVector (cV L) (jV L)).devRef cc0_scratch3) rfl
  have hm4 := SparseCore.Cfg.mem_ownRefs_of_owner (sig := sig) (p := Proc.scVector (cV L) (jV L)) (b := (Proc.scVector (cV L) (jV L)).devRef cc0_scratch4) rfl
  have hne : ∀ a b : Ref sig .scVector, a ≠ b → (Proc.scVector (cV L) (jV L)).devRef a ≠ (Proc.scVector (cV L) (jV L)).devRef b :=
    fun a b h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide),
      Finset.mem_erase.mpr ⟨hne _ _ (by decide), hm3⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm4⟩⟩⟩⟩)]

end Own

end Cert.Proof.KI

end
-- ==== Proof.Chunks.lean ====
import proofs.«204852_g4896262718038_cont_8to1_c_202_13_alg».proof.Proof.Iface
import proofs.«204852_g4896262718038_cont_8to1_c_202_13_alg».proof.Proof.Own
import proofs.«204852_g4896262718038_cont_8to1_c_202_13_alg».proof.Proof.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunks as the kernel's copies address them, and the table looked up at a word -/

section
variable (d : Dev nD) (L : grid0.Coords)

/-- Chunk `g` of tile `L` of the labels, and of the result, as 80×160 blocks of the arrays in HBM. -/
abbrev lCh (g : Fin 40) : Memref sig .scVector .hbm S80x160 .i32 :=
  ((Memref.whole main_arg0_scv : Memref sig .scVector .hbm S4x160x160x160 .i32).slice (chunkRect L g) (fun _ => rfl)).squeeze S80x160 squeezes_S1x1x80x160_S80x160
abbrev oCh (g : Fin 40) : Memref sig .scVector .hbm S80x160 .i32 :=
  ((Memref.whole main_v0_scv : Memref sig .scVector .hbm S4x160x160x160 .i32).slice (chunkRect L g) (fun _ => rfl)).squeeze S80x160 squeezes_S1x1x80x160_S80x160

theorem set_lCh (g : Fin 40) : (lCh L g).view.set = chunkSet L g := set_chunk_l L g _ _ _ rfl
theorem set_oCh (g : Fin 40) : (oCh L g).view.set = chunkSet L g := set_chunk_o L g _ _ _ rfl

variable (m : (ℓ : Loc nD τ sig) → Buf (Elt F) ℓ)

/-- The labels of chunk `g` of tile `L`, as an 80×160 block. -/
def labRead (g : Fin 40) : S80x160.Idx → BitVec 32 := (lCh L g).view.read (Elt F) (m (lLoc d))

/-- A 61-entry table looked up at a word (zero where the word names no entry). -/
def lk (fl : S61.Idx → BitVec 32) (x : BitVec 32) : BitVec 32 :=
  if h : x.toNat < 61 then fl (ValueIdx.ix1 (⟨x.toNat, h⟩ : Fin 61)) else 0#32

end

end Cert.Proof.KI

end
-- ==== Proof.GeomV.lean ====
/-
  The chunk geometry, fourth part: values. The labels' chunk and the result's chunk are the same rectangle of two
  arrays of one shape, so an 80×160 block index names the same array index through either; hence the block that holds the
  table looked up at the labels' chunk, written through the result's chunk, leaves the result equal to the table looked
  up at the labels at every index of the chunk.
-/
import proofs.«204852_g4896262718038_cont_8to1_c_202_13_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Entry `j` of the labels' chunk, read as an 80×160 block, is the label at the array index `j` names. -/
theorem labRead_apply (m : (ℓ : Loc nD τ sig) → Buf (Elt F) ℓ) (d : Dev nD) (L : grid0.Coords) (g : Fin 40) (j : S80x160.Idx) :
    labRead d L m g j = m (lLoc d) ((lCh L g).view.emb j) :=
  (View.read_apply _ _).trans (cast_eq _ _)

/-- A block index names the same array index through the result's chunk as through the labels'. -/
theorem emb_oCh_eq (L : grid0.Coords) (g : Fin 40) (j : S80x160.Idx) :
    ((oCh L g).view.emb j : S4x160x160x160.Idx) = (lCh L g).view.emb j := rfl

/-- Every label of a chunk names an entry of the table, when every label does. -/
theorem labRead_lt (m : (ℓ : Loc nD τ sig) → Buf (Elt F) ℓ) (d : Dev nD) (L : grid0.Coords) (g : Fin 40)
    (hr : Spec.InRange (m (lLoc d))) (j : S80x160.Idx) : (labRead d L m g j).toNat < 61 := by
  rw [labRead_apply]
  exact hr _

/-- The table looked up at the labels' chunk, written through the result's chunk, is the wanted result on the chunk. -/
theorem want_chunk (m : (ℓ : Loc nD τ sig) → Buf (Elt F) ℓ) (d : Dev nD) (L : grid0.Coords) (g : Fin 40)
    (fl : S61.Idx → BitVec 32) (fo : S80x160.Idx → BitVec 32) (hr : Spec.InRange (m (lLoc d)))
    (hfl : ∀ j : S61.Idx, fl j = m (tLoc d) j) (hfo : ∀ j, fo j = lk fl (labRead d L m g j)) (f0 : Buf (Elt F) (oLoc d)) :
    ∀ i ∈ chunkSet L g, (oCh L g).view.write (Elt F) f0 fo Finset.univ i = want m d i := by
  intro i hi
  rw [← set_oCh L g] at hi
  obtain ⟨j, -, rfl⟩ := Finset.mem_map.mp hi
  have hlab : labRead d L m g j = m (lLoc d) ((oCh L g).view.emb j) := labRead_apply m d L g j
  have hlt : (m (lLoc d) ((oCh L g).view.emb j)).toNat < 61 := hr _
  have hw : (oCh L g).view.write (Elt F) f0 fo Finset.univ ((oCh L g).view.emb j) = fo j :=
    (View.write_emb_of_mem (v := (oCh L g).view) (Val := Elt F) f0 fo (Finset.mem_univ j)).trans (cast_eq _ _)
  rw [hw]
  show fo j = Spec.lookup (m (lLoc d)) (m (tLoc d)) ((oCh L g).view.emb j)
  rw [hfo j, Spec.lookup_apply _ hlt, hlab]
  unfold lk Spec.entry
  rw [dif_pos hlt, hfl]

end Cert.Proof.KI

end
-- ==== Proof.GeomX.lean ====
/-
  The chunk geometry, third part: consequences in the forms the tile's task uses. The forty chunks of one tile are
  pairwise disjoint, and what the program's slice of the result, or of the labels, at a chunk's offsets points to is
  that array at the chunk's indices.
-/
import proofs.«204852_g4896262718038_cont_8to1_c_202_13_alg».proof.Proof.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Two different chunks of one tile are disjoint: they differ in the plane, or else in the half of it. -/
theorem chunkSet_disjoint_same (L : grid0.Coords) {g g' : Fin 40} (h : g ≠ g') :
    Disjoint (chunkSet L g) (chunkSet L g') := by
  have hg := g.isLt
  have hg' := g'.isLt
  have hne : g.val ≠ g'.val := fun e => h (Fin.ext e)
  apply chunkSet_disjoint_of
  omega

/-- The result through the program's slice at a chunk's offsets is the result at the chunk's indices. -/
theorem pts_chunk_o (d : Dev nD) (L : grid0.Coords) (g : Fin 40) (off : Fin 4 → Nat)
    (hinb : ∀ a, off a + S1x1x80x160.size a ≤ S4x160x160x160.size a) (hsq : S1x1x80x160.Squeezes S80x160)
    (h : off = chunkOff L g) (q : PosShare TreeShare) (f : Buf (Elt F) (oLoc d)) :
    ((((Memref.whole main_v0_scv).slice (Rect.unit (s := S4x160x160x160) off S1x1x80x160.size hinb) (fun _ => rfl)).squeeze
        S80x160 hsq).view.loc (V d (cV L) (jV L))
      ↦[(((Memref.whole main_v0_scv).slice (Rect.unit (s := S4x160x160x160) off S1x1x80x160.size hinb) (fun _ => rfl)).squeeze
        S80x160 hsq).view.set]{q} f : sProp 𝕄) = oLoc d ↦[chunkSet L g]{q} f := by
  rw [set_chunk_o L g off hinb hsq h]

/-- The labels through the program's slice at a chunk's offsets are the labels at the chunk's indices. -/
theorem pts_chunk_l (d : Dev nD) (L : grid0.Coords) (g : Fin 40) (off : Fin 4 → Nat)
    (hinb : ∀ a, off a + S1x1x80x160.size a ≤ S4x160x160x160.size a) (hsq : S1x1x80x160.Squeezes S80x160)
    (h : off = chunkOff L g) (q : PosShare TreeShare) (f : Buf (Elt F) (lLoc d)) :
    ((((Memref.whole main_arg0_scv).slice (Rect.unit (s := S4x160x160x160) off S1x1x80x160.size hinb) (fun _ => rfl)).squeeze
        S80x160 hsq).view.loc (V d (cV L) (jV L))
      ↦[(((Memref.whole main_arg0_scv).slice (Rect.unit (s := S4x160x160x160) off S1x1x80x160.size hinb) (fun _ => rfl)).squeeze
        S80x160 hsq).view.set]{q} f : sProp 𝕄) = lLoc d ↦[chunkSet L g]{q} f := by
  rw [set_chunk_l L g off hinb hsq h]

end Cert.Proof.KI

end
-- ==== Proof.GeomW.lean ====
/-
  The chunk geometry, fifth part: the value bridge for a copy's landing stated as a list of writes, and the program's
  own slices at a chunk's offsets as the chunks' memrefs.

  One write of a whole 80×160 block through the result's chunk is the block written through the chunk: the whole
  rectangle places each block index at itself.
-/
import proofs.«204852_g4896262718038_cont_8to1_c_202_13_alg».proof.Proof.GeomV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The table looked up at the labels' chunk, landed on the result's chunk as one write of the whole block, is the wanted
    result on the chunk. -/
theorem want_chunk_writes (m : (ℓ : Loc nD τ sig) → Buf (Elt F) ℓ) (d : Dev nD) (L : grid0.Coords) (g : Fin 40)
    (fl : S61.Idx → BitVec 32) (fo : S80x160.Idx → BitVec 32) (hr : Spec.InRange (m (lLoc d)))
    (hfl : ∀ j : S61.Idx, fl j = m (tLoc d) j) (hfo : ∀ j, fo j = lk fl (labRead d L m g j)) (f0 : Buf (Elt F) (oLoc d)) :
    ∀ i ∈ chunkSet L g, (oCh L g).view.writes (Elt F) f0 [⟨Rect.whole S80x160, fo⟩] i = want m d i := by
  intro i hi
  have hi' := hi
  rw [← set_oCh L g] at hi'
  obtain ⟨j, -, rfl⟩ := Finset.mem_map.mp hi'
  have h1 : (oCh L g).view.write (Elt F) f0 fo Finset.univ ((oCh L g).view.emb j) = fo j :=
    (View.write_emb_of_mem (v := (oCh L g).view) (Val := Elt F) f0 fo (Finset.mem_univ j)).trans (cast_eq _ _)
  have h2 := want_chunk m d L g fl fo hr hfl hfo f0 _ hi
  have hemb : ((oCh L g).view.slice (Rect.whole S80x160)).emb j = (oCh L g).view.emb j := by
    show (oCh L g).view.emb ((Rect.whole S80x160).emb j) = _
    rw [Rect.emb_whole_apply]
  have h3 : ((oCh L g).view.slice (Rect.whole S80x160)).write (Elt F) f0 fo Finset.univ
      (((oCh L g).view.slice (Rect.whole S80x160)).emb j) = fo j :=
    (View.write_emb_of_mem (v := (oCh L g).view.slice (Rect.whole S80x160)) (Val := Elt F) f0 fo (Finset.mem_univ j)).trans
      (cast_eq _ _)
  rw [← h2, h1, View.writes_singleton]
  exact (congrArg _ hemb.symm).trans h3

/-- The program's slice of the labels at a chunk's offsets, squeezed to a block, is the chunk's memref. -/
theorem lCh_eq (L : grid0.Coords) (g : Fin 40) (off : Fin 4 → Nat)
    (hinb : ∀ a, off a + S1x1x80x160.size a ≤ S4x160x160x160.size a) (h : off = chunkOff L g) :
    ((Memref.whole main_arg0_scv : Memref sig .scVector .hbm S4x160x160x160 .i32).slice
      (Rect.unit (s := S4x160x160x160) off S1x1x80x160.size hinb) (fun _ => rfl)).squeeze S80x160 squeezes_S1x1x80x160_S80x160
      = lCh L g := by
  subst h; rfl

/-- The program's slice of the result at a chunk's offsets, squeezed to a block, is the chunk's memref. -/
theorem oCh_eq (L : grid0.Coords) (g : Fin 40) (off : Fin 4 → Nat)
    (hinb : ∀ a, off a + S1x1x80x160.size a ≤ S4x160x160x160.size a) (h : off = chunkOff L g) :
    ((Memref.whole main_v0_scv : Memref sig .scVector .hbm S4x160x160x160 .i32).slice
      (Rect.unit (s := S4x160x160x160) off S1x1x80x160.size hinb) (fun _ => rfl)).squeeze S80x160 squeezes_S1x1x80x160_S80x160
      = oCh L g := by
  subst h; rfl

end Cert.Proof.KI

end
-- ==== Proof.Sets.lean ====
/-
  Which chunks are still to be worked on, and which have been written back and awaited, at a trip of the loop.

  Trip `k` finds chunks `2k, 2k + 1, …, 39` not yet computed, and chunks `0, …, 2k - 3` written back with the write-back
  awaited (chunks `2k - 2` and `2k - 1` are written back but their write-backs are awaited only during trip `k`). A
  trip takes its two chunks off the first family and adds the two chunks it awaits to the second; after the loop the
  last two write-backs are awaited.
-/
import proofs.«204852_g4896262718038_cont_8to1_c_202_13_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The chunks not yet computed when trip `k` starts. -/
def pendSet (k : Nat) : Finset (Fin 40) := Finset.univ.filter fun g => 2 * k ≤ g.val
/-- The chunks written back, with the write-back awaited, when trip `k` starts. -/
def doneSet (k : Nat) : Finset (Fin 40) := Finset.univ.filter fun g => g.val + 2 < 2 * k

theorem mem_pendSet {k : Nat} {g : Fin 40} : g ∈ pendSet k ↔ 2 * k ≤ g.val := by
  unfold pendSet; rw [Finset.mem_filter]; exact and_iff_right (Finset.mem_univ g)
theorem mem_doneSet {k : Nat} {g : Fin 40} : g ∈ doneSet k ↔ g.val + 2 < 2 * k := by
  unfold doneSet; rw [Finset.mem_filter]; exact and_iff_right (Finset.mem_univ g)

theorem pendSet_zero : pendSet 0 = Finset.univ := by
  ext g
  constructor
  · intro _; exact Finset.mem_univ g
  · intro _; rw [mem_pendSet]; omega

theorem pendSet_twenty : pendSet 20 = ∅ := by
  ext g
  have hg := g.isLt
  constructor
  · intro h; rw [mem_pendSet] at h; omega
  · intro h; simp at h

theorem doneSet_zero : doneSet 0 = ∅ := by
  ext g
  constructor
  · intro h; rw [mem_doneSet] at h; omega
  · intro h; simp at h

theorem doneSet_one : doneSet 1 = ∅ := by
  ext g
  constructor
  · intro h; rw [mem_doneSet] at h; omega
  · intro h; simp at h

/-- The chunks pending at trip `k` are the trip's two and those pending at the next. -/
theorem pendSet_succ (k : Nat) (hk : k < 20) :
    pendSet k = insert (⟨2 * k, by omega⟩ : Fin 40) (insert (⟨2 * k + 1, by omega⟩ : Fin 40) (pendSet (k + 1))) := by
  ext g
  simp only [Finset.mem_insert, mem_pendSet, Fin.ext_iff]
  omega

theorem bigSep_pend_succ (Φ : Fin 40 → sProp 𝕄) (k : Nat) (hk : k < 20) :
    bigSep (pendSet k) Φ = iprop(Φ ⟨2 * k, by omega⟩ ∗ Φ ⟨2 * k + 1, by omega⟩ ∗ bigSep (pendSet (k + 1)) Φ) := by
  have h1 : (⟨2 * k, by omega⟩ : Fin 40) ∉ insert (⟨2 * k + 1, by omega⟩ : Fin 40) (pendSet (k + 1)) := by
    simp only [Finset.mem_insert, mem_pendSet, Fin.ext_iff]; omega
  have h2 : (⟨2 * k + 1, by omega⟩ : Fin 40) ∉ pendSet (k + 1) := by
    simp only [mem_pendSet]; omega
  rw [pendSet_succ k hk, SparseCore.bigSep_insert' h1, SparseCore.bigSep_insert' h2]

/-- The chunks done at trip `k + 1` beyond those done at trip `k` are the two awaited during trip `k`. -/
theorem doneSet_succ_sdiff (k : Nat) (h1 : 1 ≤ k) (hk : k ≤ 20) :
    doneSet (k + 1) \ doneSet k = insert (⟨2 * k - 2, by omega⟩ : Fin 40) {(⟨2 * k - 1, by omega⟩ : Fin 40)} := by
  ext g
  have hg := g.isLt
  simp only [Finset.mem_sdiff, Finset.mem_insert, Finset.mem_singleton, mem_doneSet, Fin.ext_iff]
  omega

theorem doneSet_subset_succ (k : Nat) : doneSet k ⊆ doneSet (k + 1) := by
  intro g hg
  rw [mem_doneSet] at hg ⊢
  omega

theorem bigSep_done_succ (Φ : Fin 40 → sProp 𝕄) (k : Nat) (h1 : 1 ≤ k) (hk : k ≤ 20) :
    bigSep (doneSet (k + 1)) Φ = iprop(bigSep (doneSet k) Φ ∗ Φ ⟨2 * k - 2, by omega⟩ ∗ Φ ⟨2 * k - 1, by omega⟩) := by
  have hne : (⟨2 * k - 2, by omega⟩ : Fin 40) ∉ ({(⟨2 * k - 1, by omega⟩ : Fin 40)} : Finset (Fin 40)) := by
    simp only [Finset.mem_singleton, Fin.ext_iff]; omega
  rw [SparseCore.bigSep_sdiff_split' (doneSet_subset_succ k), doneSet_succ_sdiff k h1 hk, SparseCore.bigSep_insert' hne,
    bigSep_singleton]

/-- All forty chunks are those done after the last trip and the two awaited after the loop. -/
theorem univ_sdiff_doneSet_twenty :
    (Finset.univ : Finset (Fin 40)) \ doneSet 20 = insert (⟨38, by decide⟩ : Fin 40) {(⟨39, by decide⟩ : Fin 40)} := by
  ext g
  have hg := g.isLt
  simp only [Finset.mem_sdiff, Finset.mem_univ, true_and, Finset.mem_insert, Finset.mem_singleton, mem_doneSet, Fin.ext_iff]
  omega

theorem bigSep_all_done (Φ : Fin 40 → sProp 𝕄) :
    bigSep (Finset.univ : Finset (Fin 40)) Φ = iprop(bigSep (doneSet 20) Φ ∗ Φ ⟨38, by decide⟩ ∗ Φ ⟨39, by decide⟩) := by
  have hne : (⟨38, by decide⟩ : Fin 40) ∉ ({(⟨39, by decide⟩ : Fin 40)} : Finset (Fin 40)) := by decide
  rw [SparseCore.bigSep_sdiff_split' (Finset.subset_univ (doneSet 20)), univ_sdiff_doneSet_twenty, SparseCore.bigSep_insert' hne,
    bigSep_singleton]

end Cert.Proof.KI

end
-- ==== Proof.Inv.lean ====
import proofs.«204852_g4896262718038_cont_8to1_c_202_13_alg».proof.Proof.Iface
import proofs.«204852_g4896262718038_cont_8to1_c_202_13_alg».proof.Proof.Gen.KernelIdeal.Skeleton
import proofs.«204852_g4896262718038_cont_8to1_c_202_13_alg».proof.Proof.GeomV
import proofs.«204852_g4896262718038_cont_8to1_c_202_13_alg».proof.Proof.GeomX
import proofs.«204852_g4896262718038_cont_8to1_c_202_13_alg».proof.Proof.GeomW
import proofs.«204852_g4896262718038_cont_8to1_c_202_13_alg».proof.Proof.Sets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.KernelIdeal.main_arg0_scv : Memref Cert.KernelIdeal.sig Kind.scVector Space.hbm Cert.KernelIdeal.S4x160x160x160 EltTy.i32)
local notation "tW" => (Memref.whole Cert.KernelIdeal.main_arg1_scv : Memref Cert.KernelIdeal.sig Kind.scVector Space.hbm Cert.KernelIdeal.S61 EltTy.i32)
local notation "oW" => (Memref.whole Cert.KernelIdeal.main_v0_scv : Memref Cert.KernelIdeal.sig Kind.scVector Space.hbm Cert.KernelIdeal.S4x160x160x160 EltTy.i32)
local notation "s0" => (Memref.whole Cert.KernelIdeal.cc0_scratch0 : Memref Cert.KernelIdeal.sig Kind.scVector Space.vmem Cert.KernelIdeal.S61 EltTy.i32)
local notation "s1" => (Memref.whole Cert.KernelIdeal.cc0_scratch1 : Memref Cert.KernelIdeal.sig Kind.scVector Space.vmem Cert.KernelIdeal.S80x160 EltTy.i32)
local notation "s2" => (Memref.whole Cert.KernelIdeal.cc0_scratch2 : Memref Cert.KernelIdeal.sig Kind.scVector Space.vmem Cert.KernelIdeal.S80x160 EltTy.i32)
local notation "s3" => (Memref.whole Cert.KernelIdeal.cc0_scratch3 : Memref Cert.KernelIdeal.sig Kind.scVector Space.vmem Cert.KernelIdeal.S80x160 EltTy.i32)
local notation "s4" => (Memref.whole Cert.KernelIdeal.cc0_scratch4 : Memref Cert.KernelIdeal.sig Kind.scVector Space.vmem Cert.KernelIdeal.S80x160 EltTy.i32)

/-! ## The outer loop's invariant

Before trip `k` of the outer loop (`k ≤ 20`; trip `k` handles chunks `2k` on slot 0 and `2k + 1` on slot 1): the table's
copy in the tile's scratch; per in-slot, the copy of the trip's chunk in flight (none once `k = 20`); per out-slot, the
write-out of the previous trip's chunk in flight (none at `k = 0`); the chunks of the result not yet written out, as
they were handed over; the chunks written out and waited for, at the table looked up at the labels. -/

section Inv

variable (m : (ℓ : Loc nD τ sig) → Buf (Elt F) ℓ) (d : Dev nD) (L : grid0.Coords)

/-- Chunk number `n` (read modulo 40, so that no bound need be carried). -/
def chunkN (n : Nat) : Fin 40 := ⟨n % 40, Nat.mod_lt _ (by decide)⟩
theorem chunkN_eq (n : Nat) (h : n < 40) : chunkN n = ⟨n, h⟩ := Fin.ext (Nat.mod_eq_of_lt h)

/-- The tile's read share of an array, and its two halves' tokens for the two in-slots. -/
abbrev qT : PosShare TreeShare := Transfers.shareTok fullShare 32 (tix L)
abbrev tokI0 : PosShare TreeShare := Transfers.shareTokN (qT L) 0
abbrev tokI1 : PosShare TreeShare := Transfers.shareTokN (qT L) 1

/-- Slot 0's copy of the labels' chunk `g` in flight: it delivers the slot at the chunk's labels and the chunk's share
    back; the rest of the labels stays at hand. -/
def inFl0 (g : Fin 40) : sProp 𝕄 :=
  iprop(Transfers.Flight (countersEmb (U := UU)) (thr d L) (SemLoc.dma cc0_scratch5.sem) (default : HIx 1) 409600
      iprop(((s1).view.loc (thr d L) ↦{fullShare} labRead d L m g) ∗ ((lW).view.loc (thr d L) ↦[(lCh L g).view.set]{tokI0 L} m (lLoc d)))
    ∗ ((lW).view.loc (thr d L) ↦[Finset.univ \ (lCh L g).view.set]{tokI0 L} m (lLoc d)))
def inFl1 (g : Fin 40) : sProp 𝕄 :=
  iprop(Transfers.Flight (countersEmb (U := UU)) (thr d L) (SemLoc.dma cc0_scratch6.sem) (default : HIx 1) 409600
      iprop(((s2).view.loc (thr d L) ↦{fullShare} labRead d L m g) ∗ ((lW).view.loc (thr d L) ↦[(lCh L g).view.set]{tokI1 L} m (lLoc d)))
    ∗ ((lW).view.loc (thr d L) ↦[Finset.univ \ (lCh L g).view.set]{tokI1 L} m (lLoc d)))
/-- No copy in flight on an in-slot: the slot, the share and the semaphore at hand. -/
def inIdle0 : sProp 𝕄 :=
  iprop((∃ f, (s1).view.loc (thr d L) ↦{fullShare} f) ∗ ((lW).view.loc (thr d L) ↦{tokI0 L} m (lLoc d)) ∗ semVal (semI0 d L) 0)
def inIdle1 : sProp 𝕄 :=
  iprop((∃ f, (s2).view.loc (thr d L) ↦{fullShare} f) ∗ ((lW).view.loc (thr d L) ↦{tokI1 L} m (lLoc d)) ∗ semVal (semI1 d L) 0)
def inS0 (k : Nat) : sProp 𝕄 := if k < 20 then inFl0 m d L (chunkN (2 * k)) else inIdle0 m d L
def inS1 (k : Nat) : sProp 𝕄 := if k < 20 then inFl1 m d L (chunkN (2 * k + 1)) else inIdle1 m d L

/-- An out-slot's write-out of chunk `g` in flight: it delivers the chunk of the result at the table looked up at the labels,
    and the slot back. -/
def outFl0 (g : Fin 40) : sProp 𝕄 :=
  iprop(∃ fo : Buf (Elt F) ((thr d L).loc cc0_scratch3),
    Transfers.Flight (countersEmb (U := UU)) (thr d L) (SemLoc.dma cc0_scratch7.sem) (default : HIx 1) 409600
        iprop((oLoc d ↦[chunkSet L g]{fullShare} want m d) ∗ ((s3).view.loc (thr d L) ↦[(s3).view.set]{fullShare} fo))
      ∗ ((s3).view.loc (thr d L) ↦[Finset.univ \ (s3).view.set]{fullShare} fo))
def outFl1 (g : Fin 40) : sProp 𝕄 :=
  iprop(∃ fo : Buf (Elt F) ((thr d L).loc cc0_scratch4),
    Transfers.Flight (countersEmb (U := UU)) (thr d L) (SemLoc.dma cc0_scratch8.sem) (default : HIx 1) 409600
        iprop((oLoc d ↦[chunkSet L g]{fullShare} want m d) ∗ ((s4).view.loc (thr d L) ↦[(s4).view.set]{fullShare} fo))
      ∗ ((s4).view.loc (thr d L) ↦[Finset.univ \ (s4).view.set]{fullShare} fo))
/-- No write-out in flight on an out-slot: the slot and the semaphore at hand. -/
def outIdle0 : sProp 𝕄 := iprop((∃ f, (s3).view.loc (thr d L) ↦{fullShare} f) ∗ semVal (semO0 d L) 0)
def outIdle1 : sProp 𝕄 := iprop((∃ f, (s4).view.loc (thr d L) ↦{fullShare} f) ∗ semVal (semO1 d L) 0)
def outS0 (k : Nat) : sProp 𝕄 := if 1 ≤ k ∧ k ≤ 20 then outFl0 m d L (chunkN (2 * k - 2)) else outIdle0 d L
def outS1 (k : Nat) : sProp 𝕄 := if 1 ≤ k ∧ k ≤ 20 then outFl1 m d L (chunkN (2 * k - 1)) else outIdle1 d L
/-- What trip `k`'s wait for the previous write-out hands back: that chunk of the result, done (nothing at `k = 0`). -/
def ret0 (k : Nat) : sProp 𝕄 := if 1 ≤ k ∧ k ≤ 20 then oLoc d ↦[chunkSet L (chunkN (2 * k - 2))]{fullShare} want m d else iprop(emp)
def ret1 (k : Nat) : sProp 𝕄 := if 1 ≤ k ∧ k ≤ 20 then oLoc d ↦[chunkSet L (chunkN (2 * k - 1))]{fullShare} want m d else iprop(emp)

/-- The tile's waits so far: those it started with and waits of its own DMA semaphores. -/
def owesW (O : CellTallies nD τ sig (HIx 1)) (W : Waits sig (HIx 1)) : sProp 𝕄 :=
  iprop(∃ W', ⌜∀ p ∈ W', p ∈ W ∨ p.2 = none⌝ ∗ owes (thr d L) O W')

/-- The outer loop's invariant before trip `k`. -/
def invO (fl : Buf (Elt F) ((thr d L).loc cc0_scratch0)) (O : CellTallies nD τ sig (HIx 1)) (W : Waits sig (HIx 1)) (k : Nat) (_ : BitVec 32) : sProp 𝕄 :=
  iprop(Transfers.MayWaits (thr d L) (none : HIx 1) O
    ∗ ((s0).view.loc (thr d L) ↦{fullShare} fl)
    ∗ inS0 m d L k ∗ outS0 m d L k ∗ inS1 m d L k ∗ outS1 m d L k
    ∗ bigSep (pendSet k) (fun g => oLoc d ↦[chunkSet L g]{fullShare} m (oLoc d))
    ∗ bigSep (doneSet k) (fun g => oLoc d ↦[chunkSet L g]{fullShare} want m d)
    ∗ owesW d L O W)

/-! ### From what a copy's issue leaves to the invariant's wording -/

/-- The labels' and the result's chunk memrefs over any spelling `off` of a chunk's offsets. -/
abbrev lM (off : Fin 4 → Nat) (hinb : ∀ a, off a + S1x1x80x160.size a ≤ S4x160x160x160.size a) : Memref sig .scVector .hbm S80x160 .i32 :=
  ((lW).slice (Rect.unit (s := S4x160x160x160) off S1x1x80x160.size hinb) (fun _ => rfl)).squeeze S80x160 squeezes_S1x1x80x160_S80x160
abbrev oM (off : Fin 4 → Nat) (hinb : ∀ a, off a + S1x1x80x160.size a ≤ S4x160x160x160.size a) : Memref sig .scVector .hbm S80x160 .i32 :=
  ((oW).slice (Rect.unit (s := S4x160x160x160) off S1x1x80x160.size hinb) (fun _ => rfl)).squeeze S80x160 squeezes_S1x1x80x160_S80x160

theorem inFl0_of (g : Fin 40) (off : Fin 4 → Nat) (hinb : ∀ a, off a + S1x1x80x160.size a ≤ S4x160x160x160.size a) (h : off = chunkOff L g)
    (fd w : Buf (Elt F) ((thr d L).loc cc0_scratch1)) (hw : w = View.read (Elt F) (lM off hinb).view (m (lLoc d))) :
    iprop(Transfers.Flight (countersEmb (U := UU)) (thr d L) (SemLoc.dma cc0_scratch5.sem) (default : HIx 1) 409600
        iprop(((s1).view.loc (thr d L) ↦{fullShare} View.write (Elt F) (s1).view fd w Finset.univ)
          ∗ ((lW).view.loc (thr d L) ↦[(lM off hinb).view.set]{tokI0 L} m (lLoc d)))
      ∗ ((lW).view.loc (thr d L) ↦[Finset.univ \ (lM off hinb).view.set]{tokI0 L} m (lLoc d)))
      ⊢ inFl0 m d L g := by
  subst h hw
  unfold inFl0
  refine sep_mono_left (Transfers.Flight_mono _ _ (sep_mono_left (Entails.of_eq ?_)))
  rw [show View.write (Elt F) (s1).view fd (View.read (Elt F) (lM (chunkOff L g) hinb).view (m (lLoc d))) Finset.univ
      = View.read (Elt F) (lM (chunkOff L g) hinb).view (m (lLoc d)) from View.write_whole_univ _ _ _]
  rfl

theorem inFl1_of (g : Fin 40) (off : Fin 4 → Nat) (hinb : ∀ a, off a + S1x1x80x160.size a ≤ S4x160x160x160.size a) (h : off = chunkOff L g)
    (fd w : Buf (Elt F) ((thr d L).loc cc0_scratch2)) (hw : w = View.read (Elt F) (lM off hinb).view (m (lLoc d))) :
    iprop(Transfers.Flight (countersEmb (U := UU)) (thr d L) (SemLoc.dma cc0_scratch6.sem) (default : HIx 1) 409600
        iprop(((s2).view.loc (thr d L) ↦{fullShare} View.write (Elt F) (s2).view fd w Finset.univ)
          ∗ ((lW).view.loc (thr d L) ↦[(lM off hinb).view.set]{tokI1 L} m (lLoc d)))
      ∗ ((lW).view.loc (thr d L) ↦[Finset.univ \ (lM off hinb).view.set]{tokI1 L} m (lLoc d)))
      ⊢ inFl1 m d L g := by
  subst h hw
  unfold inFl1
  refine sep_mono_left (Transfers.Flight_mono _ _ (sep_mono_left (Entails.of_eq ?_)))
  rw [show View.write (Elt F) (s2).view fd (View.read (Elt F) (lM (chunkOff L g) hinb).view (m (lLoc d))) Finset.univ
      = View.read (Elt F) (lM (chunkOff L g) hinb).view (m (lLoc d)) from View.write_whole_univ _ _ _]
  rfl

theorem outFl0_of (g : Fin 40) (off : Fin 4 → Nat) (hinb : ∀ a, off a + S1x1x80x160.size a ≤ S4x160x160x160.size a) (h : off = chunkOff L g)
    (fl : Buf (Elt F) ((thr d L).loc cc0_scratch0)) (fo w : Buf (Elt F) ((thr d L).loc cc0_scratch3)) (hw : w = fo)
    (hr : Spec.InRange (m (lLoc d))) (hfl : ∀ j : S61.Idx, fl j = m (tLoc d) j) (hfo : ∀ j, fo j = lk fl (labRead d L m g j))
    (f0 : Buf (Elt F) (oLoc d)) :
    iprop(Transfers.Flight (countersEmb (U := UU)) (thr d L) (SemLoc.dma cc0_scratch7.sem) (default : HIx 1) 409600
        iprop(((oM off hinb).view.loc (V d (cV L) (jV L)) ↦[(oM off hinb).view.set]{fullShare} (oM off hinb).view.writes (Elt F) f0 [⟨Rect.whole S80x160, w⟩])
          ∗ ((s3).view.loc (thr d L) ↦[(s3).view.set]{fullShare} fo))
      ∗ ((s3).view.loc (thr d L) ↦[Finset.univ \ (s3).view.set]{fullShare} fo))
      ⊢ outFl0 m d L g := by
  subst h hw
  unfold outFl0
  iintro ⟨HF, Hr⟩
  iexists w
  isplitl [HF]
  · iapply (Transfers.Flight_mono _ _ (sep_mono_left (Entails.of_eq ?_))) $$ HF
    rw [pts_chunk_o (F := F) d L g (chunkOff L g) hinb squeezes_S1x1x80x160_S80x160 rfl fullShare]
    exact pointsTo_congr (want_chunk_writes m d L g fl w hr hfl hfo f0)
  · iexact Hr

theorem outFl1_of (g : Fin 40) (off : Fin 4 → Nat) (hinb : ∀ a, off a + S1x1x80x160.size a ≤ S4x160x160x160.size a) (h : off = chunkOff L g)
    (fl : Buf (Elt F) ((thr d L).loc cc0_scratch0)) (fo w : Buf (Elt F) ((thr d L).loc cc0_scratch4)) (hw : w = fo)
    (hr : Spec.InRange (m (lLoc d))) (hfl : ∀ j : S61.Idx, fl j = m (tLoc d) j) (hfo : ∀ j, fo j = lk fl (labRead d L m g j))
    (f0 : Buf (Elt F) (oLoc d)) :
    iprop(Transfers.Flight (countersEmb (U := UU)) (thr d L) (SemLoc.dma cc0_scratch8.sem) (default : HIx 1) 409600
        iprop(((oM off hinb).view.loc (V d (cV L) (jV L)) ↦[(oM off hinb).view.set]{fullShare} (oM off hinb).view.writes (Elt F) f0 [⟨Rect.whole S80x160, w⟩])
          ∗ ((s4).view.loc (thr d L) ↦[(s4).view.set]{fullShare} fo))
      ∗ ((s4).view.loc (thr d L) ↦[Finset.univ \ (s4).view.set]{fullShare} fo))
      ⊢ outFl1 m d L g := by
  subst h hw
  unfold outFl1
  iintro ⟨HF, Hr⟩
  iexists w
  isplitl [HF]
  · iapply (Transfers.Flight_mono _ _ (sep_mono_left (Entails.of_eq ?_))) $$ HF
    rw [pts_chunk_o (F := F) d L g (chunkOff L g) hinb squeezes_S1x1x80x160_S80x160 rfl fullShare]
    exact pointsTo_congr (want_chunk_writes m d L g fl w hr hfl hfo f0)
  · iexact Hr

end Inv

end Cert.Proof.KI

end
-- ==== Proof.Toks.lean ====
/-
  A read share split into two read tokens and a remainder: the share is halved, the right half is the first token; the
  left half is halved again, its right half is the second token, and what is left is the remainder. Two copies reading one
  array at once are lent one token each.
-/
import proofs.«204852_g4896262718038_cont_8to1_c_202_13_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A points-to at `q` is the remainder after two read tokens, and the two tokens. -/
theorem toks2 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 2} f) ∗ (ℓ ↦[S]{Transfers.shareTokN q 0} f)
      ∗ (ℓ ↦[S]{Transfers.shareTokN q 1} f)) := by
  have h1 : (ℓ ↦[S]{q} f : sProp 𝕄) ⊣⊢ iprop((ℓ ↦[S]{Transfers.shareDrop q 1} f) ∗ ℓ ↦[S]{Transfers.shareTokN q 0} f) :=
    pointsTo_share (PosShare.mem_left_op_right _)
  have h2 : (ℓ ↦[S]{Transfers.shareDrop q 1} f : sProp 𝕄)
      ⊣⊢ iprop((ℓ ↦[S]{Transfers.shareDrop q 2} f) ∗ ℓ ↦[S]{Transfers.shareTokN q 1} f) :=
    pointsTo_share (PosShare.mem_left_op_right _)
  constructor
  · refine h1.1.trans ((sep_mono_left h2.1).trans ?_)
    iintro ⟨⟨Hd, Ht1⟩, Ht0⟩
    isplitl [Hd]; · iexact Hd
    isplitl [Ht0] <;> iassumption
  · refine BIBase.Entails.trans ?_ ((sep_mono_left h2.2).trans h1.2)
    iintro ⟨Hd, Ht0, Ht1⟩
    isplitl [Hd Ht1]; · isplitl [Hd] <;> iassumption
    iexact Ht0

end Cert.Proof.KI

end
-- ==== Proof.Rows.lean ====
/-
  The row loops of a tile's task. A chunk of labels sits in an in-slot (80 rows of 160 words) and the table's copy in a
  61-word scratch; the loop takes the rows in turn, and a row sixteen words at a time: the sixteen labels are read, each
  is below 61 (the slot holds labels in range), the table's copy is read at them, and the sixteen results are stored at
  the same place of the out-slot. After row `r` the out-slot holds the table looked up at the labels on every row up to
  `r`: the ten stores of a trip lie in row `r`, cover it, and each holds the looked-up words; rows before it are untouched.
  After the eighty rows the out-slot is the table looked up at the in-slot, word for word.
-/
import proofs.«204852_g4896262718038_cont_8to1_c_202_13_alg».proof.Proof.Chunks
import proofs.«204852_g4896262718038_cont_8to1_c_202_13_alg».proof.Proof.Gen.KernelIdeal.Skeleton
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.KernelIdeal.main_arg0_scv : Memref Cert.KernelIdeal.sig Kind.scVector Space.hbm Cert.KernelIdeal.S4x160x160x160 EltTy.i32)
local notation "tW" => (Memref.whole Cert.KernelIdeal.main_arg1_scv : Memref Cert.KernelIdeal.sig Kind.scVector Space.hbm Cert.KernelIdeal.S61 EltTy.i32)
local notation "oW" => (Memref.whole Cert.KernelIdeal.main_v0_scv : Memref Cert.KernelIdeal.sig Kind.scVector Space.hbm Cert.KernelIdeal.S4x160x160x160 EltTy.i32)
local notation "s0" => (Memref.whole Cert.KernelIdeal.cc0_scratch0 : Memref Cert.KernelIdeal.sig Kind.scVector Space.vmem Cert.KernelIdeal.S61 EltTy.i32)
local notation "s1" => (Memref.whole Cert.KernelIdeal.cc0_scratch1 : Memref Cert.KernelIdeal.sig Kind.scVector Space.vmem Cert.KernelIdeal.S80x160 EltTy.i32)
local notation "s2" => (Memref.whole Cert.KernelIdeal.cc0_scratch2 : Memref Cert.KernelIdeal.sig Kind.scVector Space.vmem Cert.KernelIdeal.S80x160 EltTy.i32)
local notation "s3" => (Memref.whole Cert.KernelIdeal.cc0_scratch3 : Memref Cert.KernelIdeal.sig Kind.scVector Space.vmem Cert.KernelIdeal.S80x160 EltTy.i32)
local notation "s4" => (Memref.whole Cert.KernelIdeal.cc0_scratch4 : Memref Cert.KernelIdeal.sig Kind.scVector Space.vmem Cert.KernelIdeal.S80x160 EltTy.i32)

/-! ## One row of a chunk: sixteen labels at a time, looked up in the table's copy -/

section Pure

variable {sig' : RefSig} {κ : Kind} {sp : Space} {s : Shape} {e : EltTy} {Val : EltTy → Type}

/-- A run of stores all inside the slab `k` of axis `a0`, covering it, each piece agreeing with `G`: if the buffer agreed
    with `G` below the slab it now agrees with it up to and including the slab. -/
theorem rows_step_read (v : View sig' κ sp s e) (f : v.ty.Contents Val) (G : s.Idx → Val e) (Ls : List (View.Piece Val s e)) (k : Nat) (a0 : Fin s.rank)
    (h1 : ∀ p ∈ Ls, ∀ x : p.1.shape.Idx, p.2 x = G (p.1.emb x))
    (h2 : ∀ p ∈ Ls, ∀ j ∈ p.1.set, (j a0).val = k)
    (h3 : ∀ j : s.Idx, (j a0).val = k → ∃ p ∈ Ls, j ∈ p.1.set)
    (hf : ∀ j : s.Idx, (j a0).val < k → v.read Val f j = G j) :
    ∀ j : s.Idx, (j a0).val < k + 1 → v.read Val (v.writes Val f Ls) j = G j := by
  intro j hj
  by_cases hk : (j a0).val = k
  · exact View.read_writes_apply_of_pieces v f G Ls h1 j (h3 j hk)
  · rw [View.read_writes_apply_of_forall_not_mem v f j Ls (fun p hp hm => hk (h2 p hp j hm))]
    exact hf j (by omega)

end Pure

/-- A 1×16 block at `[k, c]` of an 80×160 slot lies in row `k`, columns `c … c + 15`; -/
theorem unit_row {off : Fin 2 → Nat} {inb : ∀ a, off a + (![1, 16] : Fin 2 → Nat) a ≤ S80x160.size a} (k c : Nat) (h : off = ![k, c])
    {j : S80x160.Idx} (hj : j ∈ (Rect.unit (s := S80x160) off ![1, 16] inb).set) : (j 0).val = k ∧ c ≤ (j 1).val ∧ (j 1).val < c + 16 := by
  subst h
  have h0 : k ≤ (j 0).val ∧ (j 0).val < k + 1 := (Rect.mem_set_unit.mp hj) 0
  have h1 : c ≤ (j 1).val ∧ (j 1).val < c + 16 := (Rect.mem_set_unit.mp hj) 1
  omega

/-- and holds every index there. -/
theorem unit_row_mem {off : Fin 2 → Nat} {inb : ∀ a, off a + (![1, 16] : Fin 2 → Nat) a ≤ S80x160.size a} (k c : Nat) (h : off = ![k, c])
    {j : S80x160.Idx} (h0 : (j 0).val = k) (h1 : c ≤ (j 1).val) (h2 : (j 1).val < c + 16) : j ∈ (Rect.unit (s := S80x160) off ![1, 16] inb).set := by
  subst h
  refine Rect.mem_set_unit.mpr fun a => ?_
  fin_cases a
  · show k ≤ (j 0).val ∧ (j 0).val < k + 1; omega
  · show c ≤ (j 1).val ∧ (j 1).val < c + 16; omega

variable [FloatOps F]

section
variable (d : Dev nD) (L : grid0.Coords)

omit [FloatOps F] in
/-- What is stored for sixteen labels of a row: the table's copy at each of them. -/
theorem piece_eqA {fi : Buf (Elt F) ((thr d L).loc cc0_scratch1)} {fl : Buf (Elt F) ((thr d L).loc cc0_scratch0)} (hfi : ∀ j, (fi j).toNat < 61)
    (off_in off_out : Fin 2 → Nat) (h : off_in = off_out)
    (inb1 : ∀ a, off_in a + S1x16.size a ≤ S80x160.size a) (inb2 : ∀ a, off_out a + (![1, 16] : Fin 2 → Nat) a ≤ S80x160.size a)
    (hv : ∀ a x, ((![shapeCast S16 ((s1).view.readAt (Elt F) (Rect.unit (s := S80x160) off_in S1x16.size inb1).toLoadRect fi) shapeCasts_S1x16_S16] : Fin 1 → IVec S16 32) a x).toNat < S61.size a)
    (x : S1x16.Idx) :
    shapeCast S1x16 (loadIdx ((s0).view.readAt (Elt F) (LoadRect.whole S61) fl)
        ![shapeCast S16 ((s1).view.readAt (Elt F) (Rect.unit (s := S80x160) off_in S1x16.size inb1).toLoadRect fi) shapeCasts_S1x16_S16] hv) shapeCasts_S16_S1x16 x
      = lk fl (fi ((Rect.unit (s := S80x160) off_out ![1, 16] inb2).emb x)) := by
  subst h
  have hx0 : (x 0).val < 1 := (x 0).isLt
  have hx1 : (x 1).val < 16 := (x 1).isLt
  let y : S16.Idx := ValueIdx.ix1 (⟨(x 1).val, hx1⟩ : Fin 16)
  have hy : (S16.rowMajor y).val = (S1x16.rowMajor x).val := by
    rw [Shape.rowMajor_val_one, Shape.rowMajor_val_two]
    show (x 1).val = (x 0).val * 16 + (x 1).val
    omega
  rw [shapeCast_apply _ shapeCasts_S16_S1x16 x y hy]
  have hvy : shapeCast S16 ((s1).view.readAt (Elt F) (Rect.unit (s := S80x160) off_in S1x16.size inb1).toLoadRect fi) shapeCasts_S1x16_S16 y
      = fi ((Rect.unit (s := S80x160) off_in ![1, 16] inb2).emb x) := by
    rw [shapeCast_apply _ shapeCasts_S1x16_S16 y x hy.symm]; rfl
  unfold lk
  rw [dif_pos (hfi _)]
  show fl _ = fl _
  refine congrArg fl (funext fun (a : Fin 1) => Fin.ext ?_)
  obtain rfl : a = 0 := Subsingleton.elim _ _
  show 0 + 1 * (shapeCast S16 ((s1).view.readAt (Elt F) (Rect.unit (s := S80x160) off_in S1x16.size inb1).toLoadRect fi) shapeCasts_S1x16_S16 y).toNat = _
  rw [hvy]; simp only [Nat.zero_add, Nat.one_mul]

theorem rows0_trips : Scf.trips k0_t2_loop.lb k0_t2_loop.ub k0_t2_loop.st = 80 := by decide +kernel

def inv_rows0 (fi : Buf (Elt F) ((thr d L).loc cc0_scratch1)) (fl : Buf (Elt F) ((thr d L).loc cc0_scratch0)) (r : Nat) (_ : BitVec 32) : sProp 𝕄 :=
  iprop(((s1).view.loc (thr d L) ↦{fullShare} fi : sProp 𝕄) ∗ ((s0).view.loc (thr d L) ↦{fullShare} fl : sProp 𝕄)
    ∗ ∃ fo' : Buf (Elt F) ((thr d L).loc cc0_scratch3), ((s3).view.loc (thr d L) ↦{fullShare} fo' : sProp 𝕄) ∗ ⌜∀ j : S80x160.Idx, (j 0).val < r → (s3).view.read (Elt F) fo' j = lk fl (fi j)⌝)

set_option maxHeartbeats 4000000 in
theorem rows0 (v29 c0 c1 : BitVec 32) (t : Fin k0_t1_loop.trips)
    (fi : Buf (Elt F) ((thr d L).loc cc0_scratch1)) (fl : Buf (Elt F) ((thr d L).loc cc0_scratch0)) (fo : Buf (Elt F) ((thr d L).loc cc0_scratch3))
    (hfi : ∀ j, (fi j).toNat < 61) :
    iprop(((s1).view.loc (thr d L) ↦{fullShare} fi : sProp 𝕄) ∗ ((s0).view.loc (thr d L) ↦{fullShare} fl) ∗ ((s3).view.loc (thr d L) ↦{fullShare} fo))
      ⊢ wp frame (wpE (defs₀ (F := F)) 𝒱₀ (thr d L) none) Set.univ
          (Scf.Loop.for k0_t2_loop k0_t2_ok 0#32 (k0_t2_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0 v29 c0 c1 t))
          fun _ => iprop(((s1).view.loc (thr d L) ↦{fullShare} fi) ∗ ((s0).view.loc (thr d L) ↦{fullShare} fl)
            ∗ ∃ fo', ((s3).view.loc (thr d L) ↦{fullShare} fo') ∗ ⌜∀ j, fo' j = lk fl (fi j)⌝) := by
  iintro ⟨H1, H0, H3⟩
  sl_for (inv_rows0 d L fi fl) $$ [H1 H0 H3]
  case region =>
    intro k acc
    unfold rows0.sl.prog.body_1
    unfold k0_t2_body
    simp only [k0_part1_eq_skeleton]
    unfold k0_part1_skel SparseCore.vectorLoadIdx
    unfold inv_rows0
    iintro ⟨H1, H0, %fo', H3, %hfo⟩
    sl_exec (disch := (intro a x; obtain rfl : a = 0 := Subsingleton.elim _ _; exact hfi _))
    sl_step
    isplitl [H1]; · iexact H1
    isplitl [H0]; · iexact H0
    iexists _
    isplitl [H3]; · iexact H3
    ipureintro
    refine rows_step_read (s3).view fo' (fun j => lk fl (fi j)) _ k.val 0 ?hG ?h2 ?h3 hfo
    case hG =>
      intro p hp
      simp only [List.mem_cons, List.not_mem_nil, _root_.or_false] at hp
      rcases hp with rfl | rfl | rfl | rfl | rfl | rfl | rfl | rfl | rfl | rfl
      · intro x; exact piece_eqA d L hfi _ _ ((k0_off14_eq k).trans (k0_off24_eq k).symm) (k0_off14_inb k) (k0_off24_inb k) _ x
      · intro x; exact piece_eqA d L hfi _ _ ((k0_off13_eq k).trans (k0_off23_eq k).symm) (k0_off13_inb k) (k0_off23_inb k) _ x
      · intro x; exact piece_eqA d L hfi _ _ ((k0_off12_eq k).trans (k0_off22_eq k).symm) (k0_off12_inb k) (k0_off22_inb k) _ x
      · intro x; exact piece_eqA d L hfi _ _ ((k0_off11_eq k).trans (k0_off21_eq k).symm) (k0_off11_inb k) (k0_off21_inb k) _ x
      · intro x; exact piece_eqA d L hfi _ _ ((k0_off10_eq k).trans (k0_off20_eq k).symm) (k0_off10_inb k) (k0_off20_inb k) _ x
      · intro x; exact piece_eqA d L hfi _ _ ((k0_off9_eq k).trans (k0_off19_eq k).symm) (k0_off9_inb k) (k0_off19_inb k) _ x
      · intro x; exact piece_eqA d L hfi _ _ ((k0_off8_eq k).trans (k0_off18_eq k).symm) (k0_off8_inb k) (k0_off18_inb k) _ x
      · intro x; exact piece_eqA d L hfi _ _ ((k0_off7_eq k).trans (k0_off17_eq k).symm) (k0_off7_inb k) (k0_off17_inb k) _ x
      · intro x; exact piece_eqA d L hfi _ _ ((k0_off6_eq k).trans (k0_off16_eq k).symm) (k0_off6_inb k) (k0_off16_inb k) _ x
      · intro x; exact piece_eqA d L hfi _ _ ((k0_off5_eq k).trans (k0_off15_eq k).symm) (k0_off5_inb k) (k0_off15_inb k) _ x
    case h2 =>
      intro p hp
      simp only [List.mem_cons, List.not_mem_nil, _root_.or_false] at hp
      rcases hp with rfl | rfl | rfl | rfl | rfl | rfl | rfl | rfl | rfl | rfl
      · intro j hj; exact (unit_row (inb := k0_off24_inb k) k.val 144 (k0_off24_eq k) hj).1
      · intro j hj; exact (unit_row (inb := k0_off23_inb k) k.val 128 (k0_off23_eq k) hj).1
      · intro j hj; exact (unit_row (inb := k0_off22_inb k) k.val 112 (k0_off22_eq k) hj).1
      · intro j hj; exact (unit_row (inb := k0_off21_inb k) k.val 96 (k0_off21_eq k) hj).1
      · intro j hj; exact (unit_row (inb := k0_off20_inb k) k.val 80 (k0_off20_eq k) hj).1
      · intro j hj; exact (unit_row (inb := k0_off19_inb k) k.val 64 (k0_off19_eq k) hj).1
      · intro j hj; exact (unit_row (inb := k0_off18_inb k) k.val 48 (k0_off18_eq k) hj).1
      · intro j hj; exact (unit_row (inb := k0_off17_inb k) k.val 32 (k0_off17_eq k) hj).1
      · intro j hj; exact (unit_row (inb := k0_off16_inb k) k.val 16 (k0_off16_eq k) hj).1
      · intro j hj; exact (unit_row (inb := k0_off15_inb k) k.val 0 (k0_off15_eq k) hj).1
    case h3 =>
      intro j hk
      have hj1 : (j 1).val < 160 := (j 1).isLt
      rcases (by omega : (0 ≤ (j 1).val ∧ (j 1).val < 16) ∨ (16 ≤ (j 1).val ∧ (j 1).val < 32) ∨ (32 ≤ (j 1).val ∧ (j 1).val < 48) ∨ (48 ≤ (j 1).val ∧ (j 1).val < 64) ∨ (64 ≤ (j 1).val ∧ (j 1).val < 80) ∨ (80 ≤ (j 1).val ∧ (j 1).val < 96) ∨ (96 ≤ (j 1).val ∧ (j 1).val < 112) ∨ (112 ≤ (j 1).val ∧ (j 1).val < 128) ∨ (128 ≤ (j 1).val ∧ (j 1).val < 144) ∨ (144 ≤ (j 1).val ∧ (j 1).val < 160)) with h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit_row_mem (inb := k0_off15_inb k) k.val 0 (k0_off15_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit_row_mem (inb := k0_off16_inb k) k.val 16 (k0_off16_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit_row_mem (inb := k0_off17_inb k) k.val 32 (k0_off17_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_self)))))), unit_row_mem (inb := k0_off18_inb k) k.val 48 (k0_off18_eq k) hk h.1 h.2⟩
      · exact ⟨_, List.mem_cons_of_mem _ (List.mem_cons_of_mem _ (List.mem_cons_of_mem _ (List.mem_cons_of_mem _ (List.mem_cons_of_mem _ (List.mem_cons_self))))), unit_row_mem (inb := k0_off19_inb k) k.val 64 (k0_off19_eq k) hk h.1 h.2⟩
      · exact ⟨_, List.mem_cons_of_mem _ (List.mem_cons_of_mem _ (List.mem_cons_of_mem _ (List.mem_cons_of_mem _ (List.mem_cons_self)))), unit_row_mem (inb := k0_off20_inb k) k.val 80 (k0_off20_eq k) hk h.1 h.2⟩
      · exact ⟨_, List.mem_cons_of_mem _ (List.mem_cons_of_mem _ (List.mem_cons_of_mem _ (List.mem_cons_self))), unit_row_mem (inb := k0_off21_inb k) k.val 96 (k0_off21_eq k) hk h.1 h.2⟩
      · exact ⟨_, List.mem_cons_of_mem _ (List.mem_cons_of_mem _ (List.mem_cons_self)), unit_row_mem (inb := k0_off22_inb k) k.val 112 (k0_off22_eq k) hk h.1 h.2⟩
      · exact ⟨_, List.mem_cons_of_mem _ (List.mem_cons_self), unit_row_mem (inb := k0_off23_inb k) k.val 128 (k0_off23_eq k) hk h.1 h.2⟩
      · exact ⟨_, List.mem_cons_self, unit_row_mem (inb := k0_off24_inb k) k.val 144 (k0_off24_eq k) hk h.1 h.2⟩
  · isplitl [H1 H0 H3]
    · unfold inv_rows0
      isplitl [H1]; · iexact H1
      isplitl [H0]; · iexact H0
      iexists fo
      isplitl [H3]; · iexact H3
      ipureintro; intro j hj; exact absurd hj (Nat.not_lt_zero _)
    · iintro %acc HI
      unfold inv_rows0
      icases HI with ⟨H1, H0, %fo', H3, %h⟩
      isplitl [H1]; · iexact H1
      isplitl [H0]; · iexact H0
      iexists fo'
      isplitl [H3]; · iexact H3
      ipureintro; intro j
      exact h j (lt_of_lt_of_eq (show (j 0).val < 80 from (j 0).isLt) rows0_trips.symm)

omit [FloatOps F] in
/-- What is stored for sixteen labels of a row: the table's copy at each of them. -/
theorem piece_eqB {fi : Buf (Elt F) ((thr d L).loc cc0_scratch2)} {fl : Buf (Elt F) ((thr d L).loc cc0_scratch0)} (hfi : ∀ j, (fi j).toNat < 61)
    (off_in off_out : Fin 2 → Nat) (h : off_in = off_out)
    (inb1 : ∀ a, off_in a + S1x16.size a ≤ S80x160.size a) (inb2 : ∀ a, off_out a + (![1, 16] : Fin 2 → Nat) a ≤ S80x160.size a)
    (hv : ∀ a x, ((![shapeCast S16 ((s2).view.readAt (Elt F) (Rect.unit (s := S80x160) off_in S1x16.size inb1).toLoadRect fi) shapeCasts_S1x16_S16] : Fin 1 → IVec S16 32) a x).toNat < S61.size a)
    (x : S1x16.Idx) :
    shapeCast S1x16 (loadIdx ((s0).view.readAt (Elt F) (LoadRect.whole S61) fl)
        ![shapeCast S16 ((s2).view.readAt (Elt F) (Rect.unit (s := S80x160) off_in S1x16.size inb1).toLoadRect fi) shapeCasts_S1x16_S16] hv) shapeCasts_S16_S1x16 x
      = lk fl (fi ((Rect.unit (s := S80x160) off_out ![1, 16] inb2).emb x)) := by
  subst h
  have hx0 : (x 0).val < 1 := (x 0).isLt
  have hx1 : (x 1).val < 16 := (x 1).isLt
  let y : S16.Idx := ValueIdx.ix1 (⟨(x 1).val, hx1⟩ : Fin 16)
  have hy : (S16.rowMajor y).val = (S1x16.rowMajor x).val := by
    rw [Shape.rowMajor_val_one, Shape.rowMajor_val_two]
    show (x 1).val = (x 0).val * 16 + (x 1).val
    omega
  rw [shapeCast_apply _ shapeCasts_S16_S1x16 x y hy]
  have hvy : shapeCast S16 ((s2).view.readAt (Elt F) (Rect.unit (s := S80x160) off_in S1x16.size inb1).toLoadRect fi) shapeCasts_S1x16_S16 y
      = fi ((Rect.unit (s := S80x160) off_in ![1, 16] inb2).emb x) := by
    rw [shapeCast_apply _ shapeCasts_S1x16_S16 y x hy.symm]; rfl
  unfold lk
  rw [dif_pos (hfi _)]
  show fl _ = fl _
  refine congrArg fl (funext fun (a : Fin 1) => Fin.ext ?_)
  obtain rfl : a = 0 := Subsingleton.elim _ _
  show 0 + 1 * (shapeCast S16 ((s2).view.readAt (Elt F) (Rect.unit (s := S80x160) off_in S1x16.size inb1).toLoadRect fi) shapeCasts_S1x16_S16 y).toNat = _
  rw [hvy]; simp only [Nat.zero_add, Nat.one_mul]

theorem rows1_trips : Scf.trips k0_t3_loop.lb k0_t3_loop.ub k0_t3_loop.st = 80 := by decide +kernel

def inv_rows1 (fi : Buf (Elt F) ((thr d L).loc cc0_scratch2)) (fl : Buf (Elt F) ((thr d L).loc cc0_scratch0)) (r : Nat) (_ : BitVec 32) : sProp 𝕄 :=
  iprop(((s2).view.loc (thr d L) ↦{fullShare} fi : sProp 𝕄) ∗ ((s0).view.loc (thr d L) ↦{fullShare} fl : sProp 𝕄)
    ∗ ∃ fo' : Buf (Elt F) ((thr d L).loc cc0_scratch4), ((s4).view.loc (thr d L) ↦{fullShare} fo' : sProp 𝕄) ∗ ⌜∀ j : S80x160.Idx, (j 0).val < r → (s4).view.read (Elt F) fo' j = lk fl (fi j)⌝)

set_option maxHeartbeats 4000000 in
theorem rows1
    (fi : Buf (Elt F) ((thr d L).loc cc0_scratch2)) (fl : Buf (Elt F) ((thr d L).loc cc0_scratch0)) (fo : Buf (Elt F) ((thr d L).loc cc0_scratch4))
    (hfi : ∀ j, (fi j).toNat < 61) :
    iprop(((s2).view.loc (thr d L) ↦{fullShare} fi : sProp 𝕄) ∗ ((s0).view.loc (thr d L) ↦{fullShare} fl) ∗ ((s4).view.loc (thr d L) ↦{fullShare} fo))
      ⊢ wp frame (wpE (defs₀ (F := F)) 𝒱₀ (thr d L) none) Set.univ
          (Scf.Loop.for k0_t3_loop k0_t3_ok 0#32 (k0_t3_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0))
          fun _ => iprop(((s2).view.loc (thr d L) ↦{fullShare} fi) ∗ ((s0).view.loc (thr d L) ↦{fullShare} fl)
            ∗ ∃ fo', ((s4).view.loc (thr d L) ↦{fullShare} fo') ∗ ⌜∀ j, fo' j = lk fl (fi j)⌝) := by
  iintro ⟨H1, H0, H3⟩
  sl_for (inv_rows1 d L fi fl) $$ [H1 H0 H3]
  case region =>
    intro k acc
    unfold rows1.sl.prog.body_1
    unfold k0_t3_body
    simp only [k0_part2_eq_skeleton]
    unfold k0_part2_skel SparseCore.vectorLoadIdx
    unfold inv_rows1
    iintro ⟨H1, H0, %fo', H3, %hfo⟩
    sl_exec (disch := (intro a x; obtain rfl : a = 0 := Subsingleton.elim _ _; exact hfi _))
    sl_step
    isplitl [H1]; · iexact H1
    isplitl [H0]; · iexact H0
    iexists _
    isplitl [H3]; · iexact H3
    ipureintro
    refine rows_step_read (s4).view fo' (fun j => lk fl (fi j)) _ k.val 0 ?hG ?h2 ?h3 hfo
    case hG =>
      intro p hp
      simp only [List.mem_cons, List.not_mem_nil, _root_.or_false] at hp
      rcases hp with rfl | rfl | rfl | rfl | rfl | rfl | rfl | rfl | rfl | rfl
      · intro x; exact piece_eqB d L hfi _ _ ((k0_off36_eq k).trans (k0_off46_eq k).symm) (k0_off36_inb k) (k0_off46_inb k) _ x
      · intro x; exact piece_eqB d L hfi _ _ ((k0_off35_eq k).trans (k0_off45_eq k).symm) (k0_off35_inb k) (k0_off45_inb k) _ x
      · intro x; exact piece_eqB d L hfi _ _ ((k0_off34_eq k).trans (k0_off44_eq k).symm) (k0_off34_inb k) (k0_off44_inb k) _ x
      · intro x; exact piece_eqB d L hfi _ _ ((k0_off33_eq k).trans (k0_off43_eq k).symm) (k0_off33_inb k) (k0_off43_inb k) _ x
      · intro x; exact piece_eqB d L hfi _ _ ((k0_off32_eq k).trans (k0_off42_eq k).symm) (k0_off32_inb k) (k0_off42_inb k) _ x
      · intro x; exact piece_eqB d L hfi _ _ ((k0_off31_eq k).trans (k0_off41_eq k).symm) (k0_off31_inb k) (k0_off41_inb k) _ x
      · intro x; exact piece_eqB d L hfi _ _ ((k0_off30_eq k).trans (k0_off40_eq k).symm) (k0_off30_inb k) (k0_off40_inb k) _ x
      · intro x; exact piece_eqB d L hfi _ _ ((k0_off29_eq k).trans (k0_off39_eq k).symm) (k0_off29_inb k) (k0_off39_inb k) _ x
      · intro x; exact piece_eqB d L hfi _ _ ((k0_off28_eq k).trans (k0_off38_eq k).symm) (k0_off28_inb k) (k0_off38_inb k) _ x
      · intro x; exact piece_eqB d L hfi _ _ ((k0_off27_eq k).trans (k0_off37_eq k).symm) (k0_off27_inb k) (k0_off37_inb k) _ x
    case h2 =>
      intro p hp
      simp only [List.mem_cons, List.not_mem_nil, _root_.or_false] at hp
      rcases hp with rfl | rfl | rfl | rfl | rfl | rfl | rfl | rfl | rfl | rfl
      · intro j hj; exact (unit_row (inb := k0_off46_inb k) k.val 144 (k0_off46_eq k) hj).1
      · intro j hj; exact (unit_row (inb := k0_off45_inb k) k.val 128 (k0_off45_eq k) hj).1
      · intro j hj; exact (unit_row (inb := k0_off44_inb k) k.val 112 (k0_off44_eq k) hj).1
      · intro j hj; exact (unit_row (inb := k0_off43_inb k) k.val 96 (k0_off43_eq k) hj).1
      · intro j hj; exact (unit_row (inb := k0_off42_inb k) k.val 80 (k0_off42_eq k) hj).1
      · intro j hj; exact (unit_row (inb := k0_off41_inb k) k.val 64 (k0_off41_eq k) hj).1
      · intro j hj; exact (unit_row (inb := k0_off40_inb k) k.val 48 (k0_off40_eq k) hj).1
      · intro j hj; exact (unit_row (inb := k0_off39_inb k) k.val 32 (k0_off39_eq k) hj).1
      · intro j hj; exact (unit_row (inb := k0_off38_inb k) k.val 16 (k0_off38_eq k) hj).1
      · intro j hj; exact (unit_row (inb := k0_off37_inb k) k.val 0 (k0_off37_eq k) hj).1
    case h3 =>
      intro j hk
      have hj1 : (j 1).val < 160 := (j 1).isLt
      rcases (by omega : (0 ≤ (j 1).val ∧ (j 1).val < 16) ∨ (16 ≤ (j 1).val ∧ (j 1).val < 32) ∨ (32 ≤ (j 1).val ∧ (j 1).val < 48) ∨ (48 ≤ (j 1).val ∧ (j 1).val < 64) ∨ (64 ≤ (j 1).val ∧ (j 1).val < 80) ∨ (80 ≤ (j 1).val ∧ (j 1).val < 96) ∨ (96 ≤ (j 1).val ∧ (j 1).val < 112) ∨ (112 ≤ (j 1).val ∧ (j 1).val < 128) ∨ (128 ≤ (j 1).val ∧ (j 1).val < 144) ∨ (144 ≤ (j 1).val ∧ (j 1).val < 160)) with h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit_row_mem (inb := k0_off37_inb k) k.val 0 (k0_off37_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit_row_mem (inb := k0_off38_inb k) k.val 16 (k0_off38_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit_row_mem (inb := k0_off39_inb k) k.val 32 (k0_off39_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_self)))))), unit_row_mem (inb := k0_off40_inb k) k.val 48 (k0_off40_eq k) hk h.1 h.2⟩
      · exact ⟨_, List.mem_cons_of_mem _ (List.mem_cons_of_mem _ (List.mem_cons_of_mem _ (List.mem_cons_of_mem _ (List.mem_cons_of_mem _ (List.mem_cons_self))))), unit_row_mem (inb := k0_off41_inb k) k.val 64 (k0_off41_eq k) hk h.1 h.2⟩
      · exact ⟨_, List.mem_cons_of_mem _ (List.mem_cons_of_mem _ (List.mem_cons_of_mem _ (List.mem_cons_of_mem _ (List.mem_cons_self)))), unit_row_mem (inb := k0_off42_inb k) k.val 80 (k0_off42_eq k) hk h.1 h.2⟩
      · exact ⟨_, List.mem_cons_of_mem _ (List.mem_cons_of_mem _ (List.mem_cons_of_mem _ (List.mem_cons_self))), unit_row_mem (inb := k0_off43_inb k) k.val 96 (k0_off43_eq k) hk h.1 h.2⟩
      · exact ⟨_, List.mem_cons_of_mem _ (List.mem_cons_of_mem _ (List.mem_cons_self)), unit_row_mem (inb := k0_off44_inb k) k.val 112 (k0_off44_eq k) hk h.1 h.2⟩
      · exact ⟨_, List.mem_cons_of_mem _ (List.mem_cons_self), unit_row_mem (inb := k0_off45_inb k) k.val 128 (k0_off45_eq k) hk h.1 h.2⟩
      · exact ⟨_, List.mem_cons_self, unit_row_mem (inb := k0_off46_inb k) k.val 144 (k0_off46_eq k) hk h.1 h.2⟩
  · isplitl [H1 H0 H3]
    · unfold inv_rows1
      isplitl [H1]; · iexact H1
      isplitl [H0]; · iexact H0
      iexists fo
      isplitl [H3]; · iexact H3
      ipureintro; intro j hj; exact absurd hj (Nat.not_lt_zero _)
    · iintro %acc HI
      unfold inv_rows1
      icases HI with ⟨H1, H0, %fo', H3, %h⟩
      isplitl [H1]; · iexact H1
      isplitl [H0]; · iexact H0
      iexists fo'
      isplitl [H3]; · iexact H3
      ipureintro; intro j
      exact h j (lt_of_lt_of_eq (show (j 0).val < 80 from (j 0).isLt) rows1_trips.symm)

end

end Cert.Proof.KI

end
-- ==== Proof.Slot0.lean ====
import proofs.«204852_g4896262718038_cont_8to1_c_202_13_alg».proof.Proof.Iface
import proofs.«204852_g4896262718038_cont_8to1_c_202_13_alg».proof.Proof.Gen.KernelIdeal.Skeleton
import proofs.«204852_g4896262718038_cont_8to1_c_202_13_alg».proof.Proof.Inv
import proofs.«204852_g4896262718038_cont_8to1_c_202_13_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.KernelIdeal.main_arg0_scv : Memref Cert.KernelIdeal.sig Kind.scVector Space.hbm Cert.KernelIdeal.S4x160x160x160 EltTy.i32)
local notation "tW" => (Memref.whole Cert.KernelIdeal.main_arg1_scv : Memref Cert.KernelIdeal.sig Kind.scVector Space.hbm Cert.KernelIdeal.S61 EltTy.i32)
local notation "oW" => (Memref.whole Cert.KernelIdeal.main_v0_scv : Memref Cert.KernelIdeal.sig Kind.scVector Space.hbm Cert.KernelIdeal.S4x160x160x160 EltTy.i32)
local notation "s0" => (Memref.whole Cert.KernelIdeal.cc0_scratch0 : Memref Cert.KernelIdeal.sig Kind.scVector Space.vmem Cert.KernelIdeal.S61 EltTy.i32)
local notation "s1" => (Memref.whole Cert.KernelIdeal.cc0_scratch1 : Memref Cert.KernelIdeal.sig Kind.scVector Space.vmem Cert.KernelIdeal.S80x160 EltTy.i32)
local notation "s2" => (Memref.whole Cert.KernelIdeal.cc0_scratch2 : Memref Cert.KernelIdeal.sig Kind.scVector Space.vmem Cert.KernelIdeal.S80x160 EltTy.i32)
local notation "s3" => (Memref.whole Cert.KernelIdeal.cc0_scratch3 : Memref Cert.KernelIdeal.sig Kind.scVector Space.vmem Cert.KernelIdeal.S80x160 EltTy.i32)
local notation "s4" => (Memref.whole Cert.KernelIdeal.cc0_scratch4 : Memref Cert.KernelIdeal.sig Kind.scVector Space.vmem Cert.KernelIdeal.S80x160 EltTy.i32)

/-! ## Slot 0's half of a trip of the outer loop -/

section
variable (m : (ℓ : Loc nD τ sig) → Buf (Elt F) ℓ) [FloatOps F] (d : Dev nD) (L : grid0.Coords)

/-- Slot 0's half of trip `k`: the wait for the chunk's labels, the wait for the previous write-out (from the second
    trip on), the rows, the write-out's issue, the next chunk's fetch (but at the last trip). -/
theorem slot0
    (v29 : BitVec 32) (k : Fin k0_t1_loop.trips) (hr : Spec.InRange (m (lLoc d)))
    (O : CellTallies nD τ sig (HIx 1)) (W : Waits sig (HIx 1))
    (fl : Buf (Elt F) ((thr d L).loc cc0_scratch0)) (hfl : ∀ j : S61.Idx, fl j = m (tLoc d) j)
    (Q : (Σ' (_ : BitVec 32), BitVec 32) → sProp 𝕄) :
    iprop(Transfers.MayWaits (thr d L) (none : HIx 1) O ∗ ((s0).view.loc (thr d L) ↦{fullShare} fl)
        ∗ inS0 m d L k.val ∗ outS0 m d L k.val
        ∗ (oLoc d ↦[chunkSet L (chunkN (2 * k.val))]{fullShare} m (oLoc d))
        ∗ owesW d L O W
        ∗ (∀ r, iprop(Transfers.MayWaits (thr d L) (none : HIx 1) O ∗ ((s0).view.loc (thr d L) ↦{fullShare} fl)
            ∗ inS0 m d L (k.val + 1) ∗ outS0 m d L (k.val + 1) ∗ ret0 m d L k.val ∗ owesW d L O W) -∗ Q r))
      ⊢ wp frame (wpE (defs₀ (F := F)) 𝒱₀ (thr d L) none) Set.univ (k0_part3 L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 v29 0#32 1#32 k) Q := by
  have hk : k.val < 20 := lt_of_lt_of_le k.isLt trips_le
  have hg0 : 2 * k.val < 40 := by omega
  have hoffW : k0_off3 L k 0#32 = chunkOff L (chunkN (2 * k.val)) := (off3_0 L k).trans (congrArg (chunkOff L) (chunkN_eq _ hg0).symm)
  conv =>
    rhs
    rw [k0_part3_eq_skeleton]
    unfold k0_part3_skel
  unfold inS0 outS0 ret0
  rw [if_pos hk]
  unfold owesW
  rw [inFl0.eq_1 m d L (chunkN (2 * k.val))]
  by_cases h1 : 1 ≤ k.val <;> by_cases h19 : k.val < 19
  · -- a middle trip: both waits, both issues
    have c1 : k0_cond1 k = 1#1 := (cond1_iff k).mpr h1
    have c2 : k0_cond2 k = 1#1 := (cond2_iff k).mpr h19
    rw [if_pos (⟨h1, by omega⟩ : 1 ≤ k.val ∧ k.val ≤ 20), if_pos (⟨by omega, by omega⟩ : 1 ≤ k.val + 1 ∧ k.val + 1 ≤ 20),
      if_pos (by omega : k.val + 1 < 20), if_pos (⟨h1, by omega⟩ : 1 ≤ k.val ∧ k.val ≤ 20)]
    rw [outFl0.eq_1 m d L (chunkN (2 * k.val - 2))]
    iintro ⟨Hmw, H0, ⟨HF0, Hl0⟩, ⟨%fo, HFO, H3⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [HF0 Hl0]
    · iapply (inFl0_of m d L (chunkN (2 * (k.val + 1))) (k0_off25 L k) (k0_off25_inb L k c2)
        ((off25_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitl [HFO_dst]; · iexact HFO_dst
    iexists (insert (SemLoc.dma cc0_scratch7.sem, (default : HIx 1)) (insert (SemLoc.dma cc0_scratch5.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the last trip: both waits, the write-out's issue, no further fetch
    have c1 : k0_cond1 k = 1#1 := (cond1_iff k).mpr h1
    have c2 : ¬ k0_cond2 k = 1#1 := fun h => h19 ((cond2_iff k).mp h)
    rw [if_pos (⟨h1, by omega⟩ : 1 ≤ k.val ∧ k.val ≤ 20), if_pos (⟨by omega, by omega⟩ : 1 ≤ k.val + 1 ∧ k.val + 1 ≤ 20),
      if_neg (by omega : ¬ k.val + 1 < 20), if_pos (⟨h1, by omega⟩ : 1 ≤ k.val ∧ k.val ≤ 20)]
    rw [outFl0.eq_1 m d L (chunkN (2 * k.val - 2))]
    unfold inIdle0
    iintro ⟨Hmw, H0, ⟨HF0, Hl0⟩, ⟨%fo, HFO, H3⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [H1 HF0 Hl0]
    · isplitl [H1]; · iexists _; iexact H1
      isplitl [Hl0]; · iexact Hl0
      iexact HF0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitl [HFO_dst]; · iexact HFO_dst
    iexists (insert (SemLoc.dma cc0_scratch7.sem, (default : HIx 1)) (insert (SemLoc.dma cc0_scratch5.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the first trip: no write-out to wait for
    have c1 : ¬ k0_cond1 k = 1#1 := fun h => h1 ((cond1_iff k).mp h)
    have c2 : k0_cond2 k = 1#1 := (cond2_iff k).mpr h19
    rw [if_neg (fun h : 1 ≤ k.val ∧ k.val ≤ 20 => h1 h.1), if_pos (⟨by omega, by omega⟩ : 1 ≤ k.val + 1 ∧ k.val + 1 ≤ 20),
      if_pos (by omega : k.val + 1 < 20), if_neg (fun h : 1 ≤ k.val ∧ k.val ≤ 20 => h1 h.1)]
    unfold outIdle0
    iintro ⟨Hmw, H0, ⟨HF0, Hl0⟩, ⟨⟨%fo, H3⟩, HFO⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [HF0 Hl0]
    · iapply (inFl0_of m d L (chunkN (2 * (k.val + 1))) (k0_off25 L k) (k0_off25_inb L k c2)
        ((off25_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitr; · iempintro
    iexists (insert (SemLoc.dma cc0_scratch5.sem, (default : HIx 1)) W'); isplitr
    · ipureintro; intro p hp
      rcases Finset.mem_insert.mp hp with hp | hp
      · exact .inr (by rw [hp]; rfl)
      exact hW' p hp
    · iexact HO
  · exact absurd h19 (by omega)

end

end Cert.Proof.KI

end
-- ==== Proof.Trip.lean ====
import proofs.«204852_g4896262718038_cont_8to1_c_202_13_alg».proof.Proof.Iface
import proofs.«204852_g4896262718038_cont_8to1_c_202_13_alg».proof.Proof.Gen.KernelIdeal.Skeleton
import proofs.«204852_g4896262718038_cont_8to1_c_202_13_alg».proof.Proof.Slot0
import proofs.«204852_g4896262718038_cont_8to1_c_202_13_alg».proof.Proof.Rows

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.KernelIdeal.main_arg0_scv : Memref Cert.KernelIdeal.sig Kind.scVector Space.hbm Cert.KernelIdeal.S4x160x160x160 EltTy.i32)
local notation "tW" => (Memref.whole Cert.KernelIdeal.main_arg1_scv : Memref Cert.KernelIdeal.sig Kind.scVector Space.hbm Cert.KernelIdeal.S61 EltTy.i32)
local notation "oW" => (Memref.whole Cert.KernelIdeal.main_v0_scv : Memref Cert.KernelIdeal.sig Kind.scVector Space.hbm Cert.KernelIdeal.S4x160x160x160 EltTy.i32)
local notation "s0" => (Memref.whole Cert.KernelIdeal.cc0_scratch0 : Memref Cert.KernelIdeal.sig Kind.scVector Space.vmem Cert.KernelIdeal.S61 EltTy.i32)
local notation "s1" => (Memref.whole Cert.KernelIdeal.cc0_scratch1 : Memref Cert.KernelIdeal.sig Kind.scVector Space.vmem Cert.KernelIdeal.S80x160 EltTy.i32)
local notation "s2" => (Memref.whole Cert.KernelIdeal.cc0_scratch2 : Memref Cert.KernelIdeal.sig Kind.scVector Space.vmem Cert.KernelIdeal.S80x160 EltTy.i32)
local notation "s3" => (Memref.whole Cert.KernelIdeal.cc0_scratch3 : Memref Cert.KernelIdeal.sig Kind.scVector Space.vmem Cert.KernelIdeal.S80x160 EltTy.i32)
local notation "s4" => (Memref.whole Cert.KernelIdeal.cc0_scratch4 : Memref Cert.KernelIdeal.sig Kind.scVector Space.vmem Cert.KernelIdeal.S80x160 EltTy.i32)

/-! ## One trip of the outer loop -/

section
variable (m : (ℓ : Loc nD τ sig) → Buf (Elt F) ℓ) [FloatOps F] (d : Dev nD) (L : grid0.Coords)

omit [FloatOps F] in
theorem pend_succ' (Φ : Fin 40 → sProp 𝕄) (k : Nat) (hk : k < 20) :
    bigSep (pendSet k) Φ = iprop(Φ (chunkN (2 * k)) ∗ Φ (chunkN (2 * k + 1)) ∗ bigSep (pendSet (k + 1)) Φ) := by
  rw [bigSep_pend_succ Φ k hk, chunkN_eq (2 * k) (by omega), chunkN_eq (2 * k + 1) (by omega)]
omit [FloatOps F] in
theorem done_succ' (Φ : Fin 40 → sProp 𝕄) (k : Nat) (h1 : 1 ≤ k) (hk : k ≤ 20) :
    bigSep (doneSet (k + 1)) Φ = iprop(bigSep (doneSet k) Φ ∗ Φ (chunkN (2 * k - 2)) ∗ Φ (chunkN (2 * k - 1))) := by
  rw [bigSep_done_succ Φ k h1 hk, chunkN_eq (2 * k - 2) (by omega), chunkN_eq (2 * k - 1) (by omega)]
omit [FloatOps F] in
theorem done_first (Φ : Fin 40 → sProp 𝕄) (k : Nat) (h : ¬ 1 ≤ k) : bigSep (doneSet (k + 1)) Φ = bigSep (doneSet k) Φ := by
  have h0 : k = 0 := by omega
  subst h0
  show bigSep (doneSet 1) Φ = _
  rw [doneSet_one, doneSet_zero]

omit [FloatOps F] in
theorem ret0_pos (k : Nat) (h : 1 ≤ k ∧ k ≤ 20) : ret0 m d L k = (oLoc d ↦[chunkSet L (chunkN (2 * k - 2))]{fullShare} want m d : sProp 𝕄) := by
  unfold ret0; rw [if_pos h]

/-- Trip `k` of the outer loop carries the invariant from `k` to `k + 1`: slot 0's half, then slot 1's. -/
theorem trip (v29 : BitVec 32) (k : Fin k0_t1_loop.trips) (acc : BitVec 32)
    (O : CellTallies nD τ sig (HIx 1)) (W : Waits sig (HIx 1))
    (fl : Buf (Elt F) ((thr d L).loc cc0_scratch0)) (hr : Spec.InRange (m (lLoc d))) (hfl : ∀ j : S61.Idx, fl j = m (tLoc d) j) :
    invO m d L fl O W k.val acc
      ⊢ wp frame (wpE (defs₀ (F := F)) 𝒱₀ (thr d L) none) Set.univ (k0_t1_body L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 v29 k acc)
          (fun acc' => invO m d L fl O W (k.val + 1) acc') := by
  have hk : k.val < 20 := lt_of_lt_of_le k.isLt trips_le
  have hg1 : 2 * k.val + 1 < 40 := by omega
  have hoffW : k0_off3 L k 1#32 = chunkOff L (chunkN (2 * k.val + 1)) := (off3_1 L k).trans (congrArg (chunkOff L) (chunkN_eq _ hg1).symm)
  conv =>
    rhs
    unfold k0_t1_body
  rw [wp_bind]
  unfold invO
  rw [pend_succ' _ k.val hk]
  unfold inS1 outS1
  rw [if_pos hk, inFl1.eq_1 m d L (chunkN (2 * k.val + 1))]
  by_cases h1 : 1 ≤ k.val <;> by_cases h19 : k.val < 19
  · -- a middle trip
    have c1 : k0_cond3 k = 1#1 := (cond3_iff k).mpr h1
    have c2 : k0_cond4 k = 1#1 := (cond4_iff k).mpr h19
    rw [if_pos (⟨h1, by omega⟩ : 1 ≤ k.val ∧ k.val ≤ 20), if_pos (⟨by omega, by omega⟩ : 1 ≤ k.val + 1 ∧ k.val + 1 ≤ 20),
      if_pos (by omega : k.val + 1 < 20), outFl1.eq_1 m d L (chunkN (2 * k.val - 1)), done_succ' _ k.val h1 (by omega)]
    iintro ⟨Hmw, H0, HinS0, HoutS0, ⟨HF0, Hl0⟩, ⟨%fo, HFO, H3⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [HF0 Hl0]
    · iapply (inFl1_of m d L (chunkN (2 * (k.val + 1) + 1)) (k0_off47 L k) (k0_off47_inb L k c2)
        ((off47_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone Hret0 HFO_dst]
    · isplitl [Hdone]; · iexact Hdone
      isplitl [Hret0]
      · iapply (Entails.of_eq (ret0_pos m d L k.val ⟨h1, by omega⟩)); iexact Hret0
      iexact HFO_dst
    iexists (insert (SemLoc.dma cc0_scratch8.sem, (default : HIx 1)) (insert (SemLoc.dma cc0_scratch6.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the last trip
    have c1 : k0_cond3 k = 1#1 := (cond3_iff k).mpr h1
    have c2 : ¬ k0_cond4 k = 1#1 := fun h => h19 ((cond4_iff k).mp h)
    rw [if_pos (⟨h1, by omega⟩ : 1 ≤ k.val ∧ k.val ≤ 20), if_pos (⟨by omega, by omega⟩ : 1 ≤ k.val + 1 ∧ k.val + 1 ≤ 20),
      if_neg (by omega : ¬ k.val + 1 < 20), outFl1.eq_1 m d L (chunkN (2 * k.val - 1)), done_succ' _ k.val h1 (by omega)]
    unfold inIdle1
    iintro ⟨Hmw, H0, HinS0, HoutS0, ⟨HF0, Hl0⟩, ⟨%fo, HFO, H3⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [H1 HF0 Hl0]
    · isplitl [H1]; · iexists _; iexact H1
      isplitl [Hl0]; · iexact Hl0
      iexact HF0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone Hret0 HFO_dst]
    · isplitl [Hdone]; · iexact Hdone
      isplitl [Hret0]
      · iapply (Entails.of_eq (ret0_pos m d L k.val ⟨h1, by omega⟩)); iexact Hret0
      iexact HFO_dst
    iexists (insert (SemLoc.dma cc0_scratch8.sem, (default : HIx 1)) (insert (SemLoc.dma cc0_scratch6.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the first trip
    have c1 : ¬ k0_cond3 k = 1#1 := fun h => h1 ((cond3_iff k).mp h)
    have c2 : k0_cond4 k = 1#1 := (cond4_iff k).mpr h19
    rw [if_neg (fun h : 1 ≤ k.val ∧ k.val ≤ 20 => h1 h.1), if_pos (⟨by omega, by omega⟩ : 1 ≤ k.val + 1 ∧ k.val + 1 ≤ 20),
      if_pos (by omega : k.val + 1 < 20), done_first _ k.val h1]
    unfold outIdle1
    iintro ⟨Hmw, H0, HinS0, HoutS0, ⟨HF0, Hl0⟩, ⟨⟨%fo, H3⟩, HFO⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    icases Hret0 with -
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [HF0 Hl0]
    · iapply (inFl1_of m d L (chunkN (2 * (k.val + 1) + 1)) (k0_off47 L k) (k0_off47_inb L k c2)
        ((off47_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone]; · iexact Hdone
    iexists (insert (SemLoc.dma cc0_scratch6.sem, (default : HIx 1)) W'); isplitr
    · ipureintro; intro p hp
      rcases Finset.mem_insert.mp hp with hp | hp
      · exact .inr (by rw [hp]; rfl)
      exact hW' p hp
    · iexact HO
  · exact absurd h19 (by omega)

end

end Cert.Proof.KI

end
-- ==== Proof.Body.lean ====
/-
  A tile's task, whole. The table is copied into the tile's scratch and the copy awaited; the first two chunks of labels
  are fetched, one per in-slot, each lent one of the two read tokens the tile's share of the labels is split into; the
  outer loop then runs its twenty trips under its invariant (a trip is proved on its own); and the two write-outs still in
  flight when the loop ends — of chunks 38 and 39 — are awaited. What is handed back: the two tokens and the remainder
  joined into the tile's share of the labels again, the share of the table, the forty chunks of the result at the table
  looked up at the labels — the thirty-eight the loop saw written out and the last two —, the scratch buffers and the
  semaphores at zero as found, and the waits recorded, each on a semaphore of the tile's own.
-/
import proofs.«204852_g4896262718038_cont_8to1_c_202_13_alg».proof.Proof.Iface
import proofs.«204852_g4896262718038_cont_8to1_c_202_13_alg».proof.Proof.Gen.KernelIdeal.Skeleton
import proofs.«204852_g4896262718038_cont_8to1_c_202_13_alg».proof.Proof.GeomV
import proofs.«204852_g4896262718038_cont_8to1_c_202_13_alg».proof.Proof.GeomX
import proofs.«204852_g4896262718038_cont_8to1_c_202_13_alg».proof.Proof.GeomW
import proofs.«204852_g4896262718038_cont_8to1_c_202_13_alg».proof.Proof.Sets
import proofs.«204852_g4896262718038_cont_8to1_c_202_13_alg».proof.Proof.Inv
import proofs.«204852_g4896262718038_cont_8to1_c_202_13_alg».proof.Proof.Toks
import proofs.«204852_g4896262718038_cont_8to1_c_202_13_alg».proof.Proof.Own
import proofs.«204852_g4896262718038_cont_8to1_c_202_13_alg».proof.Proof.GeomOff
import proofs.«204852_g4896262718038_cont_8to1_c_202_13_alg».proof.Proof.Trip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.KernelIdeal.main_arg0_scv : Memref Cert.KernelIdeal.sig Kind.scVector Space.hbm Cert.KernelIdeal.S4x160x160x160 EltTy.i32)
local notation "tW" => (Memref.whole Cert.KernelIdeal.main_arg1_scv : Memref Cert.KernelIdeal.sig Kind.scVector Space.hbm Cert.KernelIdeal.S61 EltTy.i32)
local notation "oW" => (Memref.whole Cert.KernelIdeal.main_v0_scv : Memref Cert.KernelIdeal.sig Kind.scVector Space.hbm Cert.KernelIdeal.S4x160x160x160 EltTy.i32)
local notation "s0" => (Memref.whole Cert.KernelIdeal.cc0_scratch0 : Memref Cert.KernelIdeal.sig Kind.scVector Space.vmem Cert.KernelIdeal.S61 EltTy.i32)
local notation "s1" => (Memref.whole Cert.KernelIdeal.cc0_scratch1 : Memref Cert.KernelIdeal.sig Kind.scVector Space.vmem Cert.KernelIdeal.S80x160 EltTy.i32)
local notation "s2" => (Memref.whole Cert.KernelIdeal.cc0_scratch2 : Memref Cert.KernelIdeal.sig Kind.scVector Space.vmem Cert.KernelIdeal.S80x160 EltTy.i32)
local notation "s3" => (Memref.whole Cert.KernelIdeal.cc0_scratch3 : Memref Cert.KernelIdeal.sig Kind.scVector Space.vmem Cert.KernelIdeal.S80x160 EltTy.i32)
local notation "s4" => (Memref.whole Cert.KernelIdeal.cc0_scratch4 : Memref Cert.KernelIdeal.sig Kind.scVector Space.vmem Cert.KernelIdeal.S80x160 EltTy.i32)

variable (m : (ℓ : Loc nD τ sig) → Buf (Elt F) ℓ) [FloatOps F]

section
variable (d : Dev nD) (L : grid0.Coords)

omit [FloatOps F] in
theorem pts_l (q : PosShare TreeShare) (f : Buf (Elt F) (lLoc d)) : ((lW).view.loc (thr d L) ↦{q} f : sProp 𝕄) = lLoc d ↦{q} f := by
  simp only [Memref.view_whole, View.set_whole]
omit [FloatOps F] in
theorem pts_t (q : PosShare TreeShare) (f : Buf (Elt F) (tLoc d)) : ((tW).view.loc (thr d L) ↦{q} f : sProp 𝕄) = tLoc d ↦{q} f := by
  simp only [Memref.view_whole, View.set_whole]
omit [FloatOps F] in
theorem pts_s0 (f : Buf (Elt F) ((thr d L).loc cc0_scratch0)) : ((s0).view.loc (thr d L) ↦{fullShare} f : sProp 𝕄) = (thr d L).loc cc0_scratch0 ↦{fullShare} f := rfl
omit [FloatOps F] in
theorem pts_s1 (f : Buf (Elt F) ((thr d L).loc cc0_scratch1)) : ((s1).view.loc (thr d L) ↦{fullShare} f : sProp 𝕄) = (thr d L).loc cc0_scratch1 ↦{fullShare} f := rfl
omit [FloatOps F] in
theorem pts_s2 (f : Buf (Elt F) ((thr d L).loc cc0_scratch2)) : ((s2).view.loc (thr d L) ↦{fullShare} f : sProp 𝕄) = (thr d L).loc cc0_scratch2 ↦{fullShare} f := rfl
omit [FloatOps F] in
theorem pts_s3 (f : Buf (Elt F) ((thr d L).loc cc0_scratch3)) : ((s3).view.loc (thr d L) ↦{fullShare} f : sProp 𝕄) = (thr d L).loc cc0_scratch3 ↦{fullShare} f := rfl
omit [FloatOps F] in
theorem pts_s4 (f : Buf (Elt F) ((thr d L).loc cc0_scratch4)) : ((s4).view.loc (thr d L) ↦{fullShare} f : sProp 𝕄) = (thr d L).loc cc0_scratch4 ↦{fullShare} f := rfl

end

/-- The outer loop makes twenty trips. -/
theorem t1_trips : Scf.trips k0_t1_loop.lb k0_t1_loop.ub k0_t1_loop.st = 20 := by decide +kernel

set_option maxHeartbeats 1600000 in
theorem tile_body : TileBody (F := F) m := by
  intro d L hF hr O W hO
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileIn
  iintro ⟨#Hlv, -, ⟨Hl, Ht, Ho⟩, ⟨⟨%f0, Hs0⟩, ⟨%f1, Hs1⟩, ⟨%f2, Hs2⟩, ⟨%f3, Hs3⟩, ⟨%f4, Hs4⟩, Hbufs⟩, ⟨HsI0, HsI1, HsO0, HsO1, HsT, Hsems⟩, HO⟩
  ihave Hmw := ((K (F := F)).mayWaits_none (thr := thr d L) hO) $$ Hlv
  ihave Hl3 := (toks2 (F := F) (qT L)).1 $$ Hl
  icases Hl3 with ⟨Hld, Hl0, Hl1⟩
  ihave Hl0' := (Entails.of_eq (pts_l (F := F) d L (tokI0 L) _).symm) $$ Hl0
  ihave Hl1' := (Entails.of_eq (pts_l (F := F) d L (tokI1 L) _).symm) $$ Hl1
  ihave Ht' := (Entails.of_eq (pts_t (F := F) d L _ _).symm) $$ Ht
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  sl_exec
  sl_for (invO m d L (View.write (Elt F) (s0).view f0 (tile_body.sl.dma0 m d) Finset.univ) O W) $$ [Hmw Hs0' HsI0 Hl0' HsI1 Hl1' Hs3' HsO0 Hs4' HsO1 Ho HO]
  case region =>
    intro k acc
    have hfl : ∀ j : S61.Idx, (View.write (Elt F) (s0).view f0 (tile_body.sl.dma0 m d) Finset.univ) j = m (tLoc d) j := by
      intro j
      rw [View.write_whole_univ]
      rfl
    unfold tile_body.sl.prog.body_1
    exact trip m d L _ k acc O W _ hr hfl
  · unfold invO
    isplitr; · iexact Hmw
    isplitl [Hs0']; · iexact Hs0'
    isplitl [HsI0 Hl0']
    · rw [show inS0 m d L 0 = inFl0 m d L (chunkN (2 * 0)) from if_pos (by decide)]
      iapply (inFl0_of m d L (chunkN (2 * 0)) (k0_off1 L 0#32) (k0_off1_inb L 0) (off1_0 L) f1 (tile_body.sl.dma0_1 m d L) rfl)
      isplitl [HsI0]; · iexact HsI0
      iexact Hl0'
    isplitl [Hs3' HsO0]
    · rw [show outS0 m d L 0 = outIdle0 d L from if_neg (by omega)]; unfold outIdle0
      isplitl [Hs3']; · iexists _; iexact Hs3'
      iexact HsO0
    isplitl [HsI1 Hl1']
    · rw [show inS1 m d L 0 = inFl1 m d L (chunkN (2 * 0 + 1)) from if_pos (by decide)]
      iapply (inFl1_of m d L (chunkN (2 * 0 + 1)) (k0_off2 L 0#32) (k0_off2_inb L 0) (off2_0 L) f2 (tile_body.sl.dma0_2 m d L) rfl)
      isplitl [HsI1]; · iexact HsI1
      iexact Hl1'
    isplitl [Hs4' HsO1]
    · rw [show outS1 m d L 0 = outIdle1 d L from if_neg (by omega)]; unfold outIdle1
      isplitl [Hs4']; · iexists _; iexact Hs4'
      iexact HsO1
    isplitl [Ho]
    · rw [pendSet_zero]; iexact Ho
    isplitr
    · rw [doneSet_zero, bigSep_empty]; iempintro
    unfold owesW
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %acc HI
  rw [t1_trips]
  ihave HI' := (Entails.of_eq (invO.eq_1 (F := F) m d L _ O W 20 acc)) $$ HI
  icases HI' with ⟨-, Hs0, HinS0, HoutS0, HinS1, HoutS1, Hpend, Hdone, HW⟩
  ihave HinS0' := (Entails.of_eq ((show inS0 m d L 20 = inIdle0 m d L from if_neg (by omega)).trans (inIdle0.eq_1 m d L))) $$ HinS0
  ihave HinS1' := (Entails.of_eq ((show inS1 m d L 20 = inIdle1 m d L from if_neg (by omega)).trans (inIdle1.eq_1 m d L))) $$ HinS1
  ihave HoutS0' := (Entails.of_eq ((show outS0 m d L 20 = outFl0 m d L (chunkN (2 * 20 - 2)) from if_pos ⟨by omega, by omega⟩).trans (outFl0.eq_1 m d L _))) $$ HoutS0
  ihave HoutS1' := (Entails.of_eq ((show outS1 m d L 20 = outFl1 m d L (chunkN (2 * 20 - 1)) from if_pos ⟨by omega, by omega⟩).trans (outFl1.eq_1 m d L _))) $$ HoutS1
  ihave HW' := (Entails.of_eq (owesW.eq_1 (F := F) d L O W)) $$ HW
  icases HinS0' with ⟨⟨%g1, Hs1⟩, Hl0, HsI0⟩
  icases HinS1' with ⟨⟨%g2, Hs2⟩, Hl1, HsI1⟩
  icases HoutS0' with ⟨%fo3, HF3, Hr3⟩
  icases HoutS1' with ⟨%fo4, HF4, Hr4⟩
  icases HW' with ⟨%W', %hW', HO⟩
  sl_exec
  sl_step
  isplitl [Hld Hl0 Hl1 Ht' Hdone HF3_dst HF4_dst]
  · unfold tileOut
    isplitl [Hld Hl0 Hl1]
    · iapply (toks2 (F := F) (qT L)).2
      isplitl [Hld]; · iexact Hld
      isplitl [Hl0]
      · iapply (Entails.of_eq (pts_l (F := F) d L (tokI0 L) _)); iexact Hl0
      · iapply (Entails.of_eq (pts_l (F := F) d L (tokI1 L) _)); iexact Hl1
    isplitl [Ht']
    · iapply (Entails.of_eq (pts_t (F := F) d L _ _)); iexact Ht'
    rw [bigSep_all_done]
    isplitl [Hdone]; · iexact Hdone
    isplitl [HF3_dst]
    · iexact HF3_dst
    · iexact HF4_dst
  isplitl [Hs0 Hs1 Hs2 Hr3 Hr4 Hbufs]
  · isplitl [Hs0]; · iexists _; iexact Hs0
    isplitl [Hs1]; · iexists _; iexact Hs1
    isplitl [Hs2]; · iexists _; iexact Hs2
    isplitl [Hr3]; · iexists _; iexact Hr3
    isplitl [Hr4]; · iexists _; iexact Hr4
    iexact Hbufs
  isplitl [HsI0 HsI1 HF3 HF4 HsT Hsems]
  · isplitl [HsI0]; · iexact HsI0
    isplitl [HsI1]; · iexact HsI1
    isplitl [HF3]; · iexact HF3
    isplitl [HF4]; · iexact HF4
    isplitl [HsT]; · iexact HsT
    iexact Hsems
  iexists (insert (SemLoc.dma cc0_scratch8.sem, (default : HIx 1)) (insert (SemLoc.dma cc0_scratch7.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KI

end
-- ==== Proof.OwnB.lean ====
import proofs.«204852_g4896262718038_cont_8to1_c_202_13_alg».proof.Proof.IfaceB
import proofs.«204852_g4896262718038_cont_8to1_c_202_13_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own scratch buffers and semaphores, named -/

section Own

variable (d : Dev nD) (L : grid0.Coords)

/-- The tile's thread. -/
abbrev thr : Thread nD τ := V d (cV L) (jV L)

/-- The tile's five DMA semaphores: the two in-slots', the two out-slots', the table copy's. -/
abbrev semI0 : GSem nD τ sig := (thr d L, .dma cc0_scratch5.sem)
abbrev semI1 : GSem nD τ sig := (thr d L, .dma cc0_scratch6.sem)
abbrev semO0 : GSem nD τ sig := (thr d L, .dma cc0_scratch7.sem)
abbrev semO1 : GSem nD τ sig := (thr d L, .dma cc0_scratch8.sem)
abbrev semT : GSem nD τ sig := (thr d L, .dma cc0_scoped0.sem)

theorem ownSems0_V :
    (ownSems0 (thr d L) : sProp 𝕄)
      = iprop(semVal (semI0 d L) 0 ∗ semVal (semI1 d L) 0 ∗ semVal (semO0 d L) 0 ∗ semVal (semO1 d L) 0 ∗ semVal (semT d L) 0
          ∗ bigSep (((((ownCells (thr d L)).erase (semI0 d L)).erase (semI1 d L)).erase (semO0 d L)).erase (semO1 d L) |>.erase (semT d L))
              fun g => semVal g 0) := by
  unfold SparseCore.Cfg.ownSems0
  have hm : ∀ s : DmaSem sig, ((thr d L, SemLoc.dma s) : GSem nD τ sig) ∈ ownCells (thr d L) ↔ (SemLoc.dma s : SemLoc sig).isScoped .scVector = true :=
    fun s => (mem_ownCells (g := (thr d L, SemLoc.dma s))).trans ⟨fun h => h.2, fun h => ⟨rfl, h⟩⟩
  have hne : ∀ a b : DmaSem sig, a ≠ b → ((thr d L, SemLoc.dma a) : GSem nD τ sig) ≠ (thr d L, SemLoc.dma b) :=
    fun a b h e => h (SemLoc.dma.inj (Prod.mk.inj e).2)
  rw [SparseCore.bigSep_erase' ((hm cc0_scratch5.sem).mpr (by decide)),
    SparseCore.bigSep_erase' (Finset.mem_erase.mpr ⟨hne _ _ (by decide), (hm cc0_scratch6.sem).mpr (by decide)⟩),
    SparseCore.bigSep_erase' (Finset.mem_erase.mpr ⟨hne _ _ (by decide), Finset.mem_erase.mpr ⟨hne _ _ (by decide), (hm cc0_scratch7.sem).mpr (by decide)⟩⟩),
    SparseCore.bigSep_erase' (Finset.mem_erase.mpr ⟨hne _ _ (by decide), Finset.mem_erase.mpr ⟨hne _ _ (by decide),
      Finset.mem_erase.mpr ⟨hne _ _ (by decide), (hm cc0_scratch8.sem).mpr (by decide)⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), (hm cc0_scoped0.sem).mpr (by decide)⟩⟩⟩⟩)]

/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have hm0 := SparseCore.Cfg.mem_ownRefs_of_owner (sig := sig) (p := Proc.scVector (cV L) (jV L)) (b := (Proc.scVector (cV L) (jV L)).devRef cc0_scratch0) rfl
  have hm1 := SparseCore.Cfg.mem_ownRefs_of_owner (sig := sig) (p := Proc.scVector (cV L) (jV L)) (b := (Proc.scVector (cV L) (jV L)).devRef cc0_scratch1) rfl
  have hm2 := SparseCore.Cfg.mem_ownRefs_of_owner (sig := sig) (p := Proc.scVector (cV L) (jV L)) (b := (Proc.scVector (cV L) (jV L)).devRef cc0_scratch2) rfl
  have hm3 := SparseCore.Cfg.mem_ownRefs_of_owner (sig := sig) (p := Proc.scVector (cV L) (jV L)) (b := (Proc.scVector (cV L) (jV L)).devRef cc0_scratch3) rfl
  have hm4 := SparseCore.Cfg.mem_ownRefs_of_owner (sig := sig) (p := Proc.scVector (cV L) (jV L)) (b := (Proc.scVector (cV L) (jV L)).devRef cc0_scratch4) rfl
  have hne : ∀ a b : Ref sig .scVector, a ≠ b → (Proc.scVector (cV L) (jV L)).devRef a ≠ (Proc.scVector (cV L) (jV L)).devRef b :=
    fun a b h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide),
      Finset.mem_erase.mpr ⟨hne _ _ (by decide), hm3⟩⟩⟩),
    SparseCore.bigSep_erase' (Finset.mem_erase.mpr ⟨hne _ _ (by decide), Finset.mem_erase.mpr ⟨hne _ _ (by decide),
      Finset.mem_erase.mpr ⟨hne _ _ (by decide), Finset.mem_erase.mpr ⟨hne _ _ (by decide), hm4⟩⟩⟩⟩)]

end Own

end Cert.Proof.KB

end
-- ==== Proof.ChunksB.lean ====
import proofs.«204852_g4896262718038_cont_8to1_c_202_13_alg».proof.Proof.IfaceB
import proofs.«204852_g4896262718038_cont_8to1_c_202_13_alg».proof.Proof.OwnB
import proofs.«204852_g4896262718038_cont_8to1_c_202_13_alg».proof.Proof.GeomB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunks as the kernel's copies address them, and the table looked up at a word -/

section
variable (d : Dev nD) (L : grid0.Coords)

/-- Chunk `g` of tile `L` of the labels, and of the result, as 80×160 blocks of the arrays in HBM. -/
abbrev lCh (g : Fin 40) : Memref sig .scVector .hbm S80x160 .i32 :=
  ((Memref.whole main_arg0_scv : Memref sig .scVector .hbm S4x160x160x160 .i32).slice (chunkRect L g) (fun _ => rfl)).squeeze S80x160 squeezes_S1x1x80x160_S80x160
abbrev oCh (g : Fin 40) : Memref sig .scVector .hbm S80x160 .i32 :=
  ((Memref.whole main_v0_scv : Memref sig .scVector .hbm S4x160x160x160 .i32).slice (chunkRect L g) (fun _ => rfl)).squeeze S80x160 squeezes_S1x1x80x160_S80x160

theorem set_lCh (g : Fin 40) : (lCh L g).view.set = chunkSet L g := set_chunk_l L g _ _ _ rfl
theorem set_oCh (g : Fin 40) : (oCh L g).view.set = chunkSet L g := set_chunk_o L g _ _ _ rfl

variable (m : (ℓ : Loc nD τ sig) → Buf (Elt F) ℓ)

/-- The labels of chunk `g` of tile `L`, as an 80×160 block. -/
def labRead (g : Fin 40) : S80x160.Idx → BitVec 32 := (lCh L g).view.read (Elt F) (m (lLoc d))

/-- A 61-entry table looked up at a word (zero where the word names no entry). -/
def lk (fl : S61.Idx → BitVec 32) (x : BitVec 32) : BitVec 32 :=
  if h : x.toNat < 61 then fl (ValueIdx.ix1 (⟨x.toNat, h⟩ : Fin 61)) else 0#32

end

end Cert.Proof.KB

end
-- ==== Proof.GeomVB.lean ====
/-
  The chunk geometry, fourth part: values. The labels' chunk and the result's chunk are the same rectangle of two
  arrays of one shape, so an 80×160 block index names the same array index through either; hence the block that holds the
  table looked up at the labels' chunk, written through the result's chunk, leaves the result equal to the table looked
  up at the labels at every index of the chunk.
-/
import proofs.«204852_g4896262718038_cont_8to1_c_202_13_alg».proof.Proof.ChunksB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Entry `j` of the labels' chunk, read as an 80×160 block, is the label at the array index `j` names. -/
theorem labRead_apply (m : (ℓ : Loc nD τ sig) → Buf (Elt F) ℓ) (d : Dev nD) (L : grid0.Coords) (g : Fin 40) (j : S80x160.Idx) :
    labRead d L m g j = m (lLoc d) ((lCh L g).view.emb j) :=
  (View.read_apply _ _).trans (cast_eq _ _)

/-- A block index names the same array index through the result's chunk as through the labels'. -/
theorem emb_oCh_eq (L : grid0.Coords) (g : Fin 40) (j : S80x160.Idx) :
    ((oCh L g).view.emb j : S4x160x160x160.Idx) = (lCh L g).view.emb j := rfl

/-- Every label of a chunk names an entry of the table, when every label does. -/
theorem labRead_lt (m : (ℓ : Loc nD τ sig) → Buf (Elt F) ℓ) (d : Dev nD) (L : grid0.Coords) (g : Fin 40)
    (hr : Spec.InRange (m (lLoc d))) (j : S80x160.Idx) : (labRead d L m g j).toNat < 61 := by
  rw [labRead_apply]
  exact hr _

/-- The table looked up at the labels' chunk, written through the result's chunk, is the wanted result on the chunk. -/
theorem want_chunk (m : (ℓ : Loc nD τ sig) → Buf (Elt F) ℓ) (d : Dev nD) (L : grid0.Coords) (g : Fin 40)
    (fl : S61.Idx → BitVec 32) (fo : S80x160.Idx → BitVec 32) (hr : Spec.InRange (m (lLoc d)))
    (hfl : ∀ j : S61.Idx, fl j = m (tLoc d) j) (hfo : ∀ j, fo j = lk fl (labRead d L m g j)) (f0 : Buf (Elt F) (oLoc d)) :
    ∀ i ∈ chunkSet L g, (oCh L g).view.write (Elt F) f0 fo Finset.univ i = want m d i := by
  intro i hi
  rw [← set_oCh L g] at hi
  obtain ⟨j, -, rfl⟩ := Finset.mem_map.mp hi
  have hlab : labRead d L m g j = m (lLoc d) ((oCh L g).view.emb j) := labRead_apply m d L g j
  have hlt : (m (lLoc d) ((oCh L g).view.emb j)).toNat < 61 := hr _
  have hw : (oCh L g).view.write (Elt F) f0 fo Finset.univ ((oCh L g).view.emb j) = fo j :=
    (View.write_emb_of_mem (v := (oCh L g).view) (Val := Elt F) f0 fo (Finset.mem_univ j)).trans (cast_eq _ _)
  rw [hw]
  show fo j = Spec.lookup (m (lLoc d)) (m (tLoc d)) ((oCh L g).view.emb j)
  rw [hfo j, Spec.lookup_apply _ hlt, hlab]
  unfold lk Spec.entry
  rw [dif_pos hlt, hfl]

end Cert.Proof.KB

end
-- ==== Proof.GeomXB.lean ====
/-
  The chunk geometry, third part: consequences in the forms the tile's task uses. The forty chunks of one tile are
  pairwise disjoint, and what the program's slice of the result, or of the labels, at a chunk's offsets points to is
  that array at the chunk's indices.
-/
import proofs.«204852_g4896262718038_cont_8to1_c_202_13_alg».proof.Proof.GeomB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- Two different chunks of one tile are disjoint: they differ in the plane, or else in the half of it. -/
theorem chunkSet_disjoint_same (L : grid0.Coords) {g g' : Fin 40} (h : g ≠ g') :
    Disjoint (chunkSet L g) (chunkSet L g') := by
  have hg := g.isLt
  have hg' := g'.isLt
  have hne : g.val ≠ g'.val := fun e => h (Fin.ext e)
  apply chunkSet_disjoint_of
  omega

/-- The result through the program's slice at a chunk's offsets is the result at the chunk's indices. -/
theorem pts_chunk_o (d : Dev nD) (L : grid0.Coords) (g : Fin 40) (off : Fin 4 → Nat)
    (hinb : ∀ a, off a + S1x1x80x160.size a ≤ S4x160x160x160.size a) (hsq : S1x1x80x160.Squeezes S80x160)
    (h : off = chunkOff L g) (q : PosShare TreeShare) (f : Buf (Elt F) (oLoc d)) :
    ((((Memref.whole main_v0_scv).slice (Rect.unit (s := S4x160x160x160) off S1x1x80x160.size hinb) (fun _ => rfl)).squeeze
        S80x160 hsq).view.loc (V d (cV L) (jV L))
      ↦[(((Memref.whole main_v0_scv).slice (Rect.unit (s := S4x160x160x160) off S1x1x80x160.size hinb) (fun _ => rfl)).squeeze
        S80x160 hsq).view.set]{q} f : sProp 𝕄) = oLoc d ↦[chunkSet L g]{q} f := by
  rw [set_chunk_o L g off hinb hsq h]

/-- The labels through the program's slice at a chunk's offsets are the labels at the chunk's indices. -/
theorem pts_chunk_l (d : Dev nD) (L : grid0.Coords) (g : Fin 40) (off : Fin 4 → Nat)
    (hinb : ∀ a, off a + S1x1x80x160.size a ≤ S4x160x160x160.size a) (hsq : S1x1x80x160.Squeezes S80x160)
    (h : off = chunkOff L g) (q : PosShare TreeShare) (f : Buf (Elt F) (lLoc d)) :
    ((((Memref.whole main_arg0_scv).slice (Rect.unit (s := S4x160x160x160) off S1x1x80x160.size hinb) (fun _ => rfl)).squeeze
        S80x160 hsq).view.loc (V d (cV L) (jV L))
      ↦[(((Memref.whole main_arg0_scv).slice (Rect.unit (s := S4x160x160x160) off S1x1x80x160.size hinb) (fun _ => rfl)).squeeze
        S80x160 hsq).view.set]{q} f : sProp 𝕄) = lLoc d ↦[chunkSet L g]{q} f := by
  rw [set_chunk_l L g off hinb hsq h]

end Cert.Proof.KB

end
-- ==== Proof.GeomWB.lean ====
/-
  The chunk geometry, fifth part: the value bridge for a copy's landing stated as a list of writes, and the program's
  own slices at a chunk's offsets as the chunks' memrefs.

  One write of a whole 80×160 block through the result's chunk is the block written through the chunk: the whole
  rectangle places each block index at itself.
-/
import proofs.«204852_g4896262718038_cont_8to1_c_202_13_alg».proof.Proof.GeomVB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The table looked up at the labels' chunk, landed on the result's chunk as one write of the whole block, is the wanted
    result on the chunk. -/
theorem want_chunk_writes (m : (ℓ : Loc nD τ sig) → Buf (Elt F) ℓ) (d : Dev nD) (L : grid0.Coords) (g : Fin 40)
    (fl : S61.Idx → BitVec 32) (fo : S80x160.Idx → BitVec 32) (hr : Spec.InRange (m (lLoc d)))
    (hfl : ∀ j : S61.Idx, fl j = m (tLoc d) j) (hfo : ∀ j, fo j = lk fl (labRead d L m g j)) (f0 : Buf (Elt F) (oLoc d)) :
    ∀ i ∈ chunkSet L g, (oCh L g).view.writes (Elt F) f0 [⟨Rect.whole S80x160, fo⟩] i = want m d i := by
  intro i hi
  have hi' := hi
  rw [← set_oCh L g] at hi'
  obtain ⟨j, -, rfl⟩ := Finset.mem_map.mp hi'
  have h1 : (oCh L g).view.write (Elt F) f0 fo Finset.univ ((oCh L g).view.emb j) = fo j :=
    (View.write_emb_of_mem (v := (oCh L g).view) (Val := Elt F) f0 fo (Finset.mem_univ j)).trans (cast_eq _ _)
  have h2 := want_chunk m d L g fl fo hr hfl hfo f0 _ hi
  have hemb : ((oCh L g).view.slice (Rect.whole S80x160)).emb j = (oCh L g).view.emb j := by
    show (oCh L g).view.emb ((Rect.whole S80x160).emb j) = _
    rw [Rect.emb_whole_apply]
  have h3 : ((oCh L g).view.slice (Rect.whole S80x160)).write (Elt F) f0 fo Finset.univ
      (((oCh L g).view.slice (Rect.whole S80x160)).emb j) = fo j :=
    (View.write_emb_of_mem (v := (oCh L g).view.slice (Rect.whole S80x160)) (Val := Elt F) f0 fo (Finset.mem_univ j)).trans
      (cast_eq _ _)
  rw [← h2, h1, View.writes_singleton]
  exact (congrArg _ hemb.symm).trans h3

/-- The program's slice of the labels at a chunk's offsets, squeezed to a block, is the chunk's memref. -/
theorem lCh_eq (L : grid0.Coords) (g : Fin 40) (off : Fin 4 → Nat)
    (hinb : ∀ a, off a + S1x1x80x160.size a ≤ S4x160x160x160.size a) (h : off = chunkOff L g) :
    ((Memref.whole main_arg0_scv : Memref sig .scVector .hbm S4x160x160x160 .i32).slice
      (Rect.unit (s := S4x160x160x160) off S1x1x80x160.size hinb) (fun _ => rfl)).squeeze S80x160 squeezes_S1x1x80x160_S80x160
      = lCh L g := by
  subst h; rfl

/-- The program's slice of the result at a chunk's offsets, squeezed to a block, is the chunk's memref. -/
theorem oCh_eq (L : grid0.Coords) (g : Fin 40) (off : Fin 4 → Nat)
    (hinb : ∀ a, off a + S1x1x80x160.size a ≤ S4x160x160x160.size a) (h : off = chunkOff L g) :
    ((Memref.whole main_v0_scv : Memref sig .scVector .hbm S4x160x160x160 .i32).slice
      (Rect.unit (s := S4x160x160x160) off S1x1x80x160.size hinb) (fun _ => rfl)).squeeze S80x160 squeezes_S1x1x80x160_S80x160
      = oCh L g := by
  subst h; rfl

end Cert.Proof.KB

end
-- ==== Proof.SetsB.lean ====
/-
  Which chunks are still to be worked on, and which have been written back and awaited, at a trip of the loop.

  Trip `k` finds chunks `2k, 2k + 1, …, 39` not yet computed, and chunks `0, …, 2k - 3` written back with the write-back
  awaited (chunks `2k - 2` and `2k - 1` are written back but their write-backs are awaited only during trip `k`). A
  trip takes its two chunks off the first family and adds the two chunks it awaits to the second; after the loop the
  last two write-backs are awaited.
-/
import proofs.«204852_g4896262718038_cont_8to1_c_202_13_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The chunks not yet computed when trip `k` starts. -/
def pendSet (k : Nat) : Finset (Fin 40) := Finset.univ.filter fun g => 2 * k ≤ g.val
/-- The chunks written back, with the write-back awaited, when trip `k` starts. -/
def doneSet (k : Nat) : Finset (Fin 40) := Finset.univ.filter fun g => g.val + 2 < 2 * k

theorem mem_pendSet {k : Nat} {g : Fin 40} : g ∈ pendSet k ↔ 2 * k ≤ g.val := by
  unfold pendSet; rw [Finset.mem_filter]; exact and_iff_right (Finset.mem_univ g)
theorem mem_doneSet {k : Nat} {g : Fin 40} : g ∈ doneSet k ↔ g.val + 2 < 2 * k := by
  unfold doneSet; rw [Finset.mem_filter]; exact and_iff_right (Finset.mem_univ g)

theorem pendSet_zero : pendSet 0 = Finset.univ := by
  ext g
  constructor
  · intro _; exact Finset.mem_univ g
  · intro _; rw [mem_pendSet]; omega

theorem pendSet_twenty : pendSet 20 = ∅ := by
  ext g
  have hg := g.isLt
  constructor
  · intro h; rw [mem_pendSet] at h; omega
  · intro h; simp at h

theorem doneSet_zero : doneSet 0 = ∅ := by
  ext g
  constructor
  · intro h; rw [mem_doneSet] at h; omega
  · intro h; simp at h

theorem doneSet_one : doneSet 1 = ∅ := by
  ext g
  constructor
  · intro h; rw [mem_doneSet] at h; omega
  · intro h; simp at h

/-- The chunks pending at trip `k` are the trip's two and those pending at the next. -/
theorem pendSet_succ (k : Nat) (hk : k < 20) :
    pendSet k = insert (⟨2 * k, by omega⟩ : Fin 40) (insert (⟨2 * k + 1, by omega⟩ : Fin 40) (pendSet (k + 1))) := by
  ext g
  simp only [Finset.mem_insert, mem_pendSet, Fin.ext_iff]
  omega

theorem bigSep_pend_succ (Φ : Fin 40 → sProp 𝕄) (k : Nat) (hk : k < 20) :
    bigSep (pendSet k) Φ = iprop(Φ ⟨2 * k, by omega⟩ ∗ Φ ⟨2 * k + 1, by omega⟩ ∗ bigSep (pendSet (k + 1)) Φ) := by
  have h1 : (⟨2 * k, by omega⟩ : Fin 40) ∉ insert (⟨2 * k + 1, by omega⟩ : Fin 40) (pendSet (k + 1)) := by
    simp only [Finset.mem_insert, mem_pendSet, Fin.ext_iff]; omega
  have h2 : (⟨2 * k + 1, by omega⟩ : Fin 40) ∉ pendSet (k + 1) := by
    simp only [mem_pendSet]; omega
  rw [pendSet_succ k hk, SparseCore.bigSep_insert' h1, SparseCore.bigSep_insert' h2]

/-- The chunks done at trip `k + 1` beyond those done at trip `k` are the two awaited during trip `k`. -/
theorem doneSet_succ_sdiff (k : Nat) (h1 : 1 ≤ k) (hk : k ≤ 20) :
    doneSet (k + 1) \ doneSet k = insert (⟨2 * k - 2, by omega⟩ : Fin 40) {(⟨2 * k - 1, by omega⟩ : Fin 40)} := by
  ext g
  have hg := g.isLt
  simp only [Finset.mem_sdiff, Finset.mem_insert, Finset.mem_singleton, mem_doneSet, Fin.ext_iff]
  omega

theorem doneSet_subset_succ (k : Nat) : doneSet k ⊆ doneSet (k + 1) := by
  intro g hg
  rw [mem_doneSet] at hg ⊢
  omega

theorem bigSep_done_succ (Φ : Fin 40 → sProp 𝕄) (k : Nat) (h1 : 1 ≤ k) (hk : k ≤ 20) :
    bigSep (doneSet (k + 1)) Φ = iprop(bigSep (doneSet k) Φ ∗ Φ ⟨2 * k - 2, by omega⟩ ∗ Φ ⟨2 * k - 1, by omega⟩) := by
  have hne : (⟨2 * k - 2, by omega⟩ : Fin 40) ∉ ({(⟨2 * k - 1, by omega⟩ : Fin 40)} : Finset (Fin 40)) := by
    simp only [Finset.mem_singleton, Fin.ext_iff]; omega
  rw [SparseCore.bigSep_sdiff_split' (doneSet_subset_succ k), doneSet_succ_sdiff k h1 hk, SparseCore.bigSep_insert' hne,
    bigSep_singleton]

/-- All forty chunks are those done after the last trip and the two awaited after the loop. -/
theorem univ_sdiff_doneSet_twenty :
    (Finset.univ : Finset (Fin 40)) \ doneSet 20 = insert (⟨38, by decide⟩ : Fin 40) {(⟨39, by decide⟩ : Fin 40)} := by
  ext g
  have hg := g.isLt
  simp only [Finset.mem_sdiff, Finset.mem_univ, true_and, Finset.mem_insert, Finset.mem_singleton, mem_doneSet, Fin.ext_iff]
  omega

theorem bigSep_all_done (Φ : Fin 40 → sProp 𝕄) :
    bigSep (Finset.univ : Finset (Fin 40)) Φ = iprop(bigSep (doneSet 20) Φ ∗ Φ ⟨38, by decide⟩ ∗ Φ ⟨39, by decide⟩) := by
  have hne : (⟨38, by decide⟩ : Fin 40) ∉ ({(⟨39, by decide⟩ : Fin 40)} : Finset (Fin 40)) := by decide
  rw [SparseCore.bigSep_sdiff_split' (Finset.subset_univ (doneSet 20)), univ_sdiff_doneSet_twenty, SparseCore.bigSep_insert' hne,
    bigSep_singleton]

end Cert.Proof.KB

end
-- ==== Proof.InvB.lean ====
import proofs.«204852_g4896262718038_cont_8to1_c_202_13_alg».proof.Proof.IfaceB
import proofs.«204852_g4896262718038_cont_8to1_c_202_13_alg».proof.Proof.Gen.Kernel.Skeleton
import proofs.«204852_g4896262718038_cont_8to1_c_202_13_alg».proof.Proof.GeomVB
import proofs.«204852_g4896262718038_cont_8to1_c_202_13_alg».proof.Proof.GeomXB
import proofs.«204852_g4896262718038_cont_8to1_c_202_13_alg».proof.Proof.GeomWB
import proofs.«204852_g4896262718038_cont_8to1_c_202_13_alg».proof.Proof.SetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.Kernel.main_arg0_scv : Memref Cert.Kernel.sig Kind.scVector Space.hbm Cert.Kernel.S4x160x160x160 EltTy.i32)
local notation "tW" => (Memref.whole Cert.Kernel.main_arg1_scv : Memref Cert.Kernel.sig Kind.scVector Space.hbm Cert.Kernel.S61 EltTy.i32)
local notation "oW" => (Memref.whole Cert.Kernel.main_v0_scv : Memref Cert.Kernel.sig Kind.scVector Space.hbm Cert.Kernel.S4x160x160x160 EltTy.i32)
local notation "s0" => (Memref.whole Cert.Kernel.cc0_scratch0 : Memref Cert.Kernel.sig Kind.scVector Space.vmem Cert.Kernel.S61 EltTy.i32)
local notation "s1" => (Memref.whole Cert.Kernel.cc0_scratch1 : Memref Cert.Kernel.sig Kind.scVector Space.vmem Cert.Kernel.S80x160 EltTy.i32)
local notation "s2" => (Memref.whole Cert.Kernel.cc0_scratch2 : Memref Cert.Kernel.sig Kind.scVector Space.vmem Cert.Kernel.S80x160 EltTy.i32)
local notation "s3" => (Memref.whole Cert.Kernel.cc0_scratch3 : Memref Cert.Kernel.sig Kind.scVector Space.vmem Cert.Kernel.S80x160 EltTy.i32)
local notation "s4" => (Memref.whole Cert.Kernel.cc0_scratch4 : Memref Cert.Kernel.sig Kind.scVector Space.vmem Cert.Kernel.S80x160 EltTy.i32)

/-! ## The outer loop's invariant

Before trip `k` of the outer loop (`k ≤ 20`; trip `k` handles chunks `2k` on slot 0 and `2k + 1` on slot 1): the table's
copy in the tile's scratch; per in-slot, the copy of the trip's chunk in flight (none once `k = 20`); per out-slot, the
write-out of the previous trip's chunk in flight (none at `k = 0`); the chunks of the result not yet written out, as
they were handed over; the chunks written out and waited for, at the table looked up at the labels. -/

section Inv

variable (m : (ℓ : Loc nD τ sig) → Buf (Elt F) ℓ) (d : Dev nD) (L : grid0.Coords)

/-- Chunk number `n` (read modulo 40, so that no bound need be carried). -/
def chunkN (n : Nat) : Fin 40 := ⟨n % 40, Nat.mod_lt _ (by decide)⟩
theorem chunkN_eq (n : Nat) (h : n < 40) : chunkN n = ⟨n, h⟩ := Fin.ext (Nat.mod_eq_of_lt h)

/-- The tile's read share of an array, and its two halves' tokens for the two in-slots. -/
abbrev qT : PosShare TreeShare := Transfers.shareTok fullShare 32 (tix L)
abbrev tokI0 : PosShare TreeShare := Transfers.shareTokN (qT L) 0
abbrev tokI1 : PosShare TreeShare := Transfers.shareTokN (qT L) 1

/-- Slot 0's copy of the labels' chunk `g` in flight: it delivers the slot at the chunk's labels and the chunk's share
    back; the rest of the labels stays at hand. -/
def inFl0 (g : Fin 40) : sProp 𝕄 :=
  iprop(Transfers.Flight (countersEmb (U := UU)) (thr d L) (SemLoc.dma cc0_scratch5.sem) (default : HIx 1) 409600
      iprop(((s1).view.loc (thr d L) ↦{fullShare} labRead d L m g) ∗ ((lW).view.loc (thr d L) ↦[(lCh L g).view.set]{tokI0 L} m (lLoc d)))
    ∗ ((lW).view.loc (thr d L) ↦[Finset.univ \ (lCh L g).view.set]{tokI0 L} m (lLoc d)))
def inFl1 (g : Fin 40) : sProp 𝕄 :=
  iprop(Transfers.Flight (countersEmb (U := UU)) (thr d L) (SemLoc.dma cc0_scratch6.sem) (default : HIx 1) 409600
      iprop(((s2).view.loc (thr d L) ↦{fullShare} labRead d L m g) ∗ ((lW).view.loc (thr d L) ↦[(lCh L g).view.set]{tokI1 L} m (lLoc d)))
    ∗ ((lW).view.loc (thr d L) ↦[Finset.univ \ (lCh L g).view.set]{tokI1 L} m (lLoc d)))
/-- No copy in flight on an in-slot: the slot, the share and the semaphore at hand. -/
def inIdle0 : sProp 𝕄 :=
  iprop((∃ f, (s1).view.loc (thr d L) ↦{fullShare} f) ∗ ((lW).view.loc (thr d L) ↦{tokI0 L} m (lLoc d)) ∗ semVal (semI0 d L) 0)
def inIdle1 : sProp 𝕄 :=
  iprop((∃ f, (s2).view.loc (thr d L) ↦{fullShare} f) ∗ ((lW).view.loc (thr d L) ↦{tokI1 L} m (lLoc d)) ∗ semVal (semI1 d L) 0)
def inS0 (k : Nat) : sProp 𝕄 := if k < 20 then inFl0 m d L (chunkN (2 * k)) else inIdle0 m d L
def inS1 (k : Nat) : sProp 𝕄 := if k < 20 then inFl1 m d L (chunkN (2 * k + 1)) else inIdle1 m d L

/-- An out-slot's write-out of chunk `g` in flight: it delivers the chunk of the result at the table looked up at the labels,
    and the slot back. -/
def outFl0 (g : Fin 40) : sProp 𝕄 :=
  iprop(∃ fo : Buf (Elt F) ((thr d L).loc cc0_scratch3),
    Transfers.Flight (countersEmb (U := UU)) (thr d L) (SemLoc.dma cc0_scratch7.sem) (default : HIx 1) 409600
        iprop((oLoc d ↦[chunkSet L g]{fullShare} want m d) ∗ ((s3).view.loc (thr d L) ↦[(s3).view.set]{fullShare} fo))
      ∗ ((s3).view.loc (thr d L) ↦[Finset.univ \ (s3).view.set]{fullShare} fo))
def outFl1 (g : Fin 40) : sProp 𝕄 :=
  iprop(∃ fo : Buf (Elt F) ((thr d L).loc cc0_scratch4),
    Transfers.Flight (countersEmb (U := UU)) (thr d L) (SemLoc.dma cc0_scratch8.sem) (default : HIx 1) 409600
        iprop((oLoc d ↦[chunkSet L g]{fullShare} want m d) ∗ ((s4).view.loc (thr d L) ↦[(s4).view.set]{fullShare} fo))
      ∗ ((s4).view.loc (thr d L) ↦[Finset.univ \ (s4).view.set]{fullShare} fo))
/-- No write-out in flight on an out-slot: the slot and the semaphore at hand. -/
def outIdle0 : sProp 𝕄 := iprop((∃ f, (s3).view.loc (thr d L) ↦{fullShare} f) ∗ semVal (semO0 d L) 0)
def outIdle1 : sProp 𝕄 := iprop((∃ f, (s4).view.loc (thr d L) ↦{fullShare} f) ∗ semVal (semO1 d L) 0)
def outS0 (k : Nat) : sProp 𝕄 := if 1 ≤ k ∧ k ≤ 20 then outFl0 m d L (chunkN (2 * k - 2)) else outIdle0 d L
def outS1 (k : Nat) : sProp 𝕄 := if 1 ≤ k ∧ k ≤ 20 then outFl1 m d L (chunkN (2 * k - 1)) else outIdle1 d L
/-- What trip `k`'s wait for the previous write-out hands back: that chunk of the result, done (nothing at `k = 0`). -/
def ret0 (k : Nat) : sProp 𝕄 := if 1 ≤ k ∧ k ≤ 20 then oLoc d ↦[chunkSet L (chunkN (2 * k - 2))]{fullShare} want m d else iprop(emp)
def ret1 (k : Nat) : sProp 𝕄 := if 1 ≤ k ∧ k ≤ 20 then oLoc d ↦[chunkSet L (chunkN (2 * k - 1))]{fullShare} want m d else iprop(emp)

/-- The tile's waits so far: those it started with and waits of its own DMA semaphores. -/
def owesW (O : CellTallies nD τ sig (HIx 1)) (W : Waits sig (HIx 1)) : sProp 𝕄 :=
  iprop(∃ W', ⌜∀ p ∈ W', p ∈ W ∨ p.2 = none⌝ ∗ owes (thr d L) O W')

/-- The outer loop's invariant before trip `k`. -/
def invO (fl : Buf (Elt F) ((thr d L).loc cc0_scratch0)) (O : CellTallies nD τ sig (HIx 1)) (W : Waits sig (HIx 1)) (k : Nat) (_ : BitVec 32) : sProp 𝕄 :=
  iprop(Transfers.MayWaits (thr d L) (none : HIx 1) O
    ∗ ((s0).view.loc (thr d L) ↦{fullShare} fl)
    ∗ inS0 m d L k ∗ outS0 m d L k ∗ inS1 m d L k ∗ outS1 m d L k
    ∗ bigSep (pendSet k) (fun g => oLoc d ↦[chunkSet L g]{fullShare} m (oLoc d))
    ∗ bigSep (doneSet k) (fun g => oLoc d ↦[chunkSet L g]{fullShare} want m d)
    ∗ owesW d L O W)

/-! ### From what a copy's issue leaves to the invariant's wording -/

/-- The labels' and the result's chunk memrefs over any spelling `off` of a chunk's offsets. -/
abbrev lM (off : Fin 4 → Nat) (hinb : ∀ a, off a + S1x1x80x160.size a ≤ S4x160x160x160.size a) : Memref sig .scVector .hbm S80x160 .i32 :=
  ((lW).slice (Rect.unit (s := S4x160x160x160) off S1x1x80x160.size hinb) (fun _ => rfl)).squeeze S80x160 squeezes_S1x1x80x160_S80x160
abbrev oM (off : Fin 4 → Nat) (hinb : ∀ a, off a + S1x1x80x160.size a ≤ S4x160x160x160.size a) : Memref sig .scVector .hbm S80x160 .i32 :=
  ((oW).slice (Rect.unit (s := S4x160x160x160) off S1x1x80x160.size hinb) (fun _ => rfl)).squeeze S80x160 squeezes_S1x1x80x160_S80x160

theorem inFl0_of (g : Fin 40) (off : Fin 4 → Nat) (hinb : ∀ a, off a + S1x1x80x160.size a ≤ S4x160x160x160.size a) (h : off = chunkOff L g)
    (fd w : Buf (Elt F) ((thr d L).loc cc0_scratch1)) (hw : w = View.read (Elt F) (lM off hinb).view (m (lLoc d))) :
    iprop(Transfers.Flight (countersEmb (U := UU)) (thr d L) (SemLoc.dma cc0_scratch5.sem) (default : HIx 1) 409600
        iprop(((s1).view.loc (thr d L) ↦{fullShare} View.write (Elt F) (s1).view fd w Finset.univ)
          ∗ ((lW).view.loc (thr d L) ↦[(lM off hinb).view.set]{tokI0 L} m (lLoc d)))
      ∗ ((lW).view.loc (thr d L) ↦[Finset.univ \ (lM off hinb).view.set]{tokI0 L} m (lLoc d)))
      ⊢ inFl0 m d L g := by
  subst h hw
  unfold inFl0
  refine sep_mono_left (Transfers.Flight_mono _ _ (sep_mono_left (Entails.of_eq ?_)))
  rw [show View.write (Elt F) (s1).view fd (View.read (Elt F) (lM (chunkOff L g) hinb).view (m (lLoc d))) Finset.univ
      = View.read (Elt F) (lM (chunkOff L g) hinb).view (m (lLoc d)) from View.write_whole_univ _ _ _]
  rfl

theorem inFl1_of (g : Fin 40) (off : Fin 4 → Nat) (hinb : ∀ a, off a + S1x1x80x160.size a ≤ S4x160x160x160.size a) (h : off = chunkOff L g)
    (fd w : Buf (Elt F) ((thr d L).loc cc0_scratch2)) (hw : w = View.read (Elt F) (lM off hinb).view (m (lLoc d))) :
    iprop(Transfers.Flight (countersEmb (U := UU)) (thr d L) (SemLoc.dma cc0_scratch6.sem) (default : HIx 1) 409600
        iprop(((s2).view.loc (thr d L) ↦{fullShare} View.write (Elt F) (s2).view fd w Finset.univ)
          ∗ ((lW).view.loc (thr d L) ↦[(lM off hinb).view.set]{tokI1 L} m (lLoc d)))
      ∗ ((lW).view.loc (thr d L) ↦[Finset.univ \ (lM off hinb).view.set]{tokI1 L} m (lLoc d)))
      ⊢ inFl1 m d L g := by
  subst h hw
  unfold inFl1
  refine sep_mono_left (Transfers.Flight_mono _ _ (sep_mono_left (Entails.of_eq ?_)))
  rw [show View.write (Elt F) (s2).view fd (View.read (Elt F) (lM (chunkOff L g) hinb).view (m (lLoc d))) Finset.univ
      = View.read (Elt F) (lM (chunkOff L g) hinb).view (m (lLoc d)) from View.write_whole_univ _ _ _]
  rfl

theorem outFl0_of (g : Fin 40) (off : Fin 4 → Nat) (hinb : ∀ a, off a + S1x1x80x160.size a ≤ S4x160x160x160.size a) (h : off = chunkOff L g)
    (fl : Buf (Elt F) ((thr d L).loc cc0_scratch0)) (fo w : Buf (Elt F) ((thr d L).loc cc0_scratch3)) (hw : w = fo)
    (hr : Spec.InRange (m (lLoc d))) (hfl : ∀ j : S61.Idx, fl j = m (tLoc d) j) (hfo : ∀ j, fo j = lk fl (labRead d L m g j))
    (f0 : Buf (Elt F) (oLoc d)) :
    iprop(Transfers.Flight (countersEmb (U := UU)) (thr d L) (SemLoc.dma cc0_scratch7.sem) (default : HIx 1) 409600
        iprop(((oM off hinb).view.loc (V d (cV L) (jV L)) ↦[(oM off hinb).view.set]{fullShare} (oM off hinb).view.writes (Elt F) f0 [⟨Rect.whole S80x160, w⟩])
          ∗ ((s3).view.loc (thr d L) ↦[(s3).view.set]{fullShare} fo))
      ∗ ((s3).view.loc (thr d L) ↦[Finset.univ \ (s3).view.set]{fullShare} fo))
      ⊢ outFl0 m d L g := by
  subst h hw
  unfold outFl0
  iintro ⟨HF, Hr⟩
  iexists w
  isplitl [HF]
  · iapply (Transfers.Flight_mono _ _ (sep_mono_left (Entails.of_eq ?_))) $$ HF
    rw [pts_chunk_o (F := F) d L g (chunkOff L g) hinb squeezes_S1x1x80x160_S80x160 rfl fullShare]
    exact pointsTo_congr (want_chunk_writes m d L g fl w hr hfl hfo f0)
  · iexact Hr

theorem outFl1_of (g : Fin 40) (off : Fin 4 → Nat) (hinb : ∀ a, off a + S1x1x80x160.size a ≤ S4x160x160x160.size a) (h : off = chunkOff L g)
    (fl : Buf (Elt F) ((thr d L).loc cc0_scratch0)) (fo w : Buf (Elt F) ((thr d L).loc cc0_scratch4)) (hw : w = fo)
    (hr : Spec.InRange (m (lLoc d))) (hfl : ∀ j : S61.Idx, fl j = m (tLoc d) j) (hfo : ∀ j, fo j = lk fl (labRead d L m g j))
    (f0 : Buf (Elt F) (oLoc d)) :
    iprop(Transfers.Flight (countersEmb (U := UU)) (thr d L) (SemLoc.dma cc0_scratch8.sem) (default : HIx 1) 409600
        iprop(((oM off hinb).view.loc (V d (cV L) (jV L)) ↦[(oM off hinb).view.set]{fullShare} (oM off hinb).view.writes (Elt F) f0 [⟨Rect.whole S80x160, w⟩])
          ∗ ((s4).view.loc (thr d L) ↦[(s4).view.set]{fullShare} fo))
      ∗ ((s4).view.loc (thr d L) ↦[Finset.univ \ (s4).view.set]{fullShare} fo))
      ⊢ outFl1 m d L g := by
  subst h hw
  unfold outFl1
  iintro ⟨HF, Hr⟩
  iexists w
  isplitl [HF]
  · iapply (Transfers.Flight_mono _ _ (sep_mono_left (Entails.of_eq ?_))) $$ HF
    rw [pts_chunk_o (F := F) d L g (chunkOff L g) hinb squeezes_S1x1x80x160_S80x160 rfl fullShare]
    exact pointsTo_congr (want_chunk_writes m d L g fl w hr hfl hfo f0)
  · iexact Hr

end Inv

end Cert.Proof.KB

end
-- ==== Proof.ToksB.lean ====
/-
  A read share split into two read tokens and a remainder: the share is halved, the right half is the first token; the
  left half is halved again, its right half is the second token, and what is left is the remainder. Two copies reading one
  array at once are lent one token each.
-/
import proofs.«204852_g4896262718038_cont_8to1_c_202_13_alg».proof.Proof.IfaceB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A points-to at `q` is the remainder after two read tokens, and the two tokens. -/
theorem toks2 {ℓ : Loc nD τ sig} {S : Finset (Idx ℓ)} {f : Buf (Elt F) ℓ} (q : PosShare TreeShare) :
    (ℓ ↦[S]{q} f : sProp 𝕄) ⊣⊢ iprop((ℓ ↦[S]{Transfers.shareDrop q 2} f) ∗ (ℓ ↦[S]{Transfers.shareTokN q 0} f)
      ∗ (ℓ ↦[S]{Transfers.shareTokN q 1} f)) := by
  have h1 : (ℓ ↦[S]{q} f : sProp 𝕄) ⊣⊢ iprop((ℓ ↦[S]{Transfers.shareDrop q 1} f) ∗ ℓ ↦[S]{Transfers.shareTokN q 0} f) :=
    pointsTo_share (PosShare.mem_left_op_right _)
  have h2 : (ℓ ↦[S]{Transfers.shareDrop q 1} f : sProp 𝕄)
      ⊣⊢ iprop((ℓ ↦[S]{Transfers.shareDrop q 2} f) ∗ ℓ ↦[S]{Transfers.shareTokN q 1} f) :=
    pointsTo_share (PosShare.mem_left_op_right _)
  constructor
  · refine h1.1.trans ((sep_mono_left h2.1).trans ?_)
    iintro ⟨⟨Hd, Ht1⟩, Ht0⟩
    isplitl [Hd]; · iexact Hd
    isplitl [Ht0] <;> iassumption
  · refine BIBase.Entails.trans ?_ ((sep_mono_left h2.2).trans h1.2)
    iintro ⟨Hd, Ht0, Ht1⟩
    isplitl [Hd Ht1]; · isplitl [Hd] <;> iassumption
    iexact Ht0

end Cert.Proof.KB

end
-- ==== Proof.RowsB.lean ====
/-
  The row loops of a tile's task. A chunk of labels sits in an in-slot (80 rows of 160 words) and the table's copy in a
  61-word scratch; the loop takes the rows in turn, and a row sixteen words at a time: the sixteen labels are read, each
  is below 61 (the slot holds labels in range), the table's copy is read at them, and the sixteen results are stored at
  the same place of the out-slot. After row `r` the out-slot holds the table looked up at the labels on every row up to
  `r`: the ten stores of a trip lie in row `r`, cover it, and each holds the looked-up words; rows before it are untouched.
  After the eighty rows the out-slot is the table looked up at the in-slot, word for word.
-/
import proofs.«204852_g4896262718038_cont_8to1_c_202_13_alg».proof.Proof.ChunksB
import proofs.«204852_g4896262718038_cont_8to1_c_202_13_alg».proof.Proof.Gen.Kernel.Skeleton
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.Kernel.main_arg0_scv : Memref Cert.Kernel.sig Kind.scVector Space.hbm Cert.Kernel.S4x160x160x160 EltTy.i32)
local notation "tW" => (Memref.whole Cert.Kernel.main_arg1_scv : Memref Cert.Kernel.sig Kind.scVector Space.hbm Cert.Kernel.S61 EltTy.i32)
local notation "oW" => (Memref.whole Cert.Kernel.main_v0_scv : Memref Cert.Kernel.sig Kind.scVector Space.hbm Cert.Kernel.S4x160x160x160 EltTy.i32)
local notation "s0" => (Memref.whole Cert.Kernel.cc0_scratch0 : Memref Cert.Kernel.sig Kind.scVector Space.vmem Cert.Kernel.S61 EltTy.i32)
local notation "s1" => (Memref.whole Cert.Kernel.cc0_scratch1 : Memref Cert.Kernel.sig Kind.scVector Space.vmem Cert.Kernel.S80x160 EltTy.i32)
local notation "s2" => (Memref.whole Cert.Kernel.cc0_scratch2 : Memref Cert.Kernel.sig Kind.scVector Space.vmem Cert.Kernel.S80x160 EltTy.i32)
local notation "s3" => (Memref.whole Cert.Kernel.cc0_scratch3 : Memref Cert.Kernel.sig Kind.scVector Space.vmem Cert.Kernel.S80x160 EltTy.i32)
local notation "s4" => (Memref.whole Cert.Kernel.cc0_scratch4 : Memref Cert.Kernel.sig Kind.scVector Space.vmem Cert.Kernel.S80x160 EltTy.i32)

/-! ## One row of a chunk: sixteen labels at a time, looked up in the table's copy -/

section Pure

variable {sig' : RefSig} {κ : Kind} {sp : Space} {s : Shape} {e : EltTy} {Val : EltTy → Type}

/-- A run of stores all inside the slab `k` of axis `a0`, covering it, each piece agreeing with `G`: if the buffer agreed
    with `G` below the slab it now agrees with it up to and including the slab. -/
theorem rows_step_read (v : View sig' κ sp s e) (f : v.ty.Contents Val) (G : s.Idx → Val e) (Ls : List (View.Piece Val s e)) (k : Nat) (a0 : Fin s.rank)
    (h1 : ∀ p ∈ Ls, ∀ x : p.1.shape.Idx, p.2 x = G (p.1.emb x))
    (h2 : ∀ p ∈ Ls, ∀ j ∈ p.1.set, (j a0).val = k)
    (h3 : ∀ j : s.Idx, (j a0).val = k → ∃ p ∈ Ls, j ∈ p.1.set)
    (hf : ∀ j : s.Idx, (j a0).val < k → v.read Val f j = G j) :
    ∀ j : s.Idx, (j a0).val < k + 1 → v.read Val (v.writes Val f Ls) j = G j := by
  intro j hj
  by_cases hk : (j a0).val = k
  · exact View.read_writes_apply_of_pieces v f G Ls h1 j (h3 j hk)
  · rw [View.read_writes_apply_of_forall_not_mem v f j Ls (fun p hp hm => hk (h2 p hp j hm))]
    exact hf j (by omega)

end Pure

/-- A 1×16 block at `[k, c]` of an 80×160 slot lies in row `k`, columns `c … c + 15`; -/
theorem unit_row {off : Fin 2 → Nat} {inb : ∀ a, off a + (![1, 16] : Fin 2 → Nat) a ≤ S80x160.size a} (k c : Nat) (h : off = ![k, c])
    {j : S80x160.Idx} (hj : j ∈ (Rect.unit (s := S80x160) off ![1, 16] inb).set) : (j 0).val = k ∧ c ≤ (j 1).val ∧ (j 1).val < c + 16 := by
  subst h
  have h0 : k ≤ (j 0).val ∧ (j 0).val < k + 1 := (Rect.mem_set_unit.mp hj) 0
  have h1 : c ≤ (j 1).val ∧ (j 1).val < c + 16 := (Rect.mem_set_unit.mp hj) 1
  omega

/-- and holds every index there. -/
theorem unit_row_mem {off : Fin 2 → Nat} {inb : ∀ a, off a + (![1, 16] : Fin 2 → Nat) a ≤ S80x160.size a} (k c : Nat) (h : off = ![k, c])
    {j : S80x160.Idx} (h0 : (j 0).val = k) (h1 : c ≤ (j 1).val) (h2 : (j 1).val < c + 16) : j ∈ (Rect.unit (s := S80x160) off ![1, 16] inb).set := by
  subst h
  refine Rect.mem_set_unit.mpr fun a => ?_
  fin_cases a
  · show k ≤ (j 0).val ∧ (j 0).val < k + 1; omega
  · show c ≤ (j 1).val ∧ (j 1).val < c + 16; omega

variable [FloatOps F]

section
variable (d : Dev nD) (L : grid0.Coords)

omit [FloatOps F] in
/-- What is stored for sixteen labels of a row: the table's copy at each of them. -/
theorem piece_eqA {fi : Buf (Elt F) ((thr d L).loc cc0_scratch1)} {fl : Buf (Elt F) ((thr d L).loc cc0_scratch0)} (hfi : ∀ j, (fi j).toNat < 61)
    (off_in off_out : Fin 2 → Nat) (h : off_in = off_out)
    (inb1 : ∀ a, off_in a + S1x16.size a ≤ S80x160.size a) (inb2 : ∀ a, off_out a + (![1, 16] : Fin 2 → Nat) a ≤ S80x160.size a)
    (hv : ∀ a x, ((![shapeCast S16 ((s1).view.readAt (Elt F) (Rect.unit (s := S80x160) off_in S1x16.size inb1).toLoadRect fi) shapeCasts_S1x16_S16] : Fin 1 → IVec S16 32) a x).toNat < S61.size a)
    (x : S1x16.Idx) :
    shapeCast S1x16 (loadIdx ((s0).view.readAt (Elt F) (LoadRect.whole S61) fl)
        ![shapeCast S16 ((s1).view.readAt (Elt F) (Rect.unit (s := S80x160) off_in S1x16.size inb1).toLoadRect fi) shapeCasts_S1x16_S16] hv) shapeCasts_S16_S1x16 x
      = lk fl (fi ((Rect.unit (s := S80x160) off_out ![1, 16] inb2).emb x)) := by
  subst h
  have hx0 : (x 0).val < 1 := (x 0).isLt
  have hx1 : (x 1).val < 16 := (x 1).isLt
  let y : S16.Idx := ValueIdx.ix1 (⟨(x 1).val, hx1⟩ : Fin 16)
  have hy : (S16.rowMajor y).val = (S1x16.rowMajor x).val := by
    rw [Shape.rowMajor_val_one, Shape.rowMajor_val_two]
    show (x 1).val = (x 0).val * 16 + (x 1).val
    omega
  rw [shapeCast_apply _ shapeCasts_S16_S1x16 x y hy]
  have hvy : shapeCast S16 ((s1).view.readAt (Elt F) (Rect.unit (s := S80x160) off_in S1x16.size inb1).toLoadRect fi) shapeCasts_S1x16_S16 y
      = fi ((Rect.unit (s := S80x160) off_in ![1, 16] inb2).emb x) := by
    rw [shapeCast_apply _ shapeCasts_S1x16_S16 y x hy.symm]; rfl
  unfold lk
  rw [dif_pos (hfi _)]
  show fl _ = fl _
  refine congrArg fl (funext fun (a : Fin 1) => Fin.ext ?_)
  obtain rfl : a = 0 := Subsingleton.elim _ _
  show 0 + 1 * (shapeCast S16 ((s1).view.readAt (Elt F) (Rect.unit (s := S80x160) off_in S1x16.size inb1).toLoadRect fi) shapeCasts_S1x16_S16 y).toNat = _
  rw [hvy]; simp only [Nat.zero_add, Nat.one_mul]

theorem rows0_trips : Scf.trips k0_t2_loop.lb k0_t2_loop.ub k0_t2_loop.st = 80 := by decide +kernel

def inv_rows0 (fi : Buf (Elt F) ((thr d L).loc cc0_scratch1)) (fl : Buf (Elt F) ((thr d L).loc cc0_scratch0)) (r : Nat) (_ : BitVec 32) : sProp 𝕄 :=
  iprop(((s1).view.loc (thr d L) ↦{fullShare} fi : sProp 𝕄) ∗ ((s0).view.loc (thr d L) ↦{fullShare} fl : sProp 𝕄)
    ∗ ∃ fo' : Buf (Elt F) ((thr d L).loc cc0_scratch3), ((s3).view.loc (thr d L) ↦{fullShare} fo' : sProp 𝕄) ∗ ⌜∀ j : S80x160.Idx, (j 0).val < r → (s3).view.read (Elt F) fo' j = lk fl (fi j)⌝)

set_option maxHeartbeats 4000000 in
theorem rows0 (v29 c0 c1 : BitVec 32) (t : Fin k0_t1_loop.trips)
    (fi : Buf (Elt F) ((thr d L).loc cc0_scratch1)) (fl : Buf (Elt F) ((thr d L).loc cc0_scratch0)) (fo : Buf (Elt F) ((thr d L).loc cc0_scratch3))
    (hfi : ∀ j, (fi j).toNat < 61) :
    iprop(((s1).view.loc (thr d L) ↦{fullShare} fi : sProp 𝕄) ∗ ((s0).view.loc (thr d L) ↦{fullShare} fl) ∗ ((s3).view.loc (thr d L) ↦{fullShare} fo))
      ⊢ wp frame (wpE (defs₀ (F := F)) 𝒱₀ (thr d L) none) Set.univ
          (Scf.Loop.for k0_t2_loop k0_t2_ok 0#32 (k0_t2_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0 v29 c0 c1 t))
          fun _ => iprop(((s1).view.loc (thr d L) ↦{fullShare} fi) ∗ ((s0).view.loc (thr d L) ↦{fullShare} fl)
            ∗ ∃ fo', ((s3).view.loc (thr d L) ↦{fullShare} fo') ∗ ⌜∀ j, fo' j = lk fl (fi j)⌝) := by
  iintro ⟨H1, H0, H3⟩
  sl_for (inv_rows0 d L fi fl) $$ [H1 H0 H3]
  case region =>
    intro k acc
    unfold rows0.sl.prog.body_1
    unfold k0_t2_body
    simp only [k0_part1_eq_skeleton]
    unfold k0_part1_skel SparseCore.vectorLoadIdx
    unfold inv_rows0
    iintro ⟨H1, H0, %fo', H3, %hfo⟩
    sl_exec (disch := (intro a x; obtain rfl : a = 0 := Subsingleton.elim _ _; exact hfi _))
    sl_step
    isplitl [H1]; · iexact H1
    isplitl [H0]; · iexact H0
    iexists _
    isplitl [H3]; · iexact H3
    ipureintro
    refine rows_step_read (s3).view fo' (fun j => lk fl (fi j)) _ k.val 0 ?hG ?h2 ?h3 hfo
    case hG =>
      intro p hp
      simp only [List.mem_cons, List.not_mem_nil, _root_.or_false] at hp
      rcases hp with rfl | rfl | rfl | rfl | rfl | rfl | rfl | rfl | rfl | rfl
      · intro x; exact piece_eqA d L hfi _ _ ((k0_off14_eq k).trans (k0_off24_eq k).symm) (k0_off14_inb k) (k0_off24_inb k) _ x
      · intro x; exact piece_eqA d L hfi _ _ ((k0_off13_eq k).trans (k0_off23_eq k).symm) (k0_off13_inb k) (k0_off23_inb k) _ x
      · intro x; exact piece_eqA d L hfi _ _ ((k0_off12_eq k).trans (k0_off22_eq k).symm) (k0_off12_inb k) (k0_off22_inb k) _ x
      · intro x; exact piece_eqA d L hfi _ _ ((k0_off11_eq k).trans (k0_off21_eq k).symm) (k0_off11_inb k) (k0_off21_inb k) _ x
      · intro x; exact piece_eqA d L hfi _ _ ((k0_off10_eq k).trans (k0_off20_eq k).symm) (k0_off10_inb k) (k0_off20_inb k) _ x
      · intro x; exact piece_eqA d L hfi _ _ ((k0_off9_eq k).trans (k0_off19_eq k).symm) (k0_off9_inb k) (k0_off19_inb k) _ x
      · intro x; exact piece_eqA d L hfi _ _ ((k0_off8_eq k).trans (k0_off18_eq k).symm) (k0_off8_inb k) (k0_off18_inb k) _ x
      · intro x; exact piece_eqA d L hfi _ _ ((k0_off7_eq k).trans (k0_off17_eq k).symm) (k0_off7_inb k) (k0_off17_inb k) _ x
      · intro x; exact piece_eqA d L hfi _ _ ((k0_off6_eq k).trans (k0_off16_eq k).symm) (k0_off6_inb k) (k0_off16_inb k) _ x
      · intro x; exact piece_eqA d L hfi _ _ ((k0_off5_eq k).trans (k0_off15_eq k).symm) (k0_off5_inb k) (k0_off15_inb k) _ x
    case h2 =>
      intro p hp
      simp only [List.mem_cons, List.not_mem_nil, _root_.or_false] at hp
      rcases hp with rfl | rfl | rfl | rfl | rfl | rfl | rfl | rfl | rfl | rfl
      · intro j hj; exact (unit_row (inb := k0_off24_inb k) k.val 144 (k0_off24_eq k) hj).1
      · intro j hj; exact (unit_row (inb := k0_off23_inb k) k.val 128 (k0_off23_eq k) hj).1
      · intro j hj; exact (unit_row (inb := k0_off22_inb k) k.val 112 (k0_off22_eq k) hj).1
      · intro j hj; exact (unit_row (inb := k0_off21_inb k) k.val 96 (k0_off21_eq k) hj).1
      · intro j hj; exact (unit_row (inb := k0_off20_inb k) k.val 80 (k0_off20_eq k) hj).1
      · intro j hj; exact (unit_row (inb := k0_off19_inb k) k.val 64 (k0_off19_eq k) hj).1
      · intro j hj; exact (unit_row (inb := k0_off18_inb k) k.val 48 (k0_off18_eq k) hj).1
      · intro j hj; exact (unit_row (inb := k0_off17_inb k) k.val 32 (k0_off17_eq k) hj).1
      · intro j hj; exact (unit_row (inb := k0_off16_inb k) k.val 16 (k0_off16_eq k) hj).1
      · intro j hj; exact (unit_row (inb := k0_off15_inb k) k.val 0 (k0_off15_eq k) hj).1
    case h3 =>
      intro j hk
      have hj1 : (j 1).val < 160 := (j 1).isLt
      rcases (by omega : (0 ≤ (j 1).val ∧ (j 1).val < 16) ∨ (16 ≤ (j 1).val ∧ (j 1).val < 32) ∨ (32 ≤ (j 1).val ∧ (j 1).val < 48) ∨ (48 ≤ (j 1).val ∧ (j 1).val < 64) ∨ (64 ≤ (j 1).val ∧ (j 1).val < 80) ∨ (80 ≤ (j 1).val ∧ (j 1).val < 96) ∨ (96 ≤ (j 1).val ∧ (j 1).val < 112) ∨ (112 ≤ (j 1).val ∧ (j 1).val < 128) ∨ (128 ≤ (j 1).val ∧ (j 1).val < 144) ∨ (144 ≤ (j 1).val ∧ (j 1).val < 160)) with h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit_row_mem (inb := k0_off15_inb k) k.val 0 (k0_off15_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit_row_mem (inb := k0_off16_inb k) k.val 16 (k0_off16_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit_row_mem (inb := k0_off17_inb k) k.val 32 (k0_off17_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_self)))))), unit_row_mem (inb := k0_off18_inb k) k.val 48 (k0_off18_eq k) hk h.1 h.2⟩
      · exact ⟨_, List.mem_cons_of_mem _ (List.mem_cons_of_mem _ (List.mem_cons_of_mem _ (List.mem_cons_of_mem _ (List.mem_cons_of_mem _ (List.mem_cons_self))))), unit_row_mem (inb := k0_off19_inb k) k.val 64 (k0_off19_eq k) hk h.1 h.2⟩
      · exact ⟨_, List.mem_cons_of_mem _ (List.mem_cons_of_mem _ (List.mem_cons_of_mem _ (List.mem_cons_of_mem _ (List.mem_cons_self)))), unit_row_mem (inb := k0_off20_inb k) k.val 80 (k0_off20_eq k) hk h.1 h.2⟩
      · exact ⟨_, List.mem_cons_of_mem _ (List.mem_cons_of_mem _ (List.mem_cons_of_mem _ (List.mem_cons_self))), unit_row_mem (inb := k0_off21_inb k) k.val 96 (k0_off21_eq k) hk h.1 h.2⟩
      · exact ⟨_, List.mem_cons_of_mem _ (List.mem_cons_of_mem _ (List.mem_cons_self)), unit_row_mem (inb := k0_off22_inb k) k.val 112 (k0_off22_eq k) hk h.1 h.2⟩
      · exact ⟨_, List.mem_cons_of_mem _ (List.mem_cons_self), unit_row_mem (inb := k0_off23_inb k) k.val 128 (k0_off23_eq k) hk h.1 h.2⟩
      · exact ⟨_, List.mem_cons_self, unit_row_mem (inb := k0_off24_inb k) k.val 144 (k0_off24_eq k) hk h.1 h.2⟩
  · isplitl [H1 H0 H3]
    · unfold inv_rows0
      isplitl [H1]; · iexact H1
      isplitl [H0]; · iexact H0
      iexists fo
      isplitl [H3]; · iexact H3
      ipureintro; intro j hj; exact absurd hj (Nat.not_lt_zero _)
    · iintro %acc HI
      unfold inv_rows0
      icases HI with ⟨H1, H0, %fo', H3, %h⟩
      isplitl [H1]; · iexact H1
      isplitl [H0]; · iexact H0
      iexists fo'
      isplitl [H3]; · iexact H3
      ipureintro; intro j
      exact h j (lt_of_lt_of_eq (show (j 0).val < 80 from (j 0).isLt) rows0_trips.symm)

omit [FloatOps F] in
/-- What is stored for sixteen labels of a row: the table's copy at each of them. -/
theorem piece_eqB {fi : Buf (Elt F) ((thr d L).loc cc0_scratch2)} {fl : Buf (Elt F) ((thr d L).loc cc0_scratch0)} (hfi : ∀ j, (fi j).toNat < 61)
    (off_in off_out : Fin 2 → Nat) (h : off_in = off_out)
    (inb1 : ∀ a, off_in a + S1x16.size a ≤ S80x160.size a) (inb2 : ∀ a, off_out a + (![1, 16] : Fin 2 → Nat) a ≤ S80x160.size a)
    (hv : ∀ a x, ((![shapeCast S16 ((s2).view.readAt (Elt F) (Rect.unit (s := S80x160) off_in S1x16.size inb1).toLoadRect fi) shapeCasts_S1x16_S16] : Fin 1 → IVec S16 32) a x).toNat < S61.size a)
    (x : S1x16.Idx) :
    shapeCast S1x16 (loadIdx ((s0).view.readAt (Elt F) (LoadRect.whole S61) fl)
        ![shapeCast S16 ((s2).view.readAt (Elt F) (Rect.unit (s := S80x160) off_in S1x16.size inb1).toLoadRect fi) shapeCasts_S1x16_S16] hv) shapeCasts_S16_S1x16 x
      = lk fl (fi ((Rect.unit (s := S80x160) off_out ![1, 16] inb2).emb x)) := by
  subst h
  have hx0 : (x 0).val < 1 := (x 0).isLt
  have hx1 : (x 1).val < 16 := (x 1).isLt
  let y : S16.Idx := ValueIdx.ix1 (⟨(x 1).val, hx1⟩ : Fin 16)
  have hy : (S16.rowMajor y).val = (S1x16.rowMajor x).val := by
    rw [Shape.rowMajor_val_one, Shape.rowMajor_val_two]
    show (x 1).val = (x 0).val * 16 + (x 1).val
    omega
  rw [shapeCast_apply _ shapeCasts_S16_S1x16 x y hy]
  have hvy : shapeCast S16 ((s2).view.readAt (Elt F) (Rect.unit (s := S80x160) off_in S1x16.size inb1).toLoadRect fi) shapeCasts_S1x16_S16 y
      = fi ((Rect.unit (s := S80x160) off_in ![1, 16] inb2).emb x) := by
    rw [shapeCast_apply _ shapeCasts_S1x16_S16 y x hy.symm]; rfl
  unfold lk
  rw [dif_pos (hfi _)]
  show fl _ = fl _
  refine congrArg fl (funext fun (a : Fin 1) => Fin.ext ?_)
  obtain rfl : a = 0 := Subsingleton.elim _ _
  show 0 + 1 * (shapeCast S16 ((s2).view.readAt (Elt F) (Rect.unit (s := S80x160) off_in S1x16.size inb1).toLoadRect fi) shapeCasts_S1x16_S16 y).toNat = _
  rw [hvy]; simp only [Nat.zero_add, Nat.one_mul]

theorem rows1_trips : Scf.trips k0_t3_loop.lb k0_t3_loop.ub k0_t3_loop.st = 80 := by decide +kernel

def inv_rows1 (fi : Buf (Elt F) ((thr d L).loc cc0_scratch2)) (fl : Buf (Elt F) ((thr d L).loc cc0_scratch0)) (r : Nat) (_ : BitVec 32) : sProp 𝕄 :=
  iprop(((s2).view.loc (thr d L) ↦{fullShare} fi : sProp 𝕄) ∗ ((s0).view.loc (thr d L) ↦{fullShare} fl : sProp 𝕄)
    ∗ ∃ fo' : Buf (Elt F) ((thr d L).loc cc0_scratch4), ((s4).view.loc (thr d L) ↦{fullShare} fo' : sProp 𝕄) ∗ ⌜∀ j : S80x160.Idx, (j 0).val < r → (s4).view.read (Elt F) fo' j = lk fl (fi j)⌝)

set_option maxHeartbeats 4000000 in
theorem rows1
    (fi : Buf (Elt F) ((thr d L).loc cc0_scratch2)) (fl : Buf (Elt F) ((thr d L).loc cc0_scratch0)) (fo : Buf (Elt F) ((thr d L).loc cc0_scratch4))
    (hfi : ∀ j, (fi j).toNat < 61) :
    iprop(((s2).view.loc (thr d L) ↦{fullShare} fi : sProp 𝕄) ∗ ((s0).view.loc (thr d L) ↦{fullShare} fl) ∗ ((s4).view.loc (thr d L) ↦{fullShare} fo))
      ⊢ wp frame (wpE (defs₀ (F := F)) 𝒱₀ (thr d L) none) Set.univ
          (Scf.Loop.for k0_t3_loop k0_t3_ok 0#32 (k0_t3_body L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0))
          fun _ => iprop(((s2).view.loc (thr d L) ↦{fullShare} fi) ∗ ((s0).view.loc (thr d L) ↦{fullShare} fl)
            ∗ ∃ fo', ((s4).view.loc (thr d L) ↦{fullShare} fo') ∗ ⌜∀ j, fo' j = lk fl (fi j)⌝) := by
  iintro ⟨H1, H0, H3⟩
  sl_for (inv_rows1 d L fi fl) $$ [H1 H0 H3]
  case region =>
    intro k acc
    unfold rows1.sl.prog.body_1
    unfold k0_t3_body
    simp only [k0_part2_eq_skeleton]
    unfold k0_part2_skel SparseCore.vectorLoadIdx
    unfold inv_rows1
    iintro ⟨H1, H0, %fo', H3, %hfo⟩
    sl_exec (disch := (intro a x; obtain rfl : a = 0 := Subsingleton.elim _ _; exact hfi _))
    sl_step
    isplitl [H1]; · iexact H1
    isplitl [H0]; · iexact H0
    iexists _
    isplitl [H3]; · iexact H3
    ipureintro
    refine rows_step_read (s4).view fo' (fun j => lk fl (fi j)) _ k.val 0 ?hG ?h2 ?h3 hfo
    case hG =>
      intro p hp
      simp only [List.mem_cons, List.not_mem_nil, _root_.or_false] at hp
      rcases hp with rfl | rfl | rfl | rfl | rfl | rfl | rfl | rfl | rfl | rfl
      · intro x; exact piece_eqB d L hfi _ _ ((k0_off36_eq k).trans (k0_off46_eq k).symm) (k0_off36_inb k) (k0_off46_inb k) _ x
      · intro x; exact piece_eqB d L hfi _ _ ((k0_off35_eq k).trans (k0_off45_eq k).symm) (k0_off35_inb k) (k0_off45_inb k) _ x
      · intro x; exact piece_eqB d L hfi _ _ ((k0_off34_eq k).trans (k0_off44_eq k).symm) (k0_off34_inb k) (k0_off44_inb k) _ x
      · intro x; exact piece_eqB d L hfi _ _ ((k0_off33_eq k).trans (k0_off43_eq k).symm) (k0_off33_inb k) (k0_off43_inb k) _ x
      · intro x; exact piece_eqB d L hfi _ _ ((k0_off32_eq k).trans (k0_off42_eq k).symm) (k0_off32_inb k) (k0_off42_inb k) _ x
      · intro x; exact piece_eqB d L hfi _ _ ((k0_off31_eq k).trans (k0_off41_eq k).symm) (k0_off31_inb k) (k0_off41_inb k) _ x
      · intro x; exact piece_eqB d L hfi _ _ ((k0_off30_eq k).trans (k0_off40_eq k).symm) (k0_off30_inb k) (k0_off40_inb k) _ x
      · intro x; exact piece_eqB d L hfi _ _ ((k0_off29_eq k).trans (k0_off39_eq k).symm) (k0_off29_inb k) (k0_off39_inb k) _ x
      · intro x; exact piece_eqB d L hfi _ _ ((k0_off28_eq k).trans (k0_off38_eq k).symm) (k0_off28_inb k) (k0_off38_inb k) _ x
      · intro x; exact piece_eqB d L hfi _ _ ((k0_off27_eq k).trans (k0_off37_eq k).symm) (k0_off27_inb k) (k0_off37_inb k) _ x
    case h2 =>
      intro p hp
      simp only [List.mem_cons, List.not_mem_nil, _root_.or_false] at hp
      rcases hp with rfl | rfl | rfl | rfl | rfl | rfl | rfl | rfl | rfl | rfl
      · intro j hj; exact (unit_row (inb := k0_off46_inb k) k.val 144 (k0_off46_eq k) hj).1
      · intro j hj; exact (unit_row (inb := k0_off45_inb k) k.val 128 (k0_off45_eq k) hj).1
      · intro j hj; exact (unit_row (inb := k0_off44_inb k) k.val 112 (k0_off44_eq k) hj).1
      · intro j hj; exact (unit_row (inb := k0_off43_inb k) k.val 96 (k0_off43_eq k) hj).1
      · intro j hj; exact (unit_row (inb := k0_off42_inb k) k.val 80 (k0_off42_eq k) hj).1
      · intro j hj; exact (unit_row (inb := k0_off41_inb k) k.val 64 (k0_off41_eq k) hj).1
      · intro j hj; exact (unit_row (inb := k0_off40_inb k) k.val 48 (k0_off40_eq k) hj).1
      · intro j hj; exact (unit_row (inb := k0_off39_inb k) k.val 32 (k0_off39_eq k) hj).1
      · intro j hj; exact (unit_row (inb := k0_off38_inb k) k.val 16 (k0_off38_eq k) hj).1
      · intro j hj; exact (unit_row (inb := k0_off37_inb k) k.val 0 (k0_off37_eq k) hj).1
    case h3 =>
      intro j hk
      have hj1 : (j 1).val < 160 := (j 1).isLt
      rcases (by omega : (0 ≤ (j 1).val ∧ (j 1).val < 16) ∨ (16 ≤ (j 1).val ∧ (j 1).val < 32) ∨ (32 ≤ (j 1).val ∧ (j 1).val < 48) ∨ (48 ≤ (j 1).val ∧ (j 1).val < 64) ∨ (64 ≤ (j 1).val ∧ (j 1).val < 80) ∨ (80 ≤ (j 1).val ∧ (j 1).val < 96) ∨ (96 ≤ (j 1).val ∧ (j 1).val < 112) ∨ (112 ≤ (j 1).val ∧ (j 1).val < 128) ∨ (128 ≤ (j 1).val ∧ (j 1).val < 144) ∨ (144 ≤ (j 1).val ∧ (j 1).val < 160)) with h | h | h | h | h | h | h | h | h | h
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), unit_row_mem (inb := k0_off37_inb k) k.val 0 (k0_off37_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), unit_row_mem (inb := k0_off38_inb k) k.val 16 (k0_off38_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), unit_row_mem (inb := k0_off39_inb k) k.val 32 (k0_off39_eq k) hk h.1 h.2⟩
      · exact ⟨_, List.mem_cons_of_mem _ (List.mem_cons_of_mem _ (List.mem_cons_of_mem _ (List.mem_cons_of_mem _ (List.mem_cons_of_mem _ (List.mem_cons_of_mem _ (List.mem_cons_self)))))), unit_row_mem (inb := k0_off40_inb k) k.val 48 (k0_off40_eq k) hk h.1 h.2⟩
      · exact ⟨_, List.mem_cons_of_mem _ (List.mem_cons_of_mem _ (List.mem_cons_of_mem _ (List.mem_cons_of_mem _ (List.mem_cons_of_mem _ (List.mem_cons_self))))), unit_row_mem (inb := k0_off41_inb k) k.val 64 (k0_off41_eq k) hk h.1 h.2⟩
      · exact ⟨_, List.mem_cons_of_mem _ (List.mem_cons_of_mem _ (List.mem_cons_of_mem _ (List.mem_cons_of_mem _ (List.mem_cons_self)))), unit_row_mem (inb := k0_off42_inb k) k.val 80 (k0_off42_eq k) hk h.1 h.2⟩
      · exact ⟨_, List.mem_cons_of_mem _ (List.mem_cons_of_mem _ (List.mem_cons_of_mem _ (List.mem_cons_self))), unit_row_mem (inb := k0_off43_inb k) k.val 96 (k0_off43_eq k) hk h.1 h.2⟩
      · exact ⟨_, List.mem_cons_of_mem _ (List.mem_cons_of_mem _ (List.mem_cons_self)), unit_row_mem (inb := k0_off44_inb k) k.val 112 (k0_off44_eq k) hk h.1 h.2⟩
      · exact ⟨_, List.mem_cons_of_mem _ (List.mem_cons_self), unit_row_mem (inb := k0_off45_inb k) k.val 128 (k0_off45_eq k) hk h.1 h.2⟩
      · exact ⟨_, List.mem_cons_self, unit_row_mem (inb := k0_off46_inb k) k.val 144 (k0_off46_eq k) hk h.1 h.2⟩
  · isplitl [H1 H0 H3]
    · unfold inv_rows1
      isplitl [H1]; · iexact H1
      isplitl [H0]; · iexact H0
      iexists fo
      isplitl [H3]; · iexact H3
      ipureintro; intro j hj; exact absurd hj (Nat.not_lt_zero _)
    · iintro %acc HI
      unfold inv_rows1
      icases HI with ⟨H1, H0, %fo', H3, %h⟩
      isplitl [H1]; · iexact H1
      isplitl [H0]; · iexact H0
      iexists fo'
      isplitl [H3]; · iexact H3
      ipureintro; intro j
      exact h j (lt_of_lt_of_eq (show (j 0).val < 80 from (j 0).isLt) rows1_trips.symm)

end

end Cert.Proof.KB

end
-- ==== Proof.Slot0B.lean ====
import proofs.«204852_g4896262718038_cont_8to1_c_202_13_alg».proof.Proof.IfaceB
import proofs.«204852_g4896262718038_cont_8to1_c_202_13_alg».proof.Proof.Gen.Kernel.Skeleton
import proofs.«204852_g4896262718038_cont_8to1_c_202_13_alg».proof.Proof.InvB
import proofs.«204852_g4896262718038_cont_8to1_c_202_13_alg».proof.Proof.RowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.Kernel.main_arg0_scv : Memref Cert.Kernel.sig Kind.scVector Space.hbm Cert.Kernel.S4x160x160x160 EltTy.i32)
local notation "tW" => (Memref.whole Cert.Kernel.main_arg1_scv : Memref Cert.Kernel.sig Kind.scVector Space.hbm Cert.Kernel.S61 EltTy.i32)
local notation "oW" => (Memref.whole Cert.Kernel.main_v0_scv : Memref Cert.Kernel.sig Kind.scVector Space.hbm Cert.Kernel.S4x160x160x160 EltTy.i32)
local notation "s0" => (Memref.whole Cert.Kernel.cc0_scratch0 : Memref Cert.Kernel.sig Kind.scVector Space.vmem Cert.Kernel.S61 EltTy.i32)
local notation "s1" => (Memref.whole Cert.Kernel.cc0_scratch1 : Memref Cert.Kernel.sig Kind.scVector Space.vmem Cert.Kernel.S80x160 EltTy.i32)
local notation "s2" => (Memref.whole Cert.Kernel.cc0_scratch2 : Memref Cert.Kernel.sig Kind.scVector Space.vmem Cert.Kernel.S80x160 EltTy.i32)
local notation "s3" => (Memref.whole Cert.Kernel.cc0_scratch3 : Memref Cert.Kernel.sig Kind.scVector Space.vmem Cert.Kernel.S80x160 EltTy.i32)
local notation "s4" => (Memref.whole Cert.Kernel.cc0_scratch4 : Memref Cert.Kernel.sig Kind.scVector Space.vmem Cert.Kernel.S80x160 EltTy.i32)

/-! ## Slot 0's half of a trip of the outer loop -/

section
variable (m : (ℓ : Loc nD τ sig) → Buf (Elt F) ℓ) [FloatOps F] (d : Dev nD) (L : grid0.Coords)

/-- Slot 0's half of trip `k`: the wait for the chunk's labels, the wait for the previous write-out (from the second
    trip on), the rows, the write-out's issue, the next chunk's fetch (but at the last trip). -/
theorem slot0
    (v29 : BitVec 32) (k : Fin k0_t1_loop.trips) (hr : Spec.InRange (m (lLoc d)))
    (O : CellTallies nD τ sig (HIx 1)) (W : Waits sig (HIx 1))
    (fl : Buf (Elt F) ((thr d L).loc cc0_scratch0)) (hfl : ∀ j : S61.Idx, fl j = m (tLoc d) j)
    (Q : (Σ' (_ : BitVec 32), BitVec 32) → sProp 𝕄) :
    iprop(Transfers.MayWaits (thr d L) (none : HIx 1) O ∗ ((s0).view.loc (thr d L) ↦{fullShare} fl)
        ∗ inS0 m d L k.val ∗ outS0 m d L k.val
        ∗ (oLoc d ↦[chunkSet L (chunkN (2 * k.val))]{fullShare} m (oLoc d))
        ∗ owesW d L O W
        ∗ (∀ r, iprop(Transfers.MayWaits (thr d L) (none : HIx 1) O ∗ ((s0).view.loc (thr d L) ↦{fullShare} fl)
            ∗ inS0 m d L (k.val + 1) ∗ outS0 m d L (k.val + 1) ∗ ret0 m d L k.val ∗ owesW d L O W) -∗ Q r))
      ⊢ wp frame (wpE (defs₀ (F := F)) 𝒱₀ (thr d L) none) Set.univ (k0_part3 L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 v29 0#32 1#32 k) Q := by
  have hk : k.val < 20 := lt_of_lt_of_le k.isLt trips_le
  have hg0 : 2 * k.val < 40 := by omega
  have hoffW : k0_off3 L k 0#32 = chunkOff L (chunkN (2 * k.val)) := (off3_0 L k).trans (congrArg (chunkOff L) (chunkN_eq _ hg0).symm)
  conv =>
    rhs
    rw [k0_part3_eq_skeleton]
    unfold k0_part3_skel
  unfold inS0 outS0 ret0
  rw [if_pos hk]
  unfold owesW
  rw [inFl0.eq_1 m d L (chunkN (2 * k.val))]
  by_cases h1 : 1 ≤ k.val <;> by_cases h19 : k.val < 19
  · -- a middle trip: both waits, both issues
    have c1 : k0_cond1 k = 1#1 := (cond1_iff k).mpr h1
    have c2 : k0_cond2 k = 1#1 := (cond2_iff k).mpr h19
    rw [if_pos (⟨h1, by omega⟩ : 1 ≤ k.val ∧ k.val ≤ 20), if_pos (⟨by omega, by omega⟩ : 1 ≤ k.val + 1 ∧ k.val + 1 ≤ 20),
      if_pos (by omega : k.val + 1 < 20), if_pos (⟨h1, by omega⟩ : 1 ≤ k.val ∧ k.val ≤ 20)]
    rw [outFl0.eq_1 m d L (chunkN (2 * k.val - 2))]
    iintro ⟨Hmw, H0, ⟨HF0, Hl0⟩, ⟨%fo, HFO, H3⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [HF0 Hl0]
    · iapply (inFl0_of m d L (chunkN (2 * (k.val + 1))) (k0_off25 L k) (k0_off25_inb L k c2)
        ((off25_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitl [HFO_dst]; · iexact HFO_dst
    iexists (insert (SemLoc.dma cc0_scratch7.sem, (default : HIx 1)) (insert (SemLoc.dma cc0_scratch5.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the last trip: both waits, the write-out's issue, no further fetch
    have c1 : k0_cond1 k = 1#1 := (cond1_iff k).mpr h1
    have c2 : ¬ k0_cond2 k = 1#1 := fun h => h19 ((cond2_iff k).mp h)
    rw [if_pos (⟨h1, by omega⟩ : 1 ≤ k.val ∧ k.val ≤ 20), if_pos (⟨by omega, by omega⟩ : 1 ≤ k.val + 1 ∧ k.val + 1 ≤ 20),
      if_neg (by omega : ¬ k.val + 1 < 20), if_pos (⟨h1, by omega⟩ : 1 ≤ k.val ∧ k.val ≤ 20)]
    rw [outFl0.eq_1 m d L (chunkN (2 * k.val - 2))]
    unfold inIdle0
    iintro ⟨Hmw, H0, ⟨HF0, Hl0⟩, ⟨%fo, HFO, H3⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [H1 HF0 Hl0]
    · isplitl [H1]; · iexists _; iexact H1
      isplitl [Hl0]; · iexact Hl0
      iexact HF0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitl [HFO_dst]; · iexact HFO_dst
    iexists (insert (SemLoc.dma cc0_scratch7.sem, (default : HIx 1)) (insert (SemLoc.dma cc0_scratch5.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the first trip: no write-out to wait for
    have c1 : ¬ k0_cond1 k = 1#1 := fun h => h1 ((cond1_iff k).mp h)
    have c2 : k0_cond2 k = 1#1 := (cond2_iff k).mpr h19
    rw [if_neg (fun h : 1 ≤ k.val ∧ k.val ≤ 20 => h1 h.1), if_pos (⟨by omega, by omega⟩ : 1 ≤ k.val + 1 ∧ k.val + 1 ≤ 20),
      if_pos (by omega : k.val + 1 < 20), if_neg (fun h : 1 ≤ k.val ∧ k.val ≤ 20 => h1 h.1)]
    unfold outIdle0
    iintro ⟨Hmw, H0, ⟨HF0, Hl0⟩, ⟨⟨%fo, H3⟩, HFO⟩, Ho, ⟨%W', %hW', HO⟩, Hk⟩
    sl_exec
    rw [wp_bind]
    iapply (wp_wand_r frame (wpE (defs₀ (F := F)) 𝒱₀ (thr d L) none) Set.univ
      (Q := fun _ => iprop(((s1).view.loc (thr d L) ↦{fullShare} labRead d L m (chunkN (2 * k.val))) ∗ ((s0).view.loc (thr d L) ↦{fullShare} fl)
        ∗ ∃ fo', ((s3).view.loc (thr d L) ↦{fullShare} fo') ∗ ⌜∀ j, fo' j = lk fl (labRead d L m (chunkN (2 * k.val)) j)⌝)))
    isplitl [HF0_dst H0 H3]
    · iapply (rows0 d L v29 0#32 1#32 k _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val)) (k0_off3 L k 0#32) (k0_off3_inb L k 0) squeezes_S1x1x80x160_S80x160 hoffW fullShare _).symm) $$ Ho
    sl_exec
    sl_step
    iapply Hk
    isplitl [Hmw]; · iexact Hmw
    isplitl [H0]; · iexact H0
    isplitl [HF0 Hl0]
    · iapply (inFl0_of m d L (chunkN (2 * (k.val + 1))) (k0_off25 L k) (k0_off25_inb L k c2)
        ((off25_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 2 = 2 * k.val by omega]
      iapply (outFl0_of m d L (chunkN (2 * k.val)) (k0_off3 L k 0#32) (k0_off3_inb L k 0) hoffW fl fo' _ rfl hr hfl hfo' (m (oLoc d)))
      isplitl [HFO]; · iexact HFO
      iexact H3
    isplitr; · iempintro
    iexists (insert (SemLoc.dma cc0_scratch5.sem, (default : HIx 1)) W'); isplitr
    · ipureintro; intro p hp
      rcases Finset.mem_insert.mp hp with hp | hp
      · exact .inr (by rw [hp]; rfl)
      exact hW' p hp
    · iexact HO
  · exact absurd h19 (by omega)

end

end Cert.Proof.KB

end
-- ==== Proof.TripB.lean ====
import proofs.«204852_g4896262718038_cont_8to1_c_202_13_alg».proof.Proof.IfaceB
import proofs.«204852_g4896262718038_cont_8to1_c_202_13_alg».proof.Proof.Gen.Kernel.Skeleton
import proofs.«204852_g4896262718038_cont_8to1_c_202_13_alg».proof.Proof.Slot0B
import proofs.«204852_g4896262718038_cont_8to1_c_202_13_alg».proof.Proof.RowsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.Kernel.main_arg0_scv : Memref Cert.Kernel.sig Kind.scVector Space.hbm Cert.Kernel.S4x160x160x160 EltTy.i32)
local notation "tW" => (Memref.whole Cert.Kernel.main_arg1_scv : Memref Cert.Kernel.sig Kind.scVector Space.hbm Cert.Kernel.S61 EltTy.i32)
local notation "oW" => (Memref.whole Cert.Kernel.main_v0_scv : Memref Cert.Kernel.sig Kind.scVector Space.hbm Cert.Kernel.S4x160x160x160 EltTy.i32)
local notation "s0" => (Memref.whole Cert.Kernel.cc0_scratch0 : Memref Cert.Kernel.sig Kind.scVector Space.vmem Cert.Kernel.S61 EltTy.i32)
local notation "s1" => (Memref.whole Cert.Kernel.cc0_scratch1 : Memref Cert.Kernel.sig Kind.scVector Space.vmem Cert.Kernel.S80x160 EltTy.i32)
local notation "s2" => (Memref.whole Cert.Kernel.cc0_scratch2 : Memref Cert.Kernel.sig Kind.scVector Space.vmem Cert.Kernel.S80x160 EltTy.i32)
local notation "s3" => (Memref.whole Cert.Kernel.cc0_scratch3 : Memref Cert.Kernel.sig Kind.scVector Space.vmem Cert.Kernel.S80x160 EltTy.i32)
local notation "s4" => (Memref.whole Cert.Kernel.cc0_scratch4 : Memref Cert.Kernel.sig Kind.scVector Space.vmem Cert.Kernel.S80x160 EltTy.i32)

/-! ## One trip of the outer loop -/

section
variable (m : (ℓ : Loc nD τ sig) → Buf (Elt F) ℓ) [FloatOps F] (d : Dev nD) (L : grid0.Coords)

omit [FloatOps F] in
theorem pend_succ' (Φ : Fin 40 → sProp 𝕄) (k : Nat) (hk : k < 20) :
    bigSep (pendSet k) Φ = iprop(Φ (chunkN (2 * k)) ∗ Φ (chunkN (2 * k + 1)) ∗ bigSep (pendSet (k + 1)) Φ) := by
  rw [bigSep_pend_succ Φ k hk, chunkN_eq (2 * k) (by omega), chunkN_eq (2 * k + 1) (by omega)]
omit [FloatOps F] in
theorem done_succ' (Φ : Fin 40 → sProp 𝕄) (k : Nat) (h1 : 1 ≤ k) (hk : k ≤ 20) :
    bigSep (doneSet (k + 1)) Φ = iprop(bigSep (doneSet k) Φ ∗ Φ (chunkN (2 * k - 2)) ∗ Φ (chunkN (2 * k - 1))) := by
  rw [bigSep_done_succ Φ k h1 hk, chunkN_eq (2 * k - 2) (by omega), chunkN_eq (2 * k - 1) (by omega)]
omit [FloatOps F] in
theorem done_first (Φ : Fin 40 → sProp 𝕄) (k : Nat) (h : ¬ 1 ≤ k) : bigSep (doneSet (k + 1)) Φ = bigSep (doneSet k) Φ := by
  have h0 : k = 0 := by omega
  subst h0
  show bigSep (doneSet 1) Φ = _
  rw [doneSet_one, doneSet_zero]

omit [FloatOps F] in
theorem ret0_pos (k : Nat) (h : 1 ≤ k ∧ k ≤ 20) : ret0 m d L k = (oLoc d ↦[chunkSet L (chunkN (2 * k - 2))]{fullShare} want m d : sProp 𝕄) := by
  unfold ret0; rw [if_pos h]

/-- Trip `k` of the outer loop carries the invariant from `k` to `k + 1`: slot 0's half, then slot 1's. -/
theorem trip (v29 : BitVec 32) (k : Fin k0_t1_loop.trips) (acc : BitVec 32)
    (O : CellTallies nD τ sig (HIx 1)) (W : Waits sig (HIx 1))
    (fl : Buf (Elt F) ((thr d L).loc cc0_scratch0)) (hr : Spec.InRange (m (lLoc d))) (hfl : ∀ j : S61.Idx, fl j = m (tLoc d) j) :
    invO m d L fl O W k.val acc
      ⊢ wp frame (wpE (defs₀ (F := F)) 𝒱₀ (thr d L) none) Set.univ (k0_t1_body L (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 v29 k acc)
          (fun acc' => invO m d L fl O W (k.val + 1) acc') := by
  have hk : k.val < 20 := lt_of_lt_of_le k.isLt trips_le
  have hg1 : 2 * k.val + 1 < 40 := by omega
  have hoffW : k0_off3 L k 1#32 = chunkOff L (chunkN (2 * k.val + 1)) := (off3_1 L k).trans (congrArg (chunkOff L) (chunkN_eq _ hg1).symm)
  conv =>
    rhs
    unfold k0_t1_body
  rw [wp_bind]
  unfold invO
  rw [pend_succ' _ k.val hk]
  unfold inS1 outS1
  rw [if_pos hk, inFl1.eq_1 m d L (chunkN (2 * k.val + 1))]
  by_cases h1 : 1 ≤ k.val <;> by_cases h19 : k.val < 19
  · -- a middle trip
    have c1 : k0_cond3 k = 1#1 := (cond3_iff k).mpr h1
    have c2 : k0_cond4 k = 1#1 := (cond4_iff k).mpr h19
    rw [if_pos (⟨h1, by omega⟩ : 1 ≤ k.val ∧ k.val ≤ 20), if_pos (⟨by omega, by omega⟩ : 1 ≤ k.val + 1 ∧ k.val + 1 ≤ 20),
      if_pos (by omega : k.val + 1 < 20), outFl1.eq_1 m d L (chunkN (2 * k.val - 1)), done_succ' _ k.val h1 (by omega)]
    iintro ⟨Hmw, H0, HinS0, HoutS0, ⟨HF0, Hl0⟩, ⟨%fo, HFO, H3⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [HF0 Hl0]
    · iapply (inFl1_of m d L (chunkN (2 * (k.val + 1) + 1)) (k0_off47 L k) (k0_off47_inb L k c2)
        ((off47_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone Hret0 HFO_dst]
    · isplitl [Hdone]; · iexact Hdone
      isplitl [Hret0]
      · iapply (Entails.of_eq (ret0_pos m d L k.val ⟨h1, by omega⟩)); iexact Hret0
      iexact HFO_dst
    iexists (insert (SemLoc.dma cc0_scratch8.sem, (default : HIx 1)) (insert (SemLoc.dma cc0_scratch6.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the last trip
    have c1 : k0_cond3 k = 1#1 := (cond3_iff k).mpr h1
    have c2 : ¬ k0_cond4 k = 1#1 := fun h => h19 ((cond4_iff k).mp h)
    rw [if_pos (⟨h1, by omega⟩ : 1 ≤ k.val ∧ k.val ≤ 20), if_pos (⟨by omega, by omega⟩ : 1 ≤ k.val + 1 ∧ k.val + 1 ≤ 20),
      if_neg (by omega : ¬ k.val + 1 < 20), outFl1.eq_1 m d L (chunkN (2 * k.val - 1)), done_succ' _ k.val h1 (by omega)]
    unfold inIdle1
    iintro ⟨Hmw, H0, HinS0, HoutS0, ⟨HF0, Hl0⟩, ⟨%fo, HFO, H3⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [H1 HF0 Hl0]
    · isplitl [H1]; · iexists _; iexact H1
      isplitl [Hl0]; · iexact Hl0
      iexact HF0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone Hret0 HFO_dst]
    · isplitl [Hdone]; · iexact Hdone
      isplitl [Hret0]
      · iapply (Entails.of_eq (ret0_pos m d L k.val ⟨h1, by omega⟩)); iexact Hret0
      iexact HFO_dst
    iexists (insert (SemLoc.dma cc0_scratch8.sem, (default : HIx 1)) (insert (SemLoc.dma cc0_scratch6.sem, (default : HIx 1)) W')); isplitr
    · ipureintro; intro p hp
      rcases Finset.mem_insert.mp hp with hp | hp
      · exact .inr (by rw [hp]; rfl)
      rcases Finset.mem_insert.mp hp with hp | hp
      · exact .inr (by rw [hp]; rfl)
      exact hW' p hp
    · iexact HO
  · -- the first trip
    have c1 : ¬ k0_cond3 k = 1#1 := fun h => h1 ((cond3_iff k).mp h)
    have c2 : k0_cond4 k = 1#1 := (cond4_iff k).mpr h19
    rw [if_neg (fun h : 1 ≤ k.val ∧ k.val ≤ 20 => h1 h.1), if_pos (⟨by omega, by omega⟩ : 1 ≤ k.val + 1 ∧ k.val + 1 ≤ 20),
      if_pos (by omega : k.val + 1 < 20), done_first _ k.val h1]
    unfold outIdle1
    iintro ⟨Hmw, H0, HinS0, HoutS0, ⟨HF0, Hl0⟩, ⟨⟨%fo, H3⟩, HFO⟩, ⟨Ho0, Ho, Hpend⟩, Hdone, HOW⟩
    iapply (slot0 m d L v29 k hr O W fl hfl _)
    isplitl [Hmw]; · iexact Hmw
    isplitl [H0]; · iexact H0
    isplitl [HinS0]; · iexact HinS0
    isplitl [HoutS0]; · iexact HoutS0
    isplitl [Ho0]; · iexact Ho0
    isplitl [HOW]; · iexact HOW
    iintro %r ⟨Hmw, H0, HinS0, HoutS0, Hret0, HOW⟩
    obtain ⟨v80, v81⟩ := r
    unfold owesW
    icases HOW with ⟨%W', %hW', HO⟩
    icases Hret0 with -
    sl_exec
    rw [wp_bind]
    iapply (wp_wand_r frame (wpE (defs₀ (F := F)) 𝒱₀ (thr d L) none) Set.univ
      (Q := fun _ => iprop(((s2).view.loc (thr d L) ↦{fullShare} labRead d L m (chunkN (2 * k.val + 1))) ∗ ((s0).view.loc (thr d L) ↦{fullShare} fl)
        ∗ ∃ fo', ((s4).view.loc (thr d L) ↦{fullShare} fo') ∗ ⌜∀ j, fo' j = lk fl (labRead d L m (chunkN (2 * k.val + 1)) j)⌝)))
    isplitl [HF0_dst H0 H3]
    · iapply (rows1 d L _ fl fo (labRead_lt m d L _ hr))
      isplitl [HF0_dst]; · iexact HF0_dst
      isplitl [H0]; · iexact H0
      iexact H3
    iintro %acc' ⟨H1, H0, %fo', H3, %hfo'⟩
    ihave Ho' := (Entails.of_eq (pts_chunk_o (F := F) d L (chunkN (2 * k.val + 1)) (k0_off3 L k 1#32) (k0_off3_inb L k 1) squeezes_S1x1x80x160_S80x160 hoffW fullShare _).symm) $$ Ho
    sl_exec
    sl_step
    isplitl [Hmw]; · iexact Hmw
    isplitl [H0]; · iexact H0
    isplitl [HinS0]; · iexact HinS0
    isplitl [HoutS0]; · iexact HoutS0
    isplitl [HF0 Hl0]
    · iapply (inFl1_of m d L (chunkN (2 * (k.val + 1) + 1)) (k0_off47 L k) (k0_off47_inb L k c2)
        ((off47_eq L k h19).trans (congrArg (chunkOff L) ((chunkN_eq _ (by omega)).symm.trans (congrArg chunkN (by omega))))) _ _ rfl)
      isplitl [HF0]; · iexact HF0
      iexact Hl0
    isplitl [HFO H3]
    · rw [show 2 * (k.val + 1) - 1 = 2 * k.val + 1 by omega]
      iapply (outFl1_of m d L (chunkN (2 * k.val + 1)) (k0_off3 L k 1#32) (k0_off3_inb L k 1) hoffW fl fo' _ rfl hr hfl hfo' (m (oLoc d)))
      isplitl [HFO]; · iexact HFO
      iexact H3
    isplitl [Hpend]; · iexact Hpend
    isplitl [Hdone]; · iexact Hdone
    iexists (insert (SemLoc.dma cc0_scratch6.sem, (default : HIx 1)) W'); isplitr
    · ipureintro; intro p hp
      rcases Finset.mem_insert.mp hp with hp | hp
      · exact .inr (by rw [hp]; rfl)
      exact hW' p hp
    · iexact HO
  · exact absurd h19 (by omega)

end

end Cert.Proof.KB

end
-- ==== Proof.BodyB.lean ====
/-
  A tile's task, whole. The table is copied into the tile's scratch and the copy awaited; the first two chunks of labels
  are fetched, one per in-slot, each lent one of the two read tokens the tile's share of the labels is split into; the
  outer loop then runs its twenty trips under its invariant (a trip is proved on its own); and the two write-outs still in
  flight when the loop ends — of chunks 38 and 39 — are awaited. What is handed back: the two tokens and the remainder
  joined into the tile's share of the labels again, the share of the table, the forty chunks of the result at the table
  looked up at the labels — the thirty-eight the loop saw written out and the last two —, the scratch buffers and the
  semaphores at zero as found, and the waits recorded, each on a semaphore of the tile's own.
-/
import proofs.«204852_g4896262718038_cont_8to1_c_202_13_alg».proof.Proof.IfaceB
import proofs.«204852_g4896262718038_cont_8to1_c_202_13_alg».proof.Proof.Gen.Kernel.Skeleton
import proofs.«204852_g4896262718038_cont_8to1_c_202_13_alg».proof.Proof.GeomVB
import proofs.«204852_g4896262718038_cont_8to1_c_202_13_alg».proof.Proof.GeomXB
import proofs.«204852_g4896262718038_cont_8to1_c_202_13_alg».proof.Proof.GeomWB
import proofs.«204852_g4896262718038_cont_8to1_c_202_13_alg».proof.Proof.SetsB
import proofs.«204852_g4896262718038_cont_8to1_c_202_13_alg».proof.Proof.InvB
import proofs.«204852_g4896262718038_cont_8to1_c_202_13_alg».proof.Proof.ToksB
import proofs.«204852_g4896262718038_cont_8to1_c_202_13_alg».proof.Proof.OwnB
import proofs.«204852_g4896262718038_cont_8to1_c_202_13_alg».proof.Proof.GeomOffB
import proofs.«204852_g4896262718038_cont_8to1_c_202_13_alg».proof.Proof.TripB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lW" => (Memref.whole Cert.Kernel.main_arg0_scv : Memref Cert.Kernel.sig Kind.scVector Space.hbm Cert.Kernel.S4x160x160x160 EltTy.i32)
local notation "tW" => (Memref.whole Cert.Kernel.main_arg1_scv : Memref Cert.Kernel.sig Kind.scVector Space.hbm Cert.Kernel.S61 EltTy.i32)
local notation "oW" => (Memref.whole Cert.Kernel.main_v0_scv : Memref Cert.Kernel.sig Kind.scVector Space.hbm Cert.Kernel.S4x160x160x160 EltTy.i32)
local notation "s0" => (Memref.whole Cert.Kernel.cc0_scratch0 : Memref Cert.Kernel.sig Kind.scVector Space.vmem Cert.Kernel.S61 EltTy.i32)
local notation "s1" => (Memref.whole Cert.Kernel.cc0_scratch1 : Memref Cert.Kernel.sig Kind.scVector Space.vmem Cert.Kernel.S80x160 EltTy.i32)
local notation "s2" => (Memref.whole Cert.Kernel.cc0_scratch2 : Memref Cert.Kernel.sig Kind.scVector Space.vmem Cert.Kernel.S80x160 EltTy.i32)
local notation "s3" => (Memref.whole Cert.Kernel.cc0_scratch3 : Memref Cert.Kernel.sig Kind.scVector Space.vmem Cert.Kernel.S80x160 EltTy.i32)
local notation "s4" => (Memref.whole Cert.Kernel.cc0_scratch4 : Memref Cert.Kernel.sig Kind.scVector Space.vmem Cert.Kernel.S80x160 EltTy.i32)

variable (m : (ℓ : Loc nD τ sig) → Buf (Elt F) ℓ) [FloatOps F]

section
variable (d : Dev nD) (L : grid0.Coords)

omit [FloatOps F] in
theorem pts_l (q : PosShare TreeShare) (f : Buf (Elt F) (lLoc d)) : ((lW).view.loc (thr d L) ↦{q} f : sProp 𝕄) = lLoc d ↦{q} f := by
  simp only [Memref.view_whole, View.set_whole]
omit [FloatOps F] in
theorem pts_t (q : PosShare TreeShare) (f : Buf (Elt F) (tLoc d)) : ((tW).view.loc (thr d L) ↦{q} f : sProp 𝕄) = tLoc d ↦{q} f := by
  simp only [Memref.view_whole, View.set_whole]
omit [FloatOps F] in
theorem pts_s0 (f : Buf (Elt F) ((thr d L).loc cc0_scratch0)) : ((s0).view.loc (thr d L) ↦{fullShare} f : sProp 𝕄) = (thr d L).loc cc0_scratch0 ↦{fullShare} f := rfl
omit [FloatOps F] in
theorem pts_s1 (f : Buf (Elt F) ((thr d L).loc cc0_scratch1)) : ((s1).view.loc (thr d L) ↦{fullShare} f : sProp 𝕄) = (thr d L).loc cc0_scratch1 ↦{fullShare} f := rfl
omit [FloatOps F] in
theorem pts_s2 (f : Buf (Elt F) ((thr d L).loc cc0_scratch2)) : ((s2).view.loc (thr d L) ↦{fullShare} f : sProp 𝕄) = (thr d L).loc cc0_scratch2 ↦{fullShare} f := rfl
omit [FloatOps F] in
theorem pts_s3 (f : Buf (Elt F) ((thr d L).loc cc0_scratch3)) : ((s3).view.loc (thr d L) ↦{fullShare} f : sProp 𝕄) = (thr d L).loc cc0_scratch3 ↦{fullShare} f := rfl
omit [FloatOps F] in
theorem pts_s4 (f : Buf (Elt F) ((thr d L).loc cc0_scratch4)) : ((s4).view.loc (thr d L) ↦{fullShare} f : sProp 𝕄) = (thr d L).loc cc0_scratch4 ↦{fullShare} f := rfl

end

/-- The outer loop makes twenty trips. -/
theorem t1_trips : Scf.trips k0_t1_loop.lb k0_t1_loop.ub k0_t1_loop.st = 20 := by decide +kernel

set_option maxHeartbeats 1600000 in
theorem tile_body : TileBody (F := F) m := by
  intro d L hF hr O W hO
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold tileIn
  iintro ⟨#Hlv, -, ⟨Hl, Ht, Ho⟩, ⟨⟨%f0, Hs0⟩, ⟨%f1, Hs1⟩, ⟨%f2, Hs2⟩, ⟨%f3, Hs3⟩, ⟨%f4, Hs4⟩, Hbufs⟩, ⟨HsI0, HsI1, HsO0, HsO1, HsT, Hsems⟩, HO⟩
  ihave Hmw := ((K (F := F)).mayWaits_none (thr := thr d L) hO) $$ Hlv
  ihave Hl3 := (toks2 (F := F) (qT L)).1 $$ Hl
  icases Hl3 with ⟨Hld, Hl0, Hl1⟩
  ihave Hl0' := (Entails.of_eq (pts_l (F := F) d L (tokI0 L) _).symm) $$ Hl0
  ihave Hl1' := (Entails.of_eq (pts_l (F := F) d L (tokI1 L) _).symm) $$ Hl1
  ihave Ht' := (Entails.of_eq (pts_t (F := F) d L _ _).symm) $$ Ht
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  ihave Hs3' := (Entails.of_eq (pts_s3 (F := F) d L _).symm) $$ Hs3
  ihave Hs4' := (Entails.of_eq (pts_s4 (F := F) d L _).symm) $$ Hs4
  sl_exec
  sl_for (invO m d L (View.write (Elt F) (s0).view f0 (tile_body.sl.dma0 m d) Finset.univ) O W) $$ [Hmw Hs0' HsI0 Hl0' HsI1 Hl1' Hs3' HsO0 Hs4' HsO1 Ho HO]
  case region =>
    intro k acc
    have hfl : ∀ j : S61.Idx, (View.write (Elt F) (s0).view f0 (tile_body.sl.dma0 m d) Finset.univ) j = m (tLoc d) j := by
      intro j
      rw [View.write_whole_univ]
      rfl
    unfold tile_body.sl.prog.body_1
    exact trip m d L _ k acc O W _ hr hfl
  · unfold invO
    isplitr; · iexact Hmw
    isplitl [Hs0']; · iexact Hs0'
    isplitl [HsI0 Hl0']
    · rw [show inS0 m d L 0 = inFl0 m d L (chunkN (2 * 0)) from if_pos (by decide)]
      iapply (inFl0_of m d L (chunkN (2 * 0)) (k0_off1 L 0#32) (k0_off1_inb L 0) (off1_0 L) f1 (tile_body.sl.dma0_1 m d L) rfl)
      isplitl [HsI0]; · iexact HsI0
      iexact Hl0'
    isplitl [Hs3' HsO0]
    · rw [show outS0 m d L 0 = outIdle0 d L from if_neg (by omega)]; unfold outIdle0
      isplitl [Hs3']; · iexists _; iexact Hs3'
      iexact HsO0
    isplitl [HsI1 Hl1']
    · rw [show inS1 m d L 0 = inFl1 m d L (chunkN (2 * 0 + 1)) from if_pos (by decide)]
      iapply (inFl1_of m d L (chunkN (2 * 0 + 1)) (k0_off2 L 0#32) (k0_off2_inb L 0) (off2_0 L) f2 (tile_body.sl.dma0_2 m d L) rfl)
      isplitl [HsI1]; · iexact HsI1
      iexact Hl1'
    isplitl [Hs4' HsO1]
    · rw [show outS1 m d L 0 = outIdle1 d L from if_neg (by omega)]; unfold outIdle1
      isplitl [Hs4']; · iexists _; iexact Hs4'
      iexact HsO1
    isplitl [Ho]
    · rw [pendSet_zero]; iexact Ho
    isplitr
    · rw [doneSet_zero, bigSep_empty]; iempintro
    unfold owesW
    iexists (insert (SemLoc.dma cc0_scoped0.sem, (default : HIx 1)) W); isplitr
    · ipureintro; intro p hp
      rcases Finset.mem_insert.mp hp with hp | hp
      · exact .inr (hp ▸ rfl)
      · exact .inl hp
    · iexact HO
  iintro %acc HI
  rw [t1_trips]
  ihave HI' := (Entails.of_eq (invO.eq_1 (F := F) m d L _ O W 20 acc)) $$ HI
  icases HI' with ⟨-, Hs0, HinS0, HoutS0, HinS1, HoutS1, Hpend, Hdone, HW⟩
  ihave HinS0' := (Entails.of_eq ((show inS0 m d L 20 = inIdle0 m d L from if_neg (by omega)).trans (inIdle0.eq_1 m d L))) $$ HinS0
  ihave HinS1' := (Entails.of_eq ((show inS1 m d L 20 = inIdle1 m d L from if_neg (by omega)).trans (inIdle1.eq_1 m d L))) $$ HinS1
  ihave HoutS0' := (Entails.of_eq ((show outS0 m d L 20 = outFl0 m d L (chunkN (2 * 20 - 2)) from if_pos ⟨by omega, by omega⟩).trans (outFl0.eq_1 m d L _))) $$ HoutS0
  ihave HoutS1' := (Entails.of_eq ((show outS1 m d L 20 = outFl1 m d L (chunkN (2 * 20 - 1)) from if_pos ⟨by omega, by omega⟩).trans (outFl1.eq_1 m d L _))) $$ HoutS1
  ihave HW' := (Entails.of_eq (owesW.eq_1 (F := F) d L O W)) $$ HW
  icases HinS0' with ⟨⟨%g1, Hs1⟩, Hl0, HsI0⟩
  icases HinS1' with ⟨⟨%g2, Hs2⟩, Hl1, HsI1⟩
  icases HoutS0' with ⟨%fo3, HF3, Hr3⟩
  icases HoutS1' with ⟨%fo4, HF4, Hr4⟩
  icases HW' with ⟨%W', %hW', HO⟩
  sl_exec
  sl_step
  isplitl [Hld Hl0 Hl1 Ht' Hdone HF3_dst HF4_dst]
  · unfold tileOut
    isplitl [Hld Hl0 Hl1]
    · iapply (toks2 (F := F) (qT L)).2
      isplitl [Hld]; · iexact Hld
      isplitl [Hl0]
      · iapply (Entails.of_eq (pts_l (F := F) d L (tokI0 L) _)); iexact Hl0
      · iapply (Entails.of_eq (pts_l (F := F) d L (tokI1 L) _)); iexact Hl1
    isplitl [Ht']
    · iapply (Entails.of_eq (pts_t (F := F) d L _ _)); iexact Ht'
    rw [bigSep_all_done]
    isplitl [Hdone]; · iexact Hdone
    isplitl [HF3_dst]
    · iexact HF3_dst
    · iexact HF4_dst
  isplitl [Hs0 Hs1 Hs2 Hr3 Hr4 Hbufs]
  · isplitl [Hs0]; · iexists _; iexact Hs0
    isplitl [Hs1]; · iexists _; iexact Hs1
    isplitl [Hs2]; · iexists _; iexact Hs2
    isplitl [Hr3]; · iexists _; iexact Hr3
    isplitl [Hr4]; · iexists _; iexact Hr4
    iexact Hbufs
  isplitl [HsI0 HsI1 HF3 HF4 HsT Hsems]
  · isplitl [HsI0]; · iexact HsI0
    isplitl [HsI1]; · iexact HsI1
    isplitl [HF3]; · iexact HF3
    isplitl [HF4]; · iexact HF4
    isplitl [HsT]; · iexact HsT
    iexact Hsems
  iexists (insert (SemLoc.dma cc0_scratch8.sem, (default : HIx 1)) (insert (SemLoc.dma cc0_scratch7.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Cert.Proof.KB

end
-- ==== Proof.RefRun.lean ====
/-
  The reference program's run and the value it leaves. The reference is `jnp.take(lut, labels)`: @main calls the lookup,
  which wraps negative labels (`x + 61` where `x < 0`, a select written as a call of its own), turns the wrapped labels
  into start indices with a trailing unit axis, masks the indices inside `[0, 60]` (two signed comparisons, their
  conjunction reduced over the unit axis), gathers the table at the start indices (each read signed and clamped into
  the table) and selects between the gathered value and the fill `INT_MIN` by the mask. Run as a straight line of its
  twenty-two host operations, @main leaves in its result buffer that term of the two arguments' contents and leaves the
  arguments as they were. Where every label, read as a natural number, is below 61, each label is non-negative as a
  signed word: the wrap leaves it, the mask is one, the clamp leaves it, and the gathered value is the table's entry at
  the label — the table looked up at every label.
-/
import proofs.«204852_g4896262718038_cont_8to1_c_202_13_alg».proof.ReferenceIdeal
import proofs.«204852_g4896262718038_cont_8to1_c_202_13_alg».proof.Proof.Gen.ReferenceIdeal
import proofs.«204852_g4896262718038_cont_8to1_c_202_13_alg».proof.Proof.Spec
import Idealize.ShloMosaic.Lib.StableHlo.Run
import Idealize.ShloMosaic.Lib.ValueIdx
import Idealize.ShloMosaic.Lib.Pipeline.Value
import Idealize.ShloMosaic.Lib.ReduceAll

noncomputable section

namespace Cert.Proof.Ref

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- @main's operations in order, the two calls unfolded: the table lookup's wrap of negative labels (a comparison with
    zero, the sum with 61, the select between them), the labels as start indices with a trailing unit axis, the bounds
    mask `0 ≤ idx ≤ 60` reduced over that axis, the gather, and the select between the gathered value and the fill. -/
abbrev ops : List (HloOp τ sig (Elt F)) :=
  [ TRef.nullary main_call0.c (constantI S_ 32 0#32),
    TRef.unary main_call0.c main_call0.v0 (broadcastInDim S4x160x160x160 ![] bcast_S_S4x160x160x160),
    TRef.binary (.of main_arg0) main_call0.v0 main_call0.v1 (cmpi .slt),
    TRef.nullary main_call0.c_0 (constantI S_ 32 61#32),
    TRef.unary main_call0.c_0 main_call0.v2 (broadcastInDim S4x160x160x160 ![] bcast_S_S4x160x160x160),
    TRef.binary (.of main_arg0) main_call0.v2 main_call0.v3 addi,
    TRef.ternary main_call0.v1 main_call0.v3 (.of main_arg0) main_call0.call0.v0 select,
    TRef.unary main_call0.call0.v0 main_call0.v5 (broadcastInDim S4x160x160x160x1 ![0, 1, 2, 3] bcast_S4x160x160x160_S4x160x160x160x1_0_1_2_3),
    TRef.nullary main_call0.c_1 (constantI S1 32 60#32),
    TRef.nullary main_call0.c_2 (constantI S_ 32 0#32),
    TRef.unary main_call0.c_2 main_call0.v6 (broadcastInDim S4x160x160x160x1 ![] bcast_S_S4x160x160x160x1),
    TRef.binary main_call0.v5 main_call0.v6 main_call0.v7 (cmpi .sge),
    TRef.unary main_call0.c_1 main_call0.v8 (broadcastInDim S1x1x1x1x1 ![4] bcast_S1_S1x1x1x1x1_4),
    TRef.unary main_call0.v8 main_call0.v9 (broadcastInDim S4x160x160x160x1 ![0, 1, 2, 3, 4] bcast_S1x1x1x1x1_S4x160x160x160x1_0_1_2_3_4),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x160x160x160x1_S4x160x160x160_d4 h_S_),
    TRef.binary (.of main_arg1) main_call0.v5 main_call0.v13 (fun x i => Host.gather gather_S61_S4x160x160x160x1_S4x160x160x160_n_0_n_n_0_4_1 x i),
    TRef.nullary main_call0.c_4 (constantI S_ 32 2147483648#32),
    TRef.unary main_call0.c_4 main_call0.v14 (broadcastInDim S4x160x160x160 ![] bcast_S_S4x160x160x160),
    TRef.ternary main_call0.v12 main_call0.v13 main_call0.v14 main_call0.v15 select ]

set_option maxRecDepth 1024 in
/-- @main is that straight line: the two functions' definitions unfolded at their calls, both sides one chain of
    operations once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-! ## The value: the reference's result as one term of the labels and the table, and that term read at an index -/

section Value

/-- The labels with the negative ones wrapped (`x + 61` where `x < 0`), as `jnp.take` reads them. -/
def wrapped (lab : IVec S4x160x160x160 32) : IVec S4x160x160x160 32 :=
  select (cmpi .slt lab (broadcastInDim S4x160x160x160 ![] bcast_S_S4x160x160x160 (constantI S_ 32 0#32)))
    (addi lab (broadcastInDim S4x160x160x160 ![] bcast_S_S4x160x160x160 (constantI S_ 32 61#32))) lab

/-- The wrapped labels as the gather's start indices: a trailing unit axis added. -/
def idx5 (lab : IVec S4x160x160x160 32) : IVec S4x160x160x160x1 32 :=
  broadcastInDim S4x160x160x160x1 ![0, 1, 2, 3] bcast_S4x160x160x160_S4x160x160x160x1_0_1_2_3 (wrapped lab)

/-- The reference's result: where the start index is within `[0, 60]` the table's entry there, elsewhere the fill. -/
def refTerm (lab : IVec S4x160x160x160 32) (lut : IVec S61 32) : IVec S4x160x160x160 32 :=
  select
    (Host.reduce IntOp.andi
      (andi (cmpi .sge (idx5 lab) (broadcastInDim S4x160x160x160x1 ![] bcast_S_S4x160x160x160x1 (constantI S_ 32 0#32)))
        (cmpi .sle (idx5 lab) (broadcastInDim S4x160x160x160x1 ![0, 1, 2, 3, 4] bcast_S1x1x1x1x1_S4x160x160x160x1_0_1_2_3_4
          (broadcastInDim S1x1x1x1x1 ![4] bcast_S1_S1x1x1x1x1_4 (constantI S1 32 60#32)))))
      (constantI S_ 1 1#1) reducesTo_S4x160x160x160x1_S4x160x160x160_d4 h_S_)
    (Host.gather gather_S61_S4x160x160x160x1_S4x160x160x160_n_0_n_n_0_4_1 lut (idx5 lab))
    (broadcastInDim S4x160x160x160 ![] bcast_S_S4x160x160x160 (constantI S_ 32 2147483648#32))

/-- A label below 61 is non-negative as a signed word: the wrap leaves it. -/
theorem wrapped_apply (lab : IVec S4x160x160x160 32) (i : S4x160x160x160.Idx) (h : (lab i).toNat < 61) :
    wrapped lab i = lab i := by
  have e : IntOp.cmpi .slt (lab i) 0#32 = 0#1 := by
    have ofBool_eq_zero (p : Bool) : (BitVec.ofBool p = 0#1) ↔ p = false := by cases p <;> decide
    simp only [IntOp.cmpi, ofBool_eq_zero, BitVec.slt_eq_decide, decide_eq_false_iff_not, BitVec.toInt_eq_toNat_cond,
      BitVec.toNat_ofNat, Nat.reducePow, Nat.reduceMod]
    omega
  show Scalar.select (IntOp.cmpi .slt (lab i) 0#32) _ (lab i) = lab i
  rw [e, select_zero]

/-- The four leading coordinates of a start-indices index. -/
abbrev lead (j : S4x160x160x160x1.Idx) : S4x160x160x160.Idx :=
  ix4 (n0 := 4) (n1 := 160) (n2 := 160) (n3 := 160) (j 0) (j 1) (j 2) (j 3)

/-- The start indices at an index are the wrapped labels at its four leading coordinates. -/
theorem idx5_apply (lab : IVec S4x160x160x160 32) (j : S4x160x160x160x1.Idx) : idx5 lab j = wrapped lab (lead j) := by
  unfold idx5
  refine broadcastInDim_apply _ _ _ j (lead j) fun a => ?_
  match a with
  | ⟨0, _⟩ => rfl
  | ⟨1, _⟩ => rfl
  | ⟨2, _⟩ => rfl
  | ⟨3, _⟩ => rfl

/-- A word below 61 passes both signed bounds checks. -/
theorem cmp_of_lt (v : BitVec 32) (h : v.toNat < 61) : IntOp.andi (IntOp.cmpi .sge v 0#32) (IntOp.cmpi .sle v 60#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod]
  omega

/-- A left fold by `and` from 1 over words that are all 1 is 1. -/
theorem foldl_andi_one {ι : Type} (f : ι → BitVec 1) : ∀ (l : List ι), (∀ n ∈ l, f n = 1#1) →
    l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- With every label below 61 the bounds mask is 1 everywhere. -/
theorem mask_apply (lab : IVec S4x160x160x160 32) (hr : Cert.Proof.Spec.InRange lab) (i : S4x160x160x160.Idx) :
    Host.reduce IntOp.andi
      (andi (cmpi .sge (idx5 lab) (broadcastInDim S4x160x160x160x1 ![] bcast_S_S4x160x160x160x1 (constantI S_ 32 0#32)))
        (cmpi .sle (idx5 lab) (broadcastInDim S4x160x160x160x1 ![0, 1, 2, 3, 4] bcast_S1x1x1x1x1_S4x160x160x160x1_0_1_2_3_4
          (broadcastInDim S1x1x1x1x1 ![4] bcast_S1_S1x1x1x1x1_4 (constantI S1 32 60#32)))))
      (constantI S_ 1 1#1) reducesTo_S4x160x160x160x1_S4x160x160x160_d4 h_S_ i = 1#1 := by
  rw [Host.reduce_eq_foldl]
  refine foldl_andi_one _ _ fun j _ => ?_
  show IntOp.andi (IntOp.cmpi .sge (idx5 lab j) 0#32) (IntOp.cmpi .sle (idx5 lab j) 60#32) = 1#1
  rw [idx5_apply, wrapped_apply lab _ (hr _)]
  exact cmp_of_lt _ (hr _)

/-- The start-indices index `[i, 0]` of result index `i`. -/
abbrev startIdx (i : S4x160x160x160.Idx) : S4x160x160x160x1.Idx :=
  ix5 (n0 := 4) (n1 := 160) (n2 := 160) (n3 := 160) (n4 := 1) (i 0) (i 1) (i 2) (i 3) ⟨0, Nat.one_pos⟩

/-- The gather read at `i`: the table at the start index `idx[i, 0]`, read signed and clamped into `[0, 60]`. -/
theorem gather_apply (lut : IVec S61 32) (idx : IVec S4x160x160x160x1 32) (i : S4x160x160x160.Idx) :
    Host.gather gather_S61_S4x160x160x160x1_S4x160x160x160_n_0_n_n_0_4_1 lut idx i
      = lut (ix1 (n := 61) ⟨min (idx (startIdx i)).toInt.toNat 60, by omega⟩) := by
  unfold Host.gather
  congr 1
  funext a
  obtain rfl : a = 0 := Subsingleton.elim _ _
  refine Fin.ext ?_
  show gather_S61_S4x160x160x160x1_S4x160x160x160_n_0_n_n_0_4_1.start i idx 0
    + gather_S61_S4x160x160x160x1_S4x160x160x160_n_0_n_n_0_4_1.batchCoord i 0
    + gather_S61_S4x160x160x160x1_S4x160x160x160_n_0_n_n_0_4_1.offCoord i 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S61_S4x160x160x160x1_S4x160x160x160_n_0_n_n_0_4_1.startIndexMap from List.mem_singleton.mpr rfl)]
  have hsi : gather_S61_S4x160x160x160x1_S4x160x160x160_n_0_n_n_0_4_1.siIdx i
      ⟨List.idxOf (0 : Fin 1) gather_S61_S4x160x160x160x1_S4x160x160x160_n_0_n_n_0_4_1.startIndexMap,
        List.idxOf_lt_length_iff.2 (List.mem_singleton.mpr rfl)⟩ = startIdx i := by
    funext b; refine Fin.ext ?_
    match b with
    | ⟨0, _⟩ => rfl
    | ⟨1, _⟩ => rfl
    | ⟨2, _⟩ => rfl
    | ⟨3, _⟩ => rfl
    | ⟨4, _⟩ => rfl
  rw [hsi]
  rfl

/-- With every label below 61 the reference's result is the table looked up at every label. -/
theorem refTerm_eq_lookup (lab : IVec S4x160x160x160 32) (lut : IVec S61 32) (hr : Cert.Proof.Spec.InRange lab) :
    refTerm lab lut = Cert.Proof.Spec.lookup lab lut := by
  funext i
  have hi : (lab i).toNat < 61 := hr i
  rw [Cert.Proof.Spec.lookup_apply i hi]
  unfold refTerm
  rw [select_apply, mask_apply lab hr i, select_one, gather_apply]
  have hl : lead (startIdx i) = i := by
    funext a
    match a with
    | ⟨0, _⟩ => rfl
    | ⟨1, _⟩ => rfl
    | ⟨2, _⟩ => rfl
    | ⟨3, _⟩ => rfl
  have hv : idx5 lab (startIdx i) = lab i := by rw [idx5_apply, hl, wrapped_apply lab i hi]
  unfold Cert.Proof.Spec.entry
  refine congrArg lut (congrArg (ix1 (n := 61)) (Fin.ext ?_))
  show min (idx5 lab (startIdx i)).toInt.toNat 60 = (lab i).toNat
  rw [hv, BitVec.toInt_eq_toNat_cond]
  have : (lab i).toNat < 2 ^ 32 := (lab i).isLt
  split <;> omega

end Value

/-! ## The run -/

/-- A value stored through a typed reference and read back through it is the value. -/
theorem ofBuf_toBuf {T : BufTy} (x : TRef sig T) (v : T.Contents (Elt F)) : x.ofBuf (x.toBuf v) = v := by
  simp only [TRef.ofBuf, TRef.toBuf, cast_cast, cast_eq]

/-- What the result buffer holds after the line: the reference's term of the two arguments' contents. (Each operation's
    result read at its own buffer, the typed references' transports the identity.) -/
theorem out_eq (V : Valuation τ sig (Elt F)) :
    after ops V (main_v0 : DevRef τ sig) = refTerm (V (main_arg0 : DevRef τ sig)) (V (main_arg1 : DevRef τ sig)) := by
  have e0 : (TRef.of (sig := sig) (T := ⟨S4x160x160x160, .i32⟩) main_arg0).ofBuf (V (main_arg0 : DevRef τ sig)) = V (main_arg0 : DevRef τ sig) := rfl
  have e1 : (TRef.of (sig := sig) (T := ⟨S61, .i32⟩) main_arg1).ofBuf (V (main_arg1 : DevRef τ sig)) = V (main_arg1 : DevRef τ sig) := rfl
  after_results
  simp only [ofBuf_toBuf]
  rw [e0, e1]
  unfold refTerm idx5 wrapped
  exact eq_of_heq (cast_heq _ _)

/-- No operation writes the labels. -/
theorem arg0_eq (V : Valuation τ sig (Elt F)) : after ops V (main_arg0 : DevRef τ sig) = V (main_arg0 : DevRef τ sig) := by
  after_results

/-- No operation writes the table. -/
theorem arg1_eq (V : Valuation τ sig (Elt F)) : after ops V (main_arg1 : DevRef τ sig) = V (main_arg1 : DevRef τ sig) := by
  after_results

/-- The reference at the ideal instance, from any memory whose labels all name an entry of the table: every weakly fair
    execution of @main terminates with the result buffer at the table looked up at every label, and the two arguments
    unchanged. -/
theorem run (m' : (ℓ : Loc Cert.ReferenceIdeal.nD Cert.ReferenceIdeal.τ Cert.ReferenceIdeal.sig) → Buf (Elt Ideal) ℓ)
    (g' : Dev Cert.ReferenceIdeal.nD → PrngReg)
    (hr : ∀ c : Dev Cert.ReferenceIdeal.nD,
      Cert.Proof.Spec.InRange (m' ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = Cert.Proof.Spec.lookup (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
              = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m' ((c.tc : Thread Cert.ReferenceIdeal.nD Cert.ReferenceIdeal.τ).loc Cert.ReferenceIdeal.main_arg1)) :=
  (θ_run defs _ _).mono
    (fun _ h c => ⟨(h c main_v0).trans ((out_eq _).trans (refTerm_eq_lookup _ _ (hr c))),
      (h c main_arg0).trans (arg0_eq _), (h c main_arg1).trans (arg1_eq _)⟩)
    (run_seq scopedRefs_eq scopedSems_eq defs main (fun _ => ops) main_eq (fun _ => ops_sub) m' g')

end Cert.Proof.Ref

end
-- ==== Proof.PreRange.lean ====
/-
  From the certificate's precondition to the range of the labels. The precondition is the conjunction over the whole
  label array of `0 ≤ x ∧ x ≤ 60` (both comparisons signed), reduced by `and` to a single bit; that bit being one, each
  label's two comparisons hold, and a 32-bit word that is non-negative as a signed number is its own natural value:
  every label, read as a natural number, is below 61.
-/
import proofs.«204852_g4896262718038_cont_8to1_c_202_13_alg».proof.Pre_input_domain
import proofs.«204852_g4896262718038_cont_8to1_c_202_13_alg».proof.Proof.Gen.Pre_input_domain
import proofs.«204852_g4896262718038_cont_8to1_c_202_13_alg».proof.Proof.Spec
import Idealize.ShloMosaic.Lib.ReduceAll

noncomputable section

namespace Cert.Proof.PreRange

open Idealize.ShloMosaic
open Cert.Pre_input_domain Cert.Pre_input_domain.Gen

/-- The shape with no axes has one index. -/
instance : Subsingleton Cert.Pre_input_domain.S_.Idx := ⟨fun a b => funext fun d => d.elim0⟩

/-- One label's pair of signed comparisons, both true: the label is a natural number below 61. -/
theorem lt_of_cmp (v : BitVec 32) (e : IntOp.andi (IntOp.cmpi .sge v 0#32) (IntOp.cmpi .sle v 60#32) = 1#1) : v.toNat < 61 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition all ones: every label names an entry of the table. -/
theorem inRange_of_pre {F : FTy → Type} [FloatOps F] (a0 : IVec Cert.Pre_input_domain.S4x160x160x160 32)
    (a1 : IVec Cert.Pre_input_domain.S61 32) (h : Cert.Pre_input_domain.fn (F := F) a0 a1 = fun _ => 1#1) :
    Cert.Proof.Spec.InRange a0 := by
  intro i
  have e := congrFun h ValueIdx.ix0
  dsimp only [Cert.Pre_input_domain.fn] at e
  have e' := Host.reduce_andi_all _ _ _ _ _ e i
  simp only [andi, cmpi, broadcastInDim, constantI] at e'
  exact lt_of_cmp _ e'

end Cert.Proof.PreRange

end
-- ==== Proof.lean ====
/-
  The certificate of a table lookup, `out[i] = lut[labels[i]]`: labels a 4×160×160×160 array of 32-bit words, the table
  61 words, the kernel run on the 32 vector subcores of the device's two SparseCores, the reference `jnp.take`.

  The precondition says of every label that it lies between 0 and 60 as a signed word; such a word, read as a natural
  number, names an entry of the table. Under it:

  - The kernel runs to completion without fault. Tile `(core, subcore)` has number `2·subcore + core`; it copies the
    table into its own scratch and then, for each of its forty chunks of 80×160 labels, copies the chunk in, looks the
    labels up in the table sixteen at a time, and copies the result out, two chunks in flight at a time. The chunks of
    the 32 tiles partition the array, every tile only reads the labels and the table, and so the result ends at the
    table looked up at every label with the labels and the table unchanged. The kernel has no floating-point
    operation: the program at the word level and the program at the ideal instance are the same text, and the same
    proof, written once and stated over each program's names, gives both frames.
  - The reference runs to completion: on labels in range its wrap of negative labels, its bounds mask and its clamp
    are the identity, and its result is the table looked up at every label, its arguments unchanged.
  - So from memories that agree on the two arguments both programs end with equal results, that array; and the
    idealization rewrote no operation, so there is nothing for it to preserve.
-/
import proofs.«204852_g4896262718038_cont_8to1_c_202_13_alg».proof.Defs
import proofs.«204852_g4896262718038_cont_8to1_c_202_13_alg».proof.Proof.Gen.Kernel
import proofs.«204852_g4896262718038_cont_8to1_c_202_13_alg».proof.Proof.Gen.Kernel.Skeleton
import proofs.«204852_g4896262718038_cont_8to1_c_202_13_alg».proof.Proof.Gen.KernelIdeal
import proofs.«204852_g4896262718038_cont_8to1_c_202_13_alg».proof.Proof.Gen.KernelIdeal.Skeleton
import proofs.«204852_g4896262718038_cont_8to1_c_202_13_alg».proof.Proof.Gen.ReferenceIdeal
import proofs.«204852_g4896262718038_cont_8to1_c_202_13_alg».proof.Proof.Gen.Pre_input_domain
import proofs.«204852_g4896262718038_cont_8to1_c_202_13_alg».proof.Proof.Launch
import proofs.«204852_g4896262718038_cont_8to1_c_202_13_alg».proof.Proof.LaunchB
import proofs.«204852_g4896262718038_cont_8to1_c_202_13_alg».proof.Proof.Body
import proofs.«204852_g4896262718038_cont_8to1_c_202_13_alg».proof.Proof.BodyB
import proofs.«204852_g4896262718038_cont_8to1_c_202_13_alg».proof.Proof.RefRun
import proofs.«204852_g4896262718038_cont_8to1_c_202_13_alg».proof.Proof.PreRange
import Idealize.ShloMosaic.Adequacy
import Idealize.ShloMosaic.Init

noncomputable section

namespace Cert.Proof

open Idealize.ShloMosaic Idealize.SL.Sem

/-- The kernel at the word level runs, its arguments unchanged. -/
theorem frame_Kernel : Cert.frame_Kernel := fun m g hpre =>
  (θ_run (Cert.Kernel.defs (F := Bits)) _ _).mono (fun _ h c => (h c).2)
    (KB.run_main (F := Bits) m g (KB.tile_body m) fun d => PreRange.inRange_of_pre _ _ (hpre d))

/-- The kernel at the ideal instance runs, its arguments unchanged. -/
theorem frame_KernelIdeal : Cert.frame_KernelIdeal := fun m g hpre =>
  (θ_run (Cert.KernelIdeal.defs (F := Ideal)) _ _).mono (fun _ h c => (h c).2)
    (KI.run_main (F := Ideal) m g (KI.tile_body m) fun d => PreRange.inRange_of_pre _ _ (hpre d))

/-- The reference runs, its arguments unchanged. -/
theorem frame_ReferenceIdeal : Cert.frame_ReferenceIdeal := fun m g hpre =>
  (θ_run (Cert.ReferenceIdeal.defs (F := Ideal)) _ _).mono (fun _ h c => (h c).2)
    (Ref.run m g fun c => PreRange.inRange_of_pre _ _ (hpre c))

/-- From memories that agree on the labels and the table, the kernel and the reference both end at the table looked up
    at every label. -/
theorem algebraic : Cert.algebraic_KernelIdeal_ReferenceIdeal := by
  intro m g m' g' hpre hagree
  have hr : ∀ d, Spec.InRange (m (KI.lLoc d)) := fun d => PreRange.inRange_of_pre _ _ (hpre d)
  refine ⟨fun c => KI.want m c, KI.run_main (F := Ideal) m g (KI.tile_body m) hr, ?_⟩
  refine (θ_run (Cert.ReferenceIdeal.defs (F := Ideal)) _ _).mono (fun _ h c => ⟨(h c).1.trans ?_, (h c).2⟩)
    (Ref.run m' g' fun c => by rw [(hagree c).1]; exact hr c)
  rw [(hagree c).1, (hagree c).2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
